-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67_0)) (v1 : (c : Dev Cert.KernelIdeal.nD) → Buf (Elt Ideal) ((c.tc : Thread Cert.KernelIdeal.nD Cert.KernelIdeal.τ).loc Cert.KernelIdeal.main_v67_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_0) = v0 c
          ∧ r.2.mem ((c.tc : Thread Cert.KernelIdeal.nD Cert.KernelIdeal.τ).loc Cert.KernelIdeal.main_v67_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x8 : Shape := ⟨2, ![512, 8]⟩
abbrev S8 : Shape := ⟨1, ![8]⟩
abbrev S8x40 : Shape := ⟨2, ![8, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x8 : S_.BroadcastsInDim S512x8 (![] : Fin 0 → Fin S512x8.rank)
  reducesTo_S512x8_S_d0_1 : S512x8.ReducesTo [0, 1] S_
  bcast_S_S8 : S_.BroadcastsInDim S8 (![] : Fin 0 → Fin S8.rank)
  reducesTo_S8_S_d0 : S8.ReducesTo [0] S_
  bcast_S_S8x40 : S_.BroadcastsInDim S8x40 (![] : Fin 0 → Fin S8x40.rank)
  reducesTo_S8x40_S_d0_1 : S8x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S8x40 1) : IVec S_ 1 :=
  let main_c_5 : IVec S_ 1 := constantI S_ 1 1#1
  let main_v17 : IVec S_ 1 := (fun x v => Host.reduce IntOp.andi x v reducesTo_S8x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x8 .f32) (main_arg3 : FVec F S8 .f32) (main_arg4 : FVec F S8x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x8 .f32 := Host.absf main_arg2
  let main_cst_0 : FVec F S_ .f32 := constant S_ .f32 0x7F800000#32
  let main_v5 : FVec F S512x8 .f32 := broadcastInDim S512x8 ![] bcast_S_S512x8 main_cst_0
  let main_v6 : IVec S512x8 1 := cmpf .olt main_v4 main_v5
  let main_c_1 : IVec S_ 1 := constantI S_ 1 1#1
  let main_v7 : IVec S_ 1 := (fun x v => Host.reduce IntOp.andi x v reducesTo_S512x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x40 .f32 := Host.absf main_arg4
  let main_cst_4 : FVec F S_ .f32 := constant S_ .f32 0x7F800000#32
  let main_v15 : FVec F S8x40 .f32 := broadcastInDim S8x40 ![] bcast_S_S8x40 main_cst_4
  let main_v16 : IVec S8x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x8 : Shape := ⟨2, ![512, 8]⟩
abbrev S8 : Shape := ⟨1, ![8]⟩
abbrev S8x40 : Shape := ⟨2, ![8, 40]⟩
abbrev S40 : Shape := ⟨1, ![40]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x8 : Shape := ⟨2, ![100000, 8]⟩
abbrev S5000x512 : Shape := ⟨2, ![5000, 512]⟩
abbrev S5000x8 : Shape := ⟨2, ![5000, 8]⟩
abbrev S3200000x8 : Shape := ⟨2, ![3200000, 8]⟩
abbrev S100000x1 : Shape := ⟨2, ![100000, 1]⟩
abbrev S1x8 : Shape := ⟨2, ![1, 8]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 89
  | .vmem => 13
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x8, .f32⟩
  | .hbm, ⟨3, _⟩ => ⟨S8, .f32⟩
  | .hbm, ⟨4, _⟩ => ⟨S8x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000, .f32⟩
  | .hbm, ⟨39, _⟩ => ⟨S3200000, .f32⟩
  | .hbm, ⟨40, _⟩ => ⟨S3200000x1, .f32⟩
  | .hbm, ⟨41, _⟩ => ⟨S100000x8, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000x8, .f32⟩
  | .hbm, ⟨51, _⟩ => ⟨S3200000x8, .f32⟩
  | .hbm, ⟨52, _⟩ => ⟨S3200000x8, .f32⟩
  | .hbm, ⟨53, _⟩ => ⟨S_, .f32⟩
  | .hbm, ⟨54, _⟩ => ⟨S100000x8, .f32⟩
  | .hbm, ⟨55, _⟩ => ⟨S3200000x1, .i32⟩
  | .hbm, ⟨56, _⟩ => ⟨S100000x8, .f32⟩
  | .hbm, ⟨57, _⟩ => ⟨S100000x1, .f32⟩
  | .hbm, ⟨58, _⟩ => ⟨S100000x8, .f32⟩
  | .hbm, ⟨59, _⟩ => ⟨S100000x8, .f32⟩
  | .hbm, ⟨60, _⟩ => ⟨S100000x8, .f32⟩
  | .hbm, ⟨61, _⟩ => ⟨S1x8, .f32⟩
  | .hbm, ⟨62, _⟩ => ⟨S100000x8, .f32⟩
  | .hbm, ⟨63, _⟩ => ⟨S100000x8, .f32⟩
  | .hbm, ⟨64, _⟩ => ⟨S_, .f32⟩
  | .hbm, ⟨65, _⟩ => ⟨S100000x8, .f32⟩
  | .hbm, ⟨66, _⟩ => ⟨S100000x8, .f32⟩
  | .hbm, ⟨67, _⟩ => ⟨S_, .i32⟩
  | .hbm, ⟨68, _⟩ => ⟨S3200000, .i32⟩
  | .hbm, ⟨69, _⟩ => ⟨S3200000, .i1⟩
  | .hbm, ⟨70, _⟩ => ⟨S_, .i32⟩
  | .hbm, ⟨71, _⟩ => ⟨S3200000, .i32⟩
  | .hbm, ⟨72, _⟩ => ⟨S3200000, .i32⟩
  | .hbm, ⟨73, _⟩ => ⟨S3200000, .i32⟩
  | .hbm, ⟨74, _⟩ => ⟨S3200000x1, .i32⟩
  | .hbm, ⟨75, _⟩ => ⟨S3200000x8, .f32⟩
  | .hbm, ⟨76, _⟩ => ⟨S3200000x8, .f32⟩
  | .hbm, ⟨77, _⟩ => ⟨S3200000x8, .f32⟩
  | .hbm, ⟨78, _⟩ => ⟨S_, .f32⟩
  | .hbm, ⟨79, _⟩ => ⟨S100000x8, .f32⟩
  | .hbm, ⟨80, _⟩ => ⟨S3200000x1, .i32⟩
  | .hbm, ⟨81, _⟩ => ⟨S100000x8, .f32⟩
  | .hbm, ⟨82, _⟩ => ⟨S100000x1, .f32⟩
  | .hbm, ⟨83, _⟩ => ⟨S100000x8, .f32⟩
  | .hbm, ⟨84, _⟩ => ⟨S100000x8, .f32⟩
  | .hbm, ⟨85, _⟩ => ⟨S100000x8, .f32⟩
  | .hbm, ⟨86, _⟩ => ⟨S1x40, .f32⟩
  | .hbm, ⟨87, _⟩ => ⟨S100000x40, .f32⟩
  | .hbm, ⟨88, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x8, .f32⟩
  | .local _ .vmem, ⟨3, _⟩ => ⟨S5000x8, .f32⟩
  | .local _ .vmem, ⟨4, _⟩ => ⟨S5000x8, .f32⟩
  | .local _ .vmem, ⟨5, _⟩ => ⟨S5000x8, .f32⟩
  | .local _ .vmem, ⟨6, _⟩ => ⟨S5000x8, .f32⟩
  | .local _ .vmem, ⟨7, _⟩ => ⟨S8x40, .f32⟩
  | .local _ .vmem, ⟨8, _⟩ => ⟨S1x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_c_9 : Ref sig .tc := ⟨.hbm, 67, rfl⟩
abbrev main_v50 : Ref sig .tc := ⟨.hbm, 68, rfl⟩
abbrev main_v51 : Ref sig .tc := ⟨.hbm, 69, rfl⟩
abbrev main_c_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67_0 : Ref sig .tc := ⟨.hbm, 87, rfl⟩
abbrev main_v67_1 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x8_S512x8_0_0 : ∀ a, (![0, 0] : Fin 2 → Nat) a + S512x8.size a ≤ S512x8.size a
  h_S512x8 : 0 < S512x8.numel
  inb_S5000x8_S5000x8_0_0 : ∀ a, (![0, 0] : Fin 2 → Nat) a + S5000x8.size a ≤ S5000x8.size a
  h_S5000x8 : 0 < S5000x8.numel
  bcast_S3200000x1_S3200000x8_0_1 : S3200000x1.BroadcastsInDim S3200000x8 (![0, 1] : Fin 2 → Fin S3200000x8.rank)
  bcast_S_S100000x8 : S_.BroadcastsInDim S100000x8 (![] : Fin 0 → Fin S100000x8.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  shapeCasts_S40_S1x40 : S40.ShapeCasts S1x40
  shapeCasts_S5000x8_S5000x8 : S5000x8.ShapeCasts S5000x8
  inb_S8x40_S8x40_0_0 : ∀ a, (![0, 0] : Fin 2 → Nat) a + S8x40.size a ≤ S8x40.size a
  h_S8x40 : 0 < S8x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x512_S512x8_S5000x8_1_0_0_1_n_n_wf : DotDims.WF S5000x512 S512x8 S5000x8 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  dot_S5000x8_S8x40_S5000x40_1_0_0_1_n_n_wf : DotDims.WF S5000x8 S8x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x8.size a ≤ S512x8.size a
  hwx0_1 : ∀ i : grid0.Coords, EltTy.bits .f32 = 32 ∨ (Rect.block (s := S512x8) S512x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x8.size a ≤ S100000x8.size a
  hwx0_2 : ∀ i : grid0.Coords, EltTy.bits .f32 = 32 ∨ (Rect.block (s := S100000x8) S5000x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x8.size a ≤ S100000x8.size a
  hwx1_0 : ∀ i : grid1.Coords, EltTy.bits .f32 = 32 ∨ (Rect.block (s := S100000x8) S5000x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x40.size a ≤ S8x40.size a
  hwx1_1 : ∀ i : grid1.Coords, EltTy.bits .f32 = 32 ∨ (Rect.block (s := S8x40) S8x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x40.size a ≤ S1x40.size a
  hwx1_2 : ∀ i : grid1.Coords, EltTy.bits .f32 = 32 ∨ (Rect.block (s := S1x40) S1x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x40.size a ≤ S100000x40.size a
  hwx1_4 : ∀ i : grid1.Coords, EltTy.bits .f32 = 32 ∨ (Rect.block (s := S100000x40) S5000x40.size (cc1_transform_4 i) (hinb1_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x512_S512x8_S5000x8_1_0_0_1_n_n : DotDims S5000x512 S512x8 S5000x8 where
  lhsContracting := [1]
  rhsContracting := [0]
  lhsNonContracting := [0]
  rhsNonContracting := [1]
  lhsBatch := []
  rhsBatch := []
  wf := dot_S5000x512_S512x8_S5000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def dot_S5000x8_S8x40_S5000x40_1_0_0_1_n_n : DotDims S5000x8 S8x40 S5000x40 where
  lhsContracting := [1]
  rhsContracting := [0]
  lhsNonContracting := [0]
  rhsNonContracting := [1]
  lhsBatch := []
  rhsBatch := []
  wf := dot_S5000x8_S8x40_S5000x40_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v65) S5000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S8x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v66) S1x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67_0) S5000x40.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v67_1) S5000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x8 : Shape := ⟨2, ![512, 8]⟩
abbrev S8 : Shape := ⟨1, ![8]⟩
abbrev S8x40 : Shape := ⟨2, ![8, 40]⟩
abbrev S40 : Shape := ⟨1, ![40]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x8 : Shape := ⟨2, ![100000, 8]⟩
abbrev S3300000x8 : Shape := ⟨2, ![3300000, 8]⟩
abbrev S1x8 : Shape := ⟨2, ![1, 8]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 146
  | .vmem => 0
  | .smem => 0
  | _ => 0

abbrev hbmTy0_0 (i : Nat) : BufTy := match i % 128 with
  | 0 => ⟨S100000x512, .f32⟩
  | 1 => ⟨S2x3200000, .i32⟩
  | 2 => ⟨S512x8, .f32⟩
  | 3 => ⟨S8, .f32⟩
  | 4 => ⟨S8x40, .f32⟩
  | 5 => ⟨S40, .f32⟩
  | 6 => ⟨S1x3200000, .i32⟩
  | 7 => ⟨S3200000, .i32⟩
  | 8 => ⟨S1x3200000, .i32⟩
  | 9 => ⟨S3200000, .i32⟩
  | 10 => ⟨S100000, .i32⟩
  | 11 => ⟨S3300000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S100000x8, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x8, .f32⟩
  | 59 => ⟨S3300000x1, .f32⟩
  | 60 => ⟨S3300000x8, .f32⟩
  | 61 => ⟨S3300000x8, .f32⟩
  | 62 => ⟨S_, .f32⟩
  | 63 => ⟨S100000x8, .f32⟩
  | 64 => ⟨S3300000x1, .i32⟩
  | 65 => ⟨S100000x8, .f32⟩
  | 66 => ⟨S1x8, .f32⟩
  | 67 => ⟨S100000x8, .f32⟩
  | 68 => ⟨S100000x8, .f32⟩
  | 69 => ⟨S_, .f32⟩
  | 70 => ⟨S100000x8, .f32⟩
  | 71 => ⟨S100000x8, .f32⟩
  | 72 => ⟨S100000, .i32⟩
  | 73 => ⟨S3300000, .i32⟩
  | 74 => ⟨S3300000, .i32⟩
  | 75 => ⟨S_, .f32⟩
  | 76 => ⟨S3300000, .f32⟩
  | 77 => ⟨S_, .f32⟩
  | 78 => ⟨S100000, .f32⟩
  | 79 => ⟨S3300000x1, .i32⟩
  | 80 => ⟨S100000, .f32⟩
  | 81 => ⟨S_, .f32⟩
  | 82 => ⟨S100000, .f32⟩
  | 83 => ⟨S100000, .i1⟩
  | 84 => ⟨S_, .f32⟩
  | 85 => ⟨S100000, .f32⟩
  | 86 => ⟨S100000, .f32⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000, .f32⟩
  | 110 => ⟨S3300000, .f32⟩
  | 111 => ⟨S100000x40, .f32⟩
  | 112 => ⟨S_, .i32⟩
  | 113 => ⟨S3300000, .i32⟩
  | 114 => ⟨S3300000, .i1⟩
  | 115 => ⟨S_, .i32⟩
  | 116 => ⟨S3300000, .i32⟩
  | 117 => ⟨S3300000, .i32⟩
  | 118 => ⟨S3300000, .i32⟩
  | 119 => ⟨S3300000x1, .i32⟩
  | 120 => ⟨S3300000x40, .f32⟩
  | 121 => ⟨S3300000x1, .f32⟩
  | 122 => ⟨S3300000x40, .f32⟩
  | 123 => ⟨S3300000x40, .f32⟩
  | 124 => ⟨S_, .f32⟩
  | 125 => ⟨S100000x40, .f32⟩
  | 126 => ⟨S3300000x1, .i32⟩
  | 127 => ⟨S100000x40, .f32⟩
  | _ => ⟨S100000x512, .f32⟩

abbrev hbmTy0_1 (i : Nat) : BufTy := match i % 128 with
  | 0 => ⟨S1x40, .f32⟩
  | 1 => ⟨S100000x40, .f32⟩
  | 2 => ⟨S100000x40, .f32⟩
  | 3 => ⟨S_, .f32⟩
  | 4 => ⟨S100000, .f32⟩
  | 5 => ⟨S_, .f32⟩
  | 6 => ⟨S100000, .f32⟩
  | 7 => ⟨S100000, .f32⟩
  | 8 => ⟨S100000x1, .f32⟩
  | 9 => ⟨S100000x40, .f32⟩
  | 10 => ⟨S100000x40, .f32⟩
  | 11 => ⟨S100000x40, .f32⟩
  | 12 => ⟨S_, .f32⟩
  | 13 => ⟨S100000, .f32⟩
  | 14 => ⟨S100000x1, .f32⟩
  | 15 => ⟨S100000x1, .f32⟩
  | 16 => ⟨S100000x40, .f32⟩
  | 17 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_14 : Ref sig .tc := ⟨.hbm, 88, rfl⟩
abbrev main_call2_v0 : Ref sig .tc := ⟨.hbm, 89, rfl⟩
abbrev main_call2_v1 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_19 : Ref sig .tc := ⟨.hbm, 112, rfl⟩
abbrev main_v79 : Ref sig .tc := ⟨.hbm, 113, rfl⟩
abbrev main_v80 : Ref sig .tc := ⟨.hbm, 114, rfl⟩
abbrev main_c_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_21 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_call3_cst_0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_v6 : Ref sig .tc := ⟨.hbm, 139, rfl⟩
abbrev main_call3_cst_1 : Ref sig .tc := ⟨.hbm, 140, rfl⟩
abbrev main_call3_v7 : Ref sig .tc := ⟨.hbm, 141, rfl⟩
abbrev main_call3_v8 : Ref sig .tc := ⟨.hbm, 142, rfl⟩
abbrev main_call3_v9 : Ref sig .tc := ⟨.hbm, 143, rfl⟩
abbrev main_call3_v10 : Ref sig .tc := ⟨.hbm, 144, rfl⟩
abbrev main_v95 : Ref sig .tc := ⟨.hbm, 145, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x8_S100000x8_1_0_0_1_n_n_wf : DotDims.WF S100000x512 S512x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  dot_S100000x8_S8x40_S100000x40_1_0_0_1_n_n_wf : DotDims.WF S100000x8 S8x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x8_S100000x8_1_0_0_1_n_n : DotDims S100000x512 S512x8 S100000x8 where
  lhsContracting := [1]
  rhsContracting := [0]
  lhsNonContracting := [0]
  rhsNonContracting := [1]
  lhsBatch := []
  rhsBatch := []
  wf := dot_S100000x512_S512x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def dot_S100000x8_S8x40_S100000x40_1_0_0_1_n_n : DotDims S100000x8 S8x40 S100000x40 where
  lhsContracting := [1]
  rhsContracting := [0]
  lhsNonContracting := [0]
  rhsNonContracting := [1]
  lhsBatch := []
  rhsBatch := []
  wf := dot_S100000x8_S8x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KStages.lean ====
/-
  The host arithmetic of the kernel program, one stage per host operation, as pure functions of the argument
  arrays: `kv_<buffer>` is what the operation writes, in program order. The first launch's result (the node
  features times the first weight matrix) enters the later stages as the parameter `h28`, so that the stages are
  stated before anything is known of the launch.
-/
import proofs.«170954_j36249523978477_2_alg».proof.Proof.Gen.KernelIdeal

noncomputable section

namespace Cert.KernelIdeal.KStage

open Cert.KernelIdeal Cert.KernelIdeal.Gen Idealize.ShloMosaic Idealize.ShloMosaic.TcCoe Idealize.SL.Sem Idealize.ShloMosaic.StableHlo

variable {F : FTy → Type} [FloatOps F]

def kv_main_v0 (x1 : (⟨S2x3200000, .i32⟩ : BufTy).Contents (Elt F)) : (⟨S1x3200000, .i32⟩ : BufTy).Contents (Elt F) :=
  ((extractStridedSlice S1x3200000 ![0, 0] · slices_S2x3200000_S1x3200000_0_0) : (⟨S2x3200000, .i32⟩ : BufTy).Contents (Elt F) → (⟨S1x3200000, .i32⟩ : BufTy).Contents (Elt F)) x1

def kv_main_v1 (x1 : (⟨S2x3200000, .i32⟩ : BufTy).Contents (Elt F)) : (⟨S3200000, .i32⟩ : BufTy).Contents (Elt F) :=
  shapeCast _ (kv_main_v0 (F := F) x1) shapeCasts_S1x3200000_S3200000

def kv_main_v2 (x1 : (⟨S2x3200000, .i32⟩ : BufTy).Contents (Elt F)) : (⟨S1x3200000, .i32⟩ : BufTy).Contents (Elt F) :=
  ((extractStridedSlice S1x3200000 ![1, 0] · slices_S2x3200000_S1x3200000_1_0) : (⟨S2x3200000, .i32⟩ : BufTy).Contents (Elt F) → (⟨S1x3200000, .i32⟩ : BufTy).Contents (Elt F)) x1

def kv_main_v3 (x1 : (⟨S2x3200000, .i32⟩ : BufTy).Contents (Elt F)) : (⟨S3200000, .i32⟩ : BufTy).Contents (Elt F) :=
  shapeCast _ (kv_main_v2 (F := F) x1) shapeCasts_S1x3200000_S3200000

def kv_main_cst : (⟨S_, .f32⟩ : BufTy).Contents (Elt F) :=
  constant S_ .f32 0x3F800000#32

def kv_main_v4 : (⟨S3200000, .f32⟩ : BufTy).Contents (Elt F) :=
  (broadcastInDim S3200000 ![] bcast_S_S3200000 : (⟨S_, .f32⟩ : BufTy).Contents (Elt F) → (⟨S3200000, .f32⟩ : BufTy).Contents (Elt F)) (kv_main_cst (F := F))

def kv_main_cst_0 : (⟨S_, .f32⟩ : BufTy).Contents (Elt F) :=
  constant S_ .f32 0x00000000#32

def kv_main_v5 : (⟨S100000, .f32⟩ : BufTy).Contents (Elt F) :=
  (broadcastInDim S100000 ![] bcast_S_S100000 : (⟨S_, .f32⟩ : BufTy).Contents (Elt F) → (⟨S100000, .f32⟩ : BufTy).Contents (Elt F)) (kv_main_cst_0 (F := F))

def kv_main_v6 (x1 : (⟨S2x3200000, .i32⟩ : BufTy).Contents (Elt F)) : (⟨S3200000x1, .i32⟩ : BufTy).Contents (Elt F) :=
  (broadcastInDim S3200000x1 ![0] bcast_S3200000_S3200000x1_0 : (⟨S3200000, .i32⟩ : BufTy).Contents (Elt F) → (⟨S3200000x1, .i32⟩ : BufTy).Contents (Elt F)) (kv_main_v3 (F := F) x1)

def kv_main_v7 (x1 : (⟨S2x3200000, .i32⟩ : BufTy).Contents (Elt F)) : (⟨S100000, .f32⟩ : BufTy).Contents (Elt F) :=
  ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)) (kv_main_v5 (F := F)) (kv_main_v6 (F := F) x1) (kv_main_v4 (F := F))

def kv_main_cst_1 : (⟨S_, .f32⟩ : BufTy).Contents (Elt F) :=
  constant S_ .f32 0x3F800000#32

def kv_main_v8 : (⟨S100000, .f32⟩ : BufTy).Contents (Elt F) :=
  (broadcastInDim S100000 ![] bcast_S_S100000 : (⟨S_, .f32⟩ : BufTy).Contents (Elt F) → (⟨S100000, .f32⟩ : BufTy).Contents (Elt F)) (kv_main_cst_1 (F := F))

def kv_main_v9 (x1 : (⟨S2x3200000, .i32⟩ : BufTy).Contents (Elt F)) : (⟨S100000, .f32⟩ : BufTy).Contents (Elt F) :=
  (addf : (⟨S100000, .f32⟩ : BufTy).Contents (Elt F) → (⟨S100000, .f32⟩ : BufTy).Contents (Elt F) → (⟨S100000, .f32⟩ : BufTy).Contents (Elt F)) (kv_main_v7 (F := F) x1) (kv_main_v8 (F := F))

def kv_main_v10 (x1 : (⟨S2x3200000, .i32⟩ : BufTy).Contents (Elt F)) : (⟨S100000, .f32⟩ : BufTy).Contents (Elt F) :=
  (Host.rsqrt : (⟨S100000, .f32⟩ : BufTy).Contents (Elt F) → (⟨S100000, .f32⟩ : BufTy).Contents (Elt F)) (kv_main_v9 (F := F) x1)

def kv_main_v11 (x1 : (⟨S2x3200000, .i32⟩ : BufTy).Contents (Elt F)) : (⟨S100000, .f32⟩ : BufTy).Contents (Elt F) :=
  (mulf : (⟨S100000, .f32⟩ : BufTy).Contents (Elt F) → (⟨S100000, .f32⟩ : BufTy).Contents (Elt F) → (⟨S100000, .f32⟩ : BufTy).Contents (Elt F)) (kv_main_v10 (F := F) x1) (kv_main_v10 (F := F) x1)

def kv_main_c : (⟨S_, .i32⟩ : BufTy).Contents (Elt F) :=
  constantI S_ 32 0#32

def kv_main_v12 : (⟨S3200000, .i32⟩ : BufTy).Contents (Elt F) :=
  (broadcastInDim S3200000 ![] bcast_S_S3200000 : (⟨S_, .i32⟩ : BufTy).Contents (Elt F) → (⟨S3200000, .i32⟩ : BufTy).Contents (Elt F)) (kv_main_c (F := F))

def kv_main_v13 (x1 : (⟨S2x3200000, .i32⟩ : BufTy).Contents (Elt F)) : (⟨S3200000, .i1⟩ : BufTy).Contents (Elt F) :=
  (cmpi .slt : (⟨S3200000, .i32⟩ : BufTy).Contents (Elt F) → (⟨S3200000, .i32⟩ : BufTy).Contents (Elt F) → (⟨S3200000, .i1⟩ : BufTy).Contents (Elt F)) (kv_main_v1 (F := F) x1) (kv_main_v12 (F := F))

def kv_main_c_2 : (⟨S_, .i32⟩ : BufTy).Contents (Elt F) :=
  constantI S_ 32 100000#32

def kv_main_v14 : (⟨S3200000, .i32⟩ : BufTy).Contents (Elt F) :=
  (broadcastInDim S3200000 ![] bcast_S_S3200000 : (⟨S_, .i32⟩ : BufTy).Contents (Elt F) → (⟨S3200000, .i32⟩ : BufTy).Contents (Elt F)) (kv_main_c_2 (F := F))

def kv_main_v15 (x1 : (⟨S2x3200000, .i32⟩ : BufTy).Contents (Elt F)) : (⟨S3200000, .i32⟩ : BufTy).Contents (Elt F) :=
  (addi : (⟨S3200000, .i32⟩ : BufTy).Contents (Elt F) → (⟨S3200000, .i32⟩ : BufTy).Contents (Elt F) → (⟨S3200000, .i32⟩ : BufTy).Contents (Elt F)) (kv_main_v1 (F := F) x1) (kv_main_v14 (F := F))

def kv_main_v16 (x1 : (⟨S2x3200000, .i32⟩ : BufTy).Contents (Elt F)) : (⟨S3200000, .i32⟩ : BufTy).Contents (Elt F) :=
  (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) (kv_main_v13 (F := F) x1) (kv_main_v15 (F := F) x1) (kv_main_v1 (F := F) x1)

def kv_main_v17 (x1 : (⟨S2x3200000, .i32⟩ : BufTy).Contents (Elt F)) : (⟨S3200000x1, .i32⟩ : BufTy).Contents (Elt F) :=
  (broadcastInDim S3200000x1 ![0] bcast_S3200000_S3200000x1_0 : (⟨S3200000, .i32⟩ : BufTy).Contents (Elt F) → (⟨S3200000x1, .i32⟩ : BufTy).Contents (Elt F)) (kv_main_v16 (F := F) x1)

def kv_main_v18 (x1 : (⟨S2x3200000, .i32⟩ : BufTy).Contents (Elt F)) : (⟨S3200000, .f32⟩ : BufTy).Contents (Elt F) :=
  ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)) (kv_main_v10 (F := F) x1) (kv_main_v17 (F := F) x1)

def kv_main_c_3 : (⟨S_, .i32⟩ : BufTy).Contents (Elt F) :=
  constantI S_ 32 0#32

def kv_main_v19 : (⟨S3200000, .i32⟩ : BufTy).Contents (Elt F) :=
  (broadcastInDim S3200000 ![] bcast_S_S3200000 : (⟨S_, .i32⟩ : BufTy).Contents (Elt F) → (⟨S3200000, .i32⟩ : BufTy).Contents (Elt F)) (kv_main_c_3 (F := F))

def kv_main_v20 (x1 : (⟨S2x3200000, .i32⟩ : BufTy).Contents (Elt F)) : (⟨S3200000, .i1⟩ : BufTy).Contents (Elt F) :=
  (cmpi .slt : (⟨S3200000, .i32⟩ : BufTy).Contents (Elt F) → (⟨S3200000, .i32⟩ : BufTy).Contents (Elt F) → (⟨S3200000, .i1⟩ : BufTy).Contents (Elt F)) (kv_main_v3 (F := F) x1) (kv_main_v19 (F := F))

def kv_main_c_4 : (⟨S_, .i32⟩ : BufTy).Contents (Elt F) :=
  constantI S_ 32 100000#32

def kv_main_v21 : (⟨S3200000, .i32⟩ : BufTy).Contents (Elt F) :=
  (broadcastInDim S3200000 ![] bcast_S_S3200000 : (⟨S_, .i32⟩ : BufTy).Contents (Elt F) → (⟨S3200000, .i32⟩ : BufTy).Contents (Elt F)) (kv_main_c_4 (F := F))

def kv_main_v22 (x1 : (⟨S2x3200000, .i32⟩ : BufTy).Contents (Elt F)) : (⟨S3200000, .i32⟩ : BufTy).Contents (Elt F) :=
  (addi : (⟨S3200000, .i32⟩ : BufTy).Contents (Elt F) → (⟨S3200000, .i32⟩ : BufTy).Contents (Elt F) → (⟨S3200000, .i32⟩ : BufTy).Contents (Elt F)) (kv_main_v3 (F := F) x1) (kv_main_v21 (F := F))

def kv_main_v23 (x1 : (⟨S2x3200000, .i32⟩ : BufTy).Contents (Elt F)) : (⟨S3200000, .i32⟩ : BufTy).Contents (Elt F) :=
  (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) (kv_main_v20 (F := F) x1) (kv_main_v22 (F := F) x1) (kv_main_v3 (F := F) x1)

def kv_main_v24 (x1 : (⟨S2x3200000, .i32⟩ : BufTy).Contents (Elt F)) : (⟨S3200000x1, .i32⟩ : BufTy).Contents (Elt F) :=
  (broadcastInDim S3200000x1 ![0] bcast_S3200000_S3200000x1_0 : (⟨S3200000, .i32⟩ : BufTy).Contents (Elt F) → (⟨S3200000x1, .i32⟩ : BufTy).Contents (Elt F)) (kv_main_v23 (F := F) x1)

def kv_main_v25 (x1 : (⟨S2x3200000, .i32⟩ : BufTy).Contents (Elt F)) : (⟨S3200000, .f32⟩ : BufTy).Contents (Elt F) :=
  ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)) (kv_main_v10 (F := F) x1) (kv_main_v24 (F := F) x1)

def kv_main_v26 (x1 : (⟨S2x3200000, .i32⟩ : BufTy).Contents (Elt F)) : (⟨S3200000, .f32⟩ : BufTy).Contents (Elt F) :=
  (mulf : (⟨S3200000, .f32⟩ : BufTy).Contents (Elt F) → (⟨S3200000, .f32⟩ : BufTy).Contents (Elt F) → (⟨S3200000, .f32⟩ : BufTy).Contents (Elt F)) (kv_main_v18 (F := F) x1) (kv_main_v25 (F := F) x1)

def kv_main_v27 (x1 : (⟨S2x3200000, .i32⟩ : BufTy).Contents (Elt F)) : (⟨S3200000x1, .f32⟩ : BufTy).Contents (Elt F) :=
  (broadcastInDim S3200000x1 ![0] bcast_S3200000_S3200000x1_0 : (⟨S3200000, .f32⟩ : BufTy).Contents (Elt F) → (⟨S3200000x1, .f32⟩ : BufTy).Contents (Elt F)) (kv_main_v26 (F := F) x1)

def kv_main_c_5 : (⟨S_, .i32⟩ : BufTy).Contents (Elt F) :=
  constantI S_ 32 0#32

def kv_main_v29 : (⟨S3200000, .i32⟩ : BufTy).Contents (Elt F) :=
  (broadcastInDim S3200000 ![] bcast_S_S3200000 : (⟨S_, .i32⟩ : BufTy).Contents (Elt F) → (⟨S3200000, .i32⟩ : BufTy).Contents (Elt F)) (kv_main_c_5 (F := F))

def kv_main_v30 (x1 : (⟨S2x3200000, .i32⟩ : BufTy).Contents (Elt F)) : (⟨S3200000, .i1⟩ : BufTy).Contents (Elt F) :=
  (cmpi .slt : (⟨S3200000, .i32⟩ : BufTy).Contents (Elt F) → (⟨S3200000, .i32⟩ : BufTy).Contents (Elt F) → (⟨S3200000, .i1⟩ : BufTy).Contents (Elt F)) (kv_main_v1 (F := F) x1) (kv_main_v29 (F := F))

def kv_main_c_6 : (⟨S_, .i32⟩ : BufTy).Contents (Elt F) :=
  constantI S_ 32 100000#32

def kv_main_v31 : (⟨S3200000, .i32⟩ : BufTy).Contents (Elt F) :=
  (broadcastInDim S3200000 ![] bcast_S_S3200000 : (⟨S_, .i32⟩ : BufTy).Contents (Elt F) → (⟨S3200000, .i32⟩ : BufTy).Contents (Elt F)) (kv_main_c_6 (F := F))

def kv_main_v32 (x1 : (⟨S2x3200000, .i32⟩ : BufTy).Contents (Elt F)) : (⟨S3200000, .i32⟩ : BufTy).Contents (Elt F) :=
  (addi : (⟨S3200000, .i32⟩ : BufTy).Contents (Elt F) → (⟨S3200000, .i32⟩ : BufTy).Contents (Elt F) → (⟨S3200000, .i32⟩ : BufTy).Contents (Elt F)) (kv_main_v1 (F := F) x1) (kv_main_v31 (F := F))

def kv_main_v33 (x1 : (⟨S2x3200000, .i32⟩ : BufTy).Contents (Elt F)) : (⟨S3200000, .i32⟩ : BufTy).Contents (Elt F) :=
  (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) (kv_main_v30 (F := F) x1) (kv_main_v32 (F := F) x1) (kv_main_v1 (F := F) x1)

def kv_main_v34 (x1 : (⟨S2x3200000, .i32⟩ : BufTy).Contents (Elt F)) : (⟨S3200000x1, .i32⟩ : BufTy).Contents (Elt F) :=
  (broadcastInDim S3200000x1 ![0] bcast_S3200000_S3200000x1_0 : (⟨S3200000, .i32⟩ : BufTy).Contents (Elt F) → (⟨S3200000x1, .i32⟩ : BufTy).Contents (Elt F)) (kv_main_v33 (F := F) x1)

def kv_main_v35 (x1 : (⟨S2x3200000, .i32⟩ : BufTy).Contents (Elt F)) (h28 : (⟨S100000x8, .f32⟩ : BufTy).Contents (Elt F)) : (⟨S3200000x8, .f32⟩ : BufTy).Contents (Elt F) :=
  ((fun x i => Host.gather gather_S100000x8_S3200000x1_S3200000x8_1_0_n_n_0_1_18 x i) : (⟨S100000x8, .f32⟩ : BufTy).Contents (Elt F) → (⟨S3200000x1, .i32⟩ : BufTy).Contents (Elt F) → (⟨S3200000x8, .f32⟩ : BufTy).Contents (Elt F)) h28 (kv_main_v34 (F := F) x1)

def kv_main_v36 (x1 : (⟨S2x3200000, .i32⟩ : BufTy).Contents (Elt F)) : (⟨S3200000x8, .f32⟩ : BufTy).Contents (Elt F) :=
  (broadcastInDim S3200000x8 ![0, 1] bcast_S3200000x1_S3200000x8_0_1 : (⟨S3200000x1, .f32⟩ : BufTy).Contents (Elt F) → (⟨S3200000x8, .f32⟩ : BufTy).Contents (Elt F)) (kv_main_v27 (F := F) x1)

def kv_main_v37 (x1 : (⟨S2x3200000, .i32⟩ : BufTy).Contents (Elt F)) (h28 : (⟨S100000x8, .f32⟩ : BufTy).Contents (Elt F)) : (⟨S3200000x8, .f32⟩ : BufTy).Contents (Elt F) :=
  (mulf : (⟨S3200000x8, .f32⟩ : BufTy).Contents (Elt F) → (⟨S3200000x8, .f32⟩ : BufTy).Contents (Elt F) → (⟨S3200000x8, .f32⟩ : BufTy).Contents (Elt F)) (kv_main_v35 (F := F) x1 h28) (kv_main_v36 (F := F) x1)

def kv_main_cst_7 : (⟨S_, .f32⟩ : BufTy).Contents (Elt F) :=
  constant S_ .f32 0x00000000#32

def kv_main_v38 : (⟨S100000x8, .f32⟩ : BufTy).Contents (Elt F) :=
  (broadcastInDim S100000x8 ![] bcast_S_S100000x8 : (⟨S_, .f32⟩ : BufTy).Contents (Elt F) → (⟨S100000x8, .f32⟩ : BufTy).Contents (Elt F)) (kv_main_cst_7 (F := F))

def kv_main_v39 (x1 : (⟨S2x3200000, .i32⟩ : BufTy).Contents (Elt F)) : (⟨S3200000x1, .i32⟩ : BufTy).Contents (Elt F) :=
  (broadcastInDim S3200000x1 ![0] bcast_S3200000_S3200000x1_0 : (⟨S3200000, .i32⟩ : BufTy).Contents (Elt F) → (⟨S3200000x1, .i32⟩ : BufTy).Contents (Elt F)) (kv_main_v3 (F := F) x1)

def kv_main_v40 (x1 : (⟨S2x3200000, .i32⟩ : BufTy).Contents (Elt F)) (h28 : (⟨S100000x8, .f32⟩ : BufTy).Contents (Elt F)) : (⟨S100000x8, .f32⟩ : BufTy).Contents (Elt F) :=
  ((fun x i u => Host.scatterAdd scatter_S100000x8_S3200000x1_S3200000x8_1_0_0_1 x i u) : (⟨S100000x8, .f32⟩ : BufTy).Contents (Elt F) → (⟨S3200000x1, .i32⟩ : BufTy).Contents (Elt F) → (⟨S3200000x8, .f32⟩ : BufTy).Contents (Elt F) → (⟨S100000x8, .f32⟩ : BufTy).Contents (Elt F)) (kv_main_v38 (F := F)) (kv_main_v39 (F := F) x1) (kv_main_v37 (F := F) x1 h28)

def kv_main_v41 (x1 : (⟨S2x3200000, .i32⟩ : BufTy).Contents (Elt F)) : (⟨S100000x1, .f32⟩ : BufTy).Contents (Elt F) :=
  (broadcastInDim S100000x1 ![0] bcast_S100000_S100000x1_0 : (⟨S100000, .f32⟩ : BufTy).Contents (Elt F) → (⟨S100000x1, .f32⟩ : BufTy).Contents (Elt F)) (kv_main_v11 (F := F) x1)

def kv_main_v42 (x1 : (⟨S2x3200000, .i32⟩ : BufTy).Contents (Elt F)) : (⟨S100000x8, .f32⟩ : BufTy).Contents (Elt F) :=
  (broadcastInDim S100000x8 ![0, 1] bcast_S100000x1_S100000x8_0_1 : (⟨S100000x1, .f32⟩ : BufTy).Contents (Elt F) → (⟨S100000x8, .f32⟩ : BufTy).Contents (Elt F)) (kv_main_v41 (F := F) x1)

def kv_main_v43 (x1 : (⟨S2x3200000, .i32⟩ : BufTy).Contents (Elt F)) (h28 : (⟨S100000x8, .f32⟩ : BufTy).Contents (Elt F)) : (⟨S100000x8, .f32⟩ : BufTy).Contents (Elt F) :=
  (mulf : (⟨S100000x8, .f32⟩ : BufTy).Contents (Elt F) → (⟨S100000x8, .f32⟩ : BufTy).Contents (Elt F) → (⟨S100000x8, .f32⟩ : BufTy).Contents (Elt F)) h28 (kv_main_v42 (F := F) x1)

def kv_main_v44 (x1 : (⟨S2x3200000, .i32⟩ : BufTy).Contents (Elt F)) (h28 : (⟨S100000x8, .f32⟩ : BufTy).Contents (Elt F)) : (⟨S100000x8, .f32⟩ : BufTy).Contents (Elt F) :=
  (addf : (⟨S100000x8, .f32⟩ : BufTy).Contents (Elt F) → (⟨S100000x8, .f32⟩ : BufTy).Contents (Elt F) → (⟨S100000x8, .f32⟩ : BufTy).Contents (Elt F)) (kv_main_v40 (F := F) x1 h28) (kv_main_v43 (F := F) x1 h28)

def kv_main_v45 (x3 : (⟨S8, .f32⟩ : BufTy).Contents (Elt F)) : (⟨S1x8, .f32⟩ : BufTy).Contents (Elt F) :=
  (broadcastInDim S1x8 ![1] bcast_S8_S1x8_1 : (⟨S8, .f32⟩ : BufTy).Contents (Elt F) → (⟨S1x8, .f32⟩ : BufTy).Contents (Elt F)) x3

def kv_main_v46 (x3 : (⟨S8, .f32⟩ : BufTy).Contents (Elt F)) : (⟨S100000x8, .f32⟩ : BufTy).Contents (Elt F) :=
  (broadcastInDim S100000x8 ![0, 1] bcast_S1x8_S100000x8_0_1 : (⟨S1x8, .f32⟩ : BufTy).Contents (Elt F) → (⟨S100000x8, .f32⟩ : BufTy).Contents (Elt F)) (kv_main_v45 (F := F) x3)

def kv_main_v47 (x1 : (⟨S2x3200000, .i32⟩ : BufTy).Contents (Elt F)) (x3 : (⟨S8, .f32⟩ : BufTy).Contents (Elt F)) (h28 : (⟨S100000x8, .f32⟩ : BufTy).Contents (Elt F)) : (⟨S100000x8, .f32⟩ : BufTy).Contents (Elt F) :=
  (addf : (⟨S100000x8, .f32⟩ : BufTy).Contents (Elt F) → (⟨S100000x8, .f32⟩ : BufTy).Contents (Elt F) → (⟨S100000x8, .f32⟩ : BufTy).Contents (Elt F)) (kv_main_v44 (F := F) x1 h28) (kv_main_v46 (F := F) x3)

def kv_main_cst_8 : (⟨S_, .f32⟩ : BufTy).Contents (Elt F) :=
  constant S_ .f32 0x00000000#32

def kv_main_v48 : (⟨S100000x8, .f32⟩ : BufTy).Contents (Elt F) :=
  (broadcastInDim S100000x8 ![] bcast_S_S100000x8 : (⟨S_, .f32⟩ : BufTy).Contents (Elt F) → (⟨S100000x8, .f32⟩ : BufTy).Contents (Elt F)) (kv_main_cst_8 (F := F))

def kv_main_v49 (x1 : (⟨S2x3200000, .i32⟩ : BufTy).Contents (Elt F)) (x3 : (⟨S8, .f32⟩ : BufTy).Contents (Elt F)) (h28 : (⟨S100000x8, .f32⟩ : BufTy).Contents (Elt F)) : (⟨S100000x8, .f32⟩ : BufTy).Contents (Elt F) :=
  (maximumf : (⟨S100000x8, .f32⟩ : BufTy).Contents (Elt F) → (⟨S100000x8, .f32⟩ : BufTy).Contents (Elt F) → (⟨S100000x8, .f32⟩ : BufTy).Contents (Elt F)) (kv_main_v47 (F := F) x1 x3 h28) (kv_main_v48 (F := F))

def kv_main_c_9 : (⟨S_, .i32⟩ : BufTy).Contents (Elt F) :=
  constantI S_ 32 0#32

def kv_main_v50 : (⟨S3200000, .i32⟩ : BufTy).Contents (Elt F) :=
  (broadcastInDim S3200000 ![] bcast_S_S3200000 : (⟨S_, .i32⟩ : BufTy).Contents (Elt F) → (⟨S3200000, .i32⟩ : BufTy).Contents (Elt F)) (kv_main_c_9 (F := F))

def kv_main_v51 (x1 : (⟨S2x3200000, .i32⟩ : BufTy).Contents (Elt F)) : (⟨S3200000, .i1⟩ : BufTy).Contents (Elt F) :=
  (cmpi .slt : (⟨S3200000, .i32⟩ : BufTy).Contents (Elt F) → (⟨S3200000, .i32⟩ : BufTy).Contents (Elt F) → (⟨S3200000, .i1⟩ : BufTy).Contents (Elt F)) (kv_main_v1 (F := F) x1) (kv_main_v50 (F := F))

def kv_main_c_10 : (⟨S_, .i32⟩ : BufTy).Contents (Elt F) :=
  constantI S_ 32 100000#32

def kv_main_v52 : (⟨S3200000, .i32⟩ : BufTy).Contents (Elt F) :=
  (broadcastInDim S3200000 ![] bcast_S_S3200000 : (⟨S_, .i32⟩ : BufTy).Contents (Elt F) → (⟨S3200000, .i32⟩ : BufTy).Contents (Elt F)) (kv_main_c_10 (F := F))

def kv_main_v53 (x1 : (⟨S2x3200000, .i32⟩ : BufTy).Contents (Elt F)) : (⟨S3200000, .i32⟩ : BufTy).Contents (Elt F) :=
  (addi : (⟨S3200000, .i32⟩ : BufTy).Contents (Elt F) → (⟨S3200000, .i32⟩ : BufTy).Contents (Elt F) → (⟨S3200000, .i32⟩ : BufTy).Contents (Elt F)) (kv_main_v1 (F := F) x1) (kv_main_v52 (F := F))

def kv_main_v54 (x1 : (⟨S2x3200000, .i32⟩ : BufTy).Contents (Elt F)) : (⟨S3200000, .i32⟩ : BufTy).Contents (Elt F) :=
  (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) (kv_main_v51 (F := F) x1) (kv_main_v53 (F := F) x1) (kv_main_v1 (F := F) x1)

def kv_main_v55 (x1 : (⟨S2x3200000, .i32⟩ : BufTy).Contents (Elt F)) : (⟨S3200000x1, .i32⟩ : BufTy).Contents (Elt F) :=
  (broadcastInDim S3200000x1 ![0] bcast_S3200000_S3200000x1_0 : (⟨S3200000, .i32⟩ : BufTy).Contents (Elt F) → (⟨S3200000x1, .i32⟩ : BufTy).Contents (Elt F)) (kv_main_v54 (F := F) x1)

def kv_main_v56 (x1 : (⟨S2x3200000, .i32⟩ : BufTy).Contents (Elt F)) (x3 : (⟨S8, .f32⟩ : BufTy).Contents (Elt F)) (h28 : (⟨S100000x8, .f32⟩ : BufTy).Contents (Elt F)) : (⟨S3200000x8, .f32⟩ : BufTy).Contents (Elt F) :=
  ((fun x i => Host.gather gather_S100000x8_S3200000x1_S3200000x8_1_0_n_n_0_1_18 x i) : (⟨S100000x8, .f32⟩ : BufTy).Contents (Elt F) → (⟨S3200000x1, .i32⟩ : BufTy).Contents (Elt F) → (⟨S3200000x8, .f32⟩ : BufTy).Contents (Elt F)) (kv_main_v49 (F := F) x1 x3 h28) (kv_main_v55 (F := F) x1)

def kv_main_v57 (x1 : (⟨S2x3200000, .i32⟩ : BufTy).Contents (Elt F)) : (⟨S3200000x8, .f32⟩ : BufTy).Contents (Elt F) :=
  (broadcastInDim S3200000x8 ![0, 1] bcast_S3200000x1_S3200000x8_0_1 : (⟨S3200000x1, .f32⟩ : BufTy).Contents (Elt F) → (⟨S3200000x8, .f32⟩ : BufTy).Contents (Elt F)) (kv_main_v27 (F := F) x1)

def kv_main_v58 (x1 : (⟨S2x3200000, .i32⟩ : BufTy).Contents (Elt F)) (x3 : (⟨S8, .f32⟩ : BufTy).Contents (Elt F)) (h28 : (⟨S100000x8, .f32⟩ : BufTy).Contents (Elt F)) : (⟨S3200000x8, .f32⟩ : BufTy).Contents (Elt F) :=
  (mulf : (⟨S3200000x8, .f32⟩ : BufTy).Contents (Elt F) → (⟨S3200000x8, .f32⟩ : BufTy).Contents (Elt F) → (⟨S3200000x8, .f32⟩ : BufTy).Contents (Elt F)) (kv_main_v56 (F := F) x1 x3 h28) (kv_main_v57 (F := F) x1)

def kv_main_cst_11 : (⟨S_, .f32⟩ : BufTy).Contents (Elt F) :=
  constant S_ .f32 0x00000000#32

def kv_main_v59 : (⟨S100000x8, .f32⟩ : BufTy).Contents (Elt F) :=
  (broadcastInDim S100000x8 ![] bcast_S_S100000x8 : (⟨S_, .f32⟩ : BufTy).Contents (Elt F) → (⟨S100000x8, .f32⟩ : BufTy).Contents (Elt F)) (kv_main_cst_11 (F := F))

def kv_main_v60 (x1 : (⟨S2x3200000, .i32⟩ : BufTy).Contents (Elt F)) : (⟨S3200000x1, .i32⟩ : BufTy).Contents (Elt F) :=
  (broadcastInDim S3200000x1 ![0] bcast_S3200000_S3200000x1_0 : (⟨S3200000, .i32⟩ : BufTy).Contents (Elt F) → (⟨S3200000x1, .i32⟩ : BufTy).Contents (Elt F)) (kv_main_v3 (F := F) x1)

def kv_main_v61 (x1 : (⟨S2x3200000, .i32⟩ : BufTy).Contents (Elt F)) (x3 : (⟨S8, .f32⟩ : BufTy).Contents (Elt F)) (h28 : (⟨S100000x8, .f32⟩ : BufTy).Contents (Elt F)) : (⟨S100000x8, .f32⟩ : BufTy).Contents (Elt F) :=
  ((fun x i u => Host.scatterAdd scatter_S100000x8_S3200000x1_S3200000x8_1_0_0_1 x i u) : (⟨S100000x8, .f32⟩ : BufTy).Contents (Elt F) → (⟨S3200000x1, .i32⟩ : BufTy).Contents (Elt F) → (⟨S3200000x8, .f32⟩ : BufTy).Contents (Elt F) → (⟨S100000x8, .f32⟩ : BufTy).Contents (Elt F)) (kv_main_v59 (F := F)) (kv_main_v60 (F := F) x1) (kv_main_v58 (F := F) x1 x3 h28)

def kv_main_v62 (x1 : (⟨S2x3200000, .i32⟩ : BufTy).Contents (Elt F)) : (⟨S100000x1, .f32⟩ : BufTy).Contents (Elt F) :=
  (broadcastInDim S100000x1 ![0] bcast_S100000_S100000x1_0 : (⟨S100000, .f32⟩ : BufTy).Contents (Elt F) → (⟨S100000x1, .f32⟩ : BufTy).Contents (Elt F)) (kv_main_v11 (F := F) x1)

def kv_main_v63 (x1 : (⟨S2x3200000, .i32⟩ : BufTy).Contents (Elt F)) : (⟨S100000x8, .f32⟩ : BufTy).Contents (Elt F) :=
  (broadcastInDim S100000x8 ![0, 1] bcast_S100000x1_S100000x8_0_1 : (⟨S100000x1, .f32⟩ : BufTy).Contents (Elt F) → (⟨S100000x8, .f32⟩ : BufTy).Contents (Elt F)) (kv_main_v62 (F := F) x1)

def kv_main_v64 (x1 : (⟨S2x3200000, .i32⟩ : BufTy).Contents (Elt F)) (x3 : (⟨S8, .f32⟩ : BufTy).Contents (Elt F)) (h28 : (⟨S100000x8, .f32⟩ : BufTy).Contents (Elt F)) : (⟨S100000x8, .f32⟩ : BufTy).Contents (Elt F) :=
  (mulf : (⟨S100000x8, .f32⟩ : BufTy).Contents (Elt F) → (⟨S100000x8, .f32⟩ : BufTy).Contents (Elt F) → (⟨S100000x8, .f32⟩ : BufTy).Contents (Elt F)) (kv_main_v49 (F := F) x1 x3 h28) (kv_main_v63 (F := F) x1)

def kv_main_v65 (x1 : (⟨S2x3200000, .i32⟩ : BufTy).Contents (Elt F)) (x3 : (⟨S8, .f32⟩ : BufTy).Contents (Elt F)) (h28 : (⟨S100000x8, .f32⟩ : BufTy).Contents (Elt F)) : (⟨S100000x8, .f32⟩ : BufTy).Contents (Elt F) :=
  (addf : (⟨S100000x8, .f32⟩ : BufTy).Contents (Elt F) → (⟨S100000x8, .f32⟩ : BufTy).Contents (Elt F) → (⟨S100000x8, .f32⟩ : BufTy).Contents (Elt F)) (kv_main_v61 (F := F) x1 x3 h28) (kv_main_v64 (F := F) x1 x3 h28)

def kv_main_v66 (x5 : (⟨S40, .f32⟩ : BufTy).Contents (Elt F)) : (⟨S1x40, .f32⟩ : BufTy).Contents (Elt F) :=
  shapeCast _ x5 shapeCasts_S40_S1x40

end Cert.KernelIdeal.KStage

end
-- ==== Proof.KRun.lean ====
/-
  The kernel program's run with its two result arrays named, and what the buffers hold where each launch is
  entered and left: the launches' result arrays are what their pipelines leave, the argument arrays are as at the
  start, and the arrays the host operations compute between the launches are the staged functions of the arguments.
-/
import proofs.«170954_j36249523978477_2_alg».proof.Proof.Gen.KernelIdeal.Frame
import proofs.«170954_j36249523978477_2_alg».proof.Proof.KStages
import Idealize.ShloMosaic.Lib.StableHlo.Run

set_option maxRecDepth 16384

noncomputable section

namespace Cert.KernelIdeal.KRun

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, with the two result arrays -/

set_option backward.isDefEq.respectTransparency.types false in
/-- Every weakly fair execution of the program from a memory with zero counters terminates without a fault; at the
    end the two result arrays hold what the second launch's pipeline leaves in them, and the argument arrays are as
    at the start. The run is the generated frame's, read at two more buffers of its last boundary. -/
theorem run_W4 : θ_run defs (onTc (τ := τ) (main (F := F))) ⟨m, fun _ => 0, ρ⟩ (fun r => ∀ c : Dev nD,
      r.2.mem ((c.tc : Thread nD τ).loc main_v67_0) = Gen.W4 m ρ c (Proc.devRef .tc main_v67_0)
      ∧ r.2.mem ((c.tc : Thread nD τ).loc main_v67_1) = Gen.W4 m ρ c (Proc.devRef .tc main_v67_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v67_0 (by decide)),
       h c _ (mem_uc main_v67_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-! ## What the launches' boundaries hold -/

variable (c : Dev nD)

/-- The first launch's result array, when the launch is left, is what its pipeline's write-backs leave. -/
theorem W2_v28 : Gen.W2 m ρ c (Proc.devRef .tc main_v28) = (Gen.dat0 (Gen.V1 m ρ) c).arrAt 2 cfg0.N :=
  Gen.W2_arr m ρ c 2

/-- The second launch's first result array, when the launch is left, is what its pipeline's write-backs leave. -/
theorem W4_v67_0 : Gen.W4 m ρ c (Proc.devRef .tc main_v67_0) = (Gen.dat1 (Gen.V3 m ρ) c).arrAt 3 cfg1.N :=
  Gen.W4_arr m ρ c 3

/-- The second launch's second result array, likewise. -/
theorem W4_v67_1 : Gen.W4 m ρ c (Proc.devRef .tc main_v67_1) = (Gen.dat1 (Gen.V3 m ρ) c).arrAt 4 cfg1.N :=
  Gen.W4_arr m ρ c 4

/-- No host operation before the first launch writes an argument array: a buffer none of them writes is as at
    the start. -/
theorem W1_arg0 : Gen.W1 m ρ c (Proc.devRef .tc main_arg0) = m ((c : Thread nD τ).loc main_arg0) :=
  calc Gen.W1 m ρ c (Proc.devRef .tc main_arg0)
    _ = Gen.W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem V1_arg0 : Gen.V1 m ρ c main_arg0 = m ((c : Thread nD τ).loc main_arg0) := W1_arg0 m ρ c

theorem V1_arg2 : Gen.V1 m ρ c main_arg2 = m ((c : Thread nD τ).loc main_arg2) :=
  calc Gen.W1 m ρ c (Proc.devRef .tc main_arg2)
    _ = Gen.W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Nor does a host operation between the launches, and the first launch writes only its result array. -/
theorem V3_arg4 : Gen.V3 m ρ c main_arg4 = m ((c : Thread nD τ).loc main_arg4) :=
  calc Gen.W3 m ρ c (Proc.devRef .tc main_arg4)
    _ = Gen.W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_arg4) := Gen.W2_of_ne m ρ c main_arg4 (by decide)
    _ = Gen.W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The host stages before the first launch -/

/-- Each array the host operations compute before the first launch is its staged function of the edge-index
    argument: the operations' results, composed in program order. -/
theorem W1_v1 : Gen.W1 m ρ c (Proc.devRef .tc main_v1) = KStage.kv_main_v1 (m ((c : Thread nD τ).loc main_arg1)) := by
  show StableHlo.after hostOps0 (Gen.W0 m ρ c) (Proc.devRef .tc main_v1) = _
  dsimp only [hostOps0]
  after_results_simp
  rfl

theorem W1_v3 : Gen.W1 m ρ c (Proc.devRef .tc main_v3) = KStage.kv_main_v3 (m ((c : Thread nD τ).loc main_arg1)) := by
  show StableHlo.after hostOps0 (Gen.W0 m ρ c) (Proc.devRef .tc main_v3) = _
  dsimp only [hostOps0]
  after_results_simp
  rfl

theorem W1_v11 : Gen.W1 m ρ c (Proc.devRef .tc main_v11) = KStage.kv_main_v11 (m ((c : Thread nD τ).loc main_arg1)) := by
  show StableHlo.after hostOps0 (Gen.W0 m ρ c) (Proc.devRef .tc main_v11) = _
  dsimp only [hostOps0]
  after_results_simp
  rfl

theorem W1_v27 : Gen.W1 m ρ c (Proc.devRef .tc main_v27) = KStage.kv_main_v27 (m ((c : Thread nD τ).loc main_arg1)) := by
  show StableHlo.after hostOps0 (Gen.W0 m ρ c) (Proc.devRef .tc main_v27) = _
  dsimp only [hostOps0]
  after_results_simp
  rfl

theorem W1_arg3 : Gen.W1 m ρ c (Proc.devRef .tc main_arg3) = m ((c : Thread nD τ).loc main_arg3) :=
  calc Gen.W1 m ρ c (Proc.devRef .tc main_arg3)
    _ = Gen.W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W1_arg5 : Gen.W1 m ρ c (Proc.devRef .tc main_arg5) = m ((c : Thread nD τ).loc main_arg5) :=
  calc Gen.W1 m ρ c (Proc.devRef .tc main_arg5)
    _ = Gen.W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The same buffers when the first launch is left: it writes only its own result array -/

theorem W2_v1 : Gen.W2 m ρ c (Proc.devRef .tc main_v1) = KStage.kv_main_v1 (m ((c : Thread nD τ).loc main_arg1)) :=
  (Gen.W2_of_ne m ρ c main_v1 (by decide)).trans (W1_v1 m ρ c)
theorem W2_v3 : Gen.W2 m ρ c (Proc.devRef .tc main_v3) = KStage.kv_main_v3 (m ((c : Thread nD τ).loc main_arg1)) :=
  (Gen.W2_of_ne m ρ c main_v3 (by decide)).trans (W1_v3 m ρ c)
theorem W2_v11 : Gen.W2 m ρ c (Proc.devRef .tc main_v11) = KStage.kv_main_v11 (m ((c : Thread nD τ).loc main_arg1)) :=
  (Gen.W2_of_ne m ρ c main_v11 (by decide)).trans (W1_v11 m ρ c)
theorem W2_v27 : Gen.W2 m ρ c (Proc.devRef .tc main_v27) = KStage.kv_main_v27 (m ((c : Thread nD τ).loc main_arg1)) :=
  (Gen.W2_of_ne m ρ c main_v27 (by decide)).trans (W1_v27 m ρ c)
theorem W2_arg3 : Gen.W2 m ρ c (Proc.devRef .tc main_arg3) = m ((c : Thread nD τ).loc main_arg3) :=
  (Gen.W2_of_ne m ρ c main_arg3 (by decide)).trans (W1_arg3 m ρ c)
theorem W2_arg5 : Gen.W2 m ρ c (Proc.devRef .tc main_arg5) = m ((c : Thread nD τ).loc main_arg5) :=
  (Gen.W2_of_ne m ρ c main_arg5 (by decide)).trans (W1_arg5 m ρ c)

/-! ## The host stages between the launches -/

/-- The second bias, reshaped to one row. -/
theorem V3_v66 : Gen.V3 m ρ c main_v66 = KStage.kv_main_v66 (m ((c : Thread nD τ).loc main_arg5)) := by
  show StableHlo.after hostOps1 (Gen.W2 m ρ c) (Proc.devRef .tc main_v66) = _
  dsimp only [hostOps1]
  after_results_simp
  rw [W2_arg5 m ρ c]
  rfl

set_option maxHeartbeats 1000000 in
/-- The second launch's row operand: the host operations between the launches, composed in program order over the
    first launch's result array and the arrays computed before it. -/
theorem V3_v65 : Gen.V3 m ρ c main_v65 = KStage.kv_main_v65 (m ((c : Thread nD τ).loc main_arg1)) (m ((c : Thread nD τ).loc main_arg3)) (Gen.W2 m ρ c (Proc.devRef .tc main_v28)) := by
  show StableHlo.after hostOps1 (Gen.W2 m ρ c) (Proc.devRef .tc main_v65) = _
  dsimp only [hostOps1]
  after_results_simp
  rw [W2_v1 m ρ c, W2_v3 m ρ c, W2_v11 m ρ c, W2_v27 m ρ c, W2_arg3 m ρ c]
  rfl

end Cert.KernelIdeal.KRun

end
-- ==== Proof.RowOps.lean ====
/-
  The dense row-wise functions of the two-layer graph convolution, over the extended reals: the product of the node
  features with a weight matrix, the second layer's logits (a product plus a bias row), a row's maximum, and the
  log-softmax of a row (the entry less the row's maximum, less the logarithm of the sum of the exponentials of the
  row's entries less that maximum). Both programs end in these; nothing here mentions either program.
-/
import Idealize.ShloMosaic.PureOps.Ideal
import Idealize.ShloMosaic.Lib.ValueIdx

noncomputable section

namespace Cert.RowOps

open Idealize.ShloMosaic Idealize.ShloMosaic.ValueIdx

/-- The features times the first weight matrix: entry (p, k) is the sum over the 512 input features. -/
def matW1 (x : FVec Ideal ⟨2, ![100000, 512]⟩ .f32) (w : FVec Ideal ⟨2, ![512, 8]⟩ .f32) :
    FVec Ideal ⟨2, ![100000, 8]⟩ .f32 :=
  fun i => ∑ j : Fin 512, x (ix2 (i 0) j) * w (ix2 j (i 1))

/-- The logits: entry (p, c) is the sum over the 8 hidden features of the aggregated row times the second weight
    matrix, plus the bias of class c. -/
def logitsOf (a : FVec Ideal ⟨2, ![100000, 8]⟩ .f32) (w : FVec Ideal ⟨2, ![8, 40]⟩ .f32)
    (b : FVec Ideal ⟨2, ![1, 40]⟩ .f32) : FVec Ideal ⟨2, ![100000, 40]⟩ .f32 :=
  fun i => (∑ k : Fin 8, a (ix2 (i 0) k) * w (ix2 k (i 1))) + b (ix2 0 (i 1))

/-- The maximum of row p, folded from minus infinity. -/
def rowMax (L : FVec Ideal ⟨2, ![100000, 40]⟩ .f32) (p : Fin 100000) : EReal :=
  (Finset.univ : Finset (Fin 40)).fold max (Ideal.ofBits .f32 0xFF800000#32) (fun c => L (ix2 p c))

/-- The log-softmax over each row of 40 classes. -/
def logSoftmaxOf (L : FVec Ideal ⟨2, ![100000, 40]⟩ .f32) : FVec Ideal ⟨2, ![100000, 40]⟩ .f32 :=
  fun i => (L i - rowMax L (i 0)) - Ideal.log (∑ c : Fin 40, Ideal.exp (L (ix2 (i 0) c) - rowMax L (i 0)))

end Cert.RowOps

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.KRegion0.lean ====
/-
  What the first kernel region leaves in its output array.

  The region runs a [5000, 512] by [512, 8] product on each of 20 row blocks of the node features and writes the
  block's product back to rows 5000 t … 5000 t + 4999 of the [100000, 8] result. Over the extended reals a change of
  float format is the identity and the product accumulates from zero, so the entry at row p and column q of a block's
  product is the 512-term sum of row p of the feature block against column q of the weight matrix. The 20 row blocks
  tile the result, and a block's rows are the same rows of the feature array, so the result array ends as the whole
  [100000, 512] by [512, 8] product of the arrays the region finds.
-/
import proofs.«170954_j36249523978477_2_alg».proof.Proof.Gen.KernelIdeal.Frame
import proofs.«170954_j36249523978477_2_alg».proof.Proof.RowOps
import proofs.«170954_j36249523978477_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets0 : (![0, 0] : Fin 2 → Nat) = fun _ => 0 := funext fun a => by fin_cases a <;> rfl

/-- The block product at row `p` and column `q`: the sum over the 512 features of the feature block's row `p`
    against the weight block's column `q`. -/
theorem pay0_apply (x0 : FVec Ideal S5000x512 .f32) (x1 : FVec Ideal S512x8 .f32) (p : Fin 5000) (q : Fin 8) :
    k0_pay1 (F := Ideal) x0 x1 (ix2 p q) = ∑ k : Fin 512, x0 (ix2 p k) * x1 (ix2 k q) := by
  unfold k0_pay1
  exact Cert.LibPlainMatmul.matmul_zero_apply 5000 512 8 none
    (truncf .bf16 x0 bitsLt_bf16_f32) (truncf .bf16 x1 bitsLt_bf16_f32) p q

/-- The block index maps over the 20 grid points: the feature block moves with the result block along the rows,
    and every other block index is zero. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the 20 row blocks of the result is some grid point's. -/
theorem idx_onto0 : ∀ q0 : Fin 20, ∃ t : Fin cfg0.N, win0_2.index t = ![q0.val, 0] :=
  (by decide +kernel : ∀ q0 : Fin 20, ∃ t : Fin grid0.N, win0_2.index t = ![q0.val, 0])

/-- The whole product at row `r` and column `q`. -/
theorem matW1_apply (x : FVec Ideal ⟨2, ![100000, 512]⟩ .f32) (w : FVec Ideal ⟨2, ![512, 8]⟩ .f32) (r : Fin 100000) (q : Fin 8) :
    Cert.RowOps.matW1 x w (ix2 r q) = ∑ j : Fin 512, x (ix2 r j) * w (ix2 j q) := rfl

/-- What grid point `t` writes back is block `t` of the whole product. -/
theorem flushed0_eq (c : Dev nD) (t : Fin cfg0.N) :
    (dat0 (F := Ideal) V c).flushed 2 t
      = ((cfg0.win 2).blk t).view.read (Elt Ideal) (Cert.RowOps.matW1 (V c main_arg0) (V c main_arg2)) := by
  show (cfg0.win 2).cut (grid0.coords t) ((dat0 V c).after 2 t) = _
  rw [after0_2]
  unfold out0_2
  rw [View.canon_unit_zero zero_offsets0]
  simp only [View.ld_unit_zero (S := S5000x512) zero_offsets0, View.ld_unit_zero (S := S512x8) zero_offsets0]
  obtain ⟨e0, e1, e2, e3, e4, e5⟩ := idx_facts0 t
  funext j
  obtain ⟨p, q, rfl⟩ : ∃ (p : Fin 5000) (q : Fin 8), j = ix2 p q := ⟨j 0, j 1, eq_ix2 j⟩
  show k0_pay1 (F := Ideal) (iblk0 V c 0 t) (iblk0 V c 1 t) (ix2 p q)
    = Cert.RowOps.matW1 (V c main_arg0) (V c main_arg2) (((cfg0.win 2).blk t).view.emb (ix2 p q))
  have hp : p.val < 5000 := p.isLt
  have he : ((cfg0.win 2).blk t).view.emb (ix2 p q)
      = ix2 (⟨win0_2.index t (0 : Fin 2) * 5000 + p.val, by omega⟩ : Fin 100000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 8 + 1 * q.val = q.val; omega
  rw [he, matW1_apply]
  refine (pay0_apply (iblk0 V c 0 t) (iblk0 V c 1 t) p q).trans ?_
  refine Finset.sum_congr rfl fun k _ => ?_
  refine congrArg₂ (fun (a b : EReal) => a * b) ?_ ?_
  · show V c main_arg0 (((cfg0.win 0).blk t).view.emb (ix2 p k))
      = V c main_arg0 (ix2 (⟨win0_2.index t (0 : Fin 2) * 5000 + p.val, by omega⟩ : Fin 100000) k)
    congr 1
    funext a; apply Fin.ext
    match a with
    | ⟨0, _⟩ => show win0_0.index t (0 : Fin 2) * 5000 + 1 * p.val = win0_2.index t (0 : Fin 2) * 5000 + p.val; omega
    | ⟨1, _⟩ => show win0_0.index t (1 : Fin 2) * 512 + 1 * k.val = k.val; omega
  · show V c main_arg2 (((cfg0.win 1).blk t).view.emb (ix2 k q)) = V c main_arg2 (ix2 k q)
    congr 1
    funext a; apply Fin.ext
    match a with
    | ⟨0, _⟩ => show win0_1.index t (0 : Fin 2) * 512 + 1 * k.val = k.val; omega
    | ⟨1, _⟩ => show win0_1.index t (1 : Fin 2) * 8 + 1 * q.val = q.val; omega

/-- An index of the result is in point `t`'s block iff each coordinate is in the block's range on its axis. -/
theorem mem_blk0 (t : Fin cfg0.N) (i : S100000x8.Idx) :
    i ∈ ((cfg0.win 2).blk t).view.set ↔ ∀ a : Fin 2, win0_2.index t a * S5000x8.size a ≤ (i a).val
      ∧ (i a).val < win0_2.index t a * S5000x8.size a + S5000x8.size a := by
  show i ∈ ((View.whole main_v28).slice (win0_2.rect t)).set ↔ _
  rw [View.set_slice_whole, Rect.mem_set_unit]
  exact Iff.rfl

/-- The row blocks tile the result: row `r` is in the block of the point whose block index is `r / 5000`. -/
theorem cover0 (i : S100000x8.Idx) :
    ∃ t : Fin cfg0.N, (cfg0.win 2).flush t = true ∧ i ∈ ((cfg0.win 2).blk t).view.set := by
  have hi0 : (i 0).val < 100000 := (i 0).isLt
  have hi1 : (i 1).val < 8 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 8 ≤ (i 1).val ∧ (i 1).val < win0_2.index t (1 : Fin 2) * 8 + 8; omega

/-- The result array after the region: the features times the first weight matrix, as the region finds them. -/
theorem arr0 (c : Dev nD) :
    (Gen.dat0 (F := Ideal) V c).arrAt 2 cfg0.N = Cert.RowOps.matW1 (V c main_arg0) (V c main_arg2) :=
  (dat0 (F := Ideal) V c).arrAt_eq_of_cover 2 (Cert.RowOps.matW1 (V c main_arg0) (V c main_arg2))
    (fun t _ => flushed0_eq V c t) cover0

end Cert.KernelIdeal.KRegion

end
-- ==== Proof.LibColumnBroadcast.lean ====
/-
  A column spread over many columns, read at an entry.

  A `vector.broadcast` of an `[a, 1]` array to `[a, b]` repeats the one column `b` times: the entry at row `p` and column
  `c` is the column's entry at row `p`, whatever `c`. (The companion of the row form `[1, b] → [a, b]`; it is what a
  reduction that keeps its axis, or a bias turned into a column, is spread back with.)
-/
import Idealize.ShloMosaic.Lib.Pipeline.Value
import Idealize.ShloMosaic.Lib.ValueIdx

namespace Cert.LibColumnBroadcast

open Idealize.ShloMosaic Idealize.ShloMosaic.ValueIdx

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibUnitAxisCasts.lean ====
/-
  Reshapes that only add or drop a unit axis, read at an entry.

  Dropping the leading unit axis of a `[1, a, b]` array gives the `[a, b]` array whose entry `(p, c)` is the
  operand's entry `(0, p, c)`; turning an `[a]` vector into an `[a, 1]` column gives the column whose entry `(p, 0)` is
  the vector's entry `p`. Both hold because a reshape keeps every entry's row-major position.
-/
import Idealize.ShloMosaic.Lib.Pipeline.Value
import Idealize.ShloMosaic.Lib.ValueIdx

namespace Cert.LibUnitAxisCasts

open Idealize.ShloMosaic Idealize.ShloMosaic.ValueIdx

/-- `[1, a, b] → [a, b]`: entry `(p, c)` is the operand's `(0, p, c)`. -/
theorem shapeCast_1ab_ab_apply {α : Type} {a b : ℕ} (v : (⟨3, ![1, a, b]⟩ : Shape).Idx → α)
    (h : (⟨3, ![1, a, b]⟩ : Shape).ShapeCasts ⟨2, ![a, b]⟩) (p : Fin a) (c : Fin b) :
    shapeCast ⟨2, ![a, b]⟩ v h (ix2 p c) = v (ix3 (0 : Fin 1) p c) :=
  shapeCast_apply v h (ix2 p c) (ix3 (0 : Fin 1) p c) (by
    rw [Shape.rowMajor_val_three, Shape.rowMajor_val_two]
    show ((0 : ℕ) * a + p.val) * b + c.val = p.val * b + c.val
    rw [Nat.zero_mul, Nat.zero_add])

/-- `[a] → [a, 1]`: entry `(p, 0)` is the operand's `p`. -/
theorem shapeCast_a_a1_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

end Cert.LibUnitAxisCasts
-- ==== Proof.KRegion1.lean ====
/-
  What the second kernel region leaves in its two output arrays.

  On each of 20 row blocks of the aggregated hidden features the region forms the block's logits, a [5000, 8] by [8, 40]
  product plus the bias row, and the log-softmax of each of the block's rows: the entry less the row's maximum, less
  the logarithm of the sum over the row of the exponentials of the entries less that maximum. Over the extended reals a
  change of float format is the identity and the product accumulates from zero; the maximum is folded from minus
  infinity over the 40 classes and the sum runs over the 40 classes. A row of a block is a row of the whole array, both
  functions work row by row, and the 20 row blocks tile each [100000, 40] result, so the two result arrays end as the
  logits and the log-softmax of the logits of the arrays the region finds.
-/
import proofs.«170954_j36249523978477_2_alg».proof.Proof.Gen.KernelIdeal.Frame
import proofs.«170954_j36249523978477_2_alg».proof.Proof.RowOps
import proofs.«170954_j36249523978477_2_alg».proof.Proof.LibPlainMatmul
import proofs.«170954_j36249523978477_2_alg».proof.Proof.LibColumnBroadcast
import proofs.«170954_j36249523978477_2_alg».proof.Proof.LibUnitAxisCasts
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets1 : (![0, 0] : Fin 2 → Nat) = fun _ => 0 := funext fun a => by fin_cases a <;> rfl

/-! ## The block's two stored values at an entry -/

/-- The block's logits at row `p` and class `q`: the sum over the 8 hidden features plus the class's bias. -/
theorem pay1_logits_apply (x0 : FVec Ideal S5000x8 .f32) (x1 : FVec Ideal S8x40 .f32) (x2 : FVec Ideal S1x40 .f32)
    (p : Fin 5000) (q : Fin 40) :
    k1_pay1 (F := Ideal) x0 x1 x2 (ix2 p q)
      = (∑ k : Fin 8, x0 (ix2 p k) * x1 (ix2 k q)) + x2 (ix2 (0 : Fin 1) q) := by
  unfold k1_pay1
  refine congrArg₂ (fun (a b : EReal) => a + b) ?_ ?_
  · refine (Cert.LibPlainMatmul.matmul_zero_apply 5000 8 40 none
      (truncf .bf16 (shapeCast S5000x8 x0 shapeCasts_S5000x8_S5000x8) bitsLt_bf16_f32)
      (truncf .bf16 x1 bitsLt_bf16_f32) p q).trans ?_
    refine Finset.sum_congr rfl fun k _ => ?_
    show shapeCast S5000x8 x0 shapeCasts_S5000x8_S5000x8 (ix2 p k) * x1 (ix2 k q) = _
    rw [shapeCast_self]
  · refine (broadcastTo_1b_ab_apply (shapeCast S1x40 x2 shapeCasts_S1x40_S1x40) broadcasts_S1x40_S5000x40 p q).trans ?_
    rw [shapeCast_self]

/-- The maximum of row `p` of a block, folded from minus infinity over the 40 classes. -/
def blockRowMax (L : FVec Ideal S5000x40 .f32) (p : Fin 5000) : EReal :=
  (Finset.univ : Finset (Fin 40)).fold max (Ideal.ofBits .f32 0xFF800000#32) (fun q => L (ix2 p q))

/-- The index of row `p` with class `k` put back on the reduced axis. -/
theorem lift_row (p : Fin 5000) (k : Fin 40) : reduces_S5000x40_S5000.lift (ix1 p) k = ix2 p k :=
  funext fun a => Fin.ext (by
    match a with
    | ⟨0, _⟩ => rfl
    | ⟨1, _⟩ => rfl)

/-- The lane maximum of a block at row `p`. -/
theorem rowmax_apply (L : FVec Ideal S5000x40 .f32) (p : Fin 5000) :
    multiReduction (F := Ideal) .maximumf [1] S5000 L 0xFF800000#32 reduces_S5000x40_S5000 (.inl rfl) rfl (ix1 p)
      = blockRowMax L p := by
  refine (Ideal.multiReduction_maximumf_single L 0xFF800000#32 reduces_S5000x40_S5000 (.inl rfl) rfl (ix1 p)).trans ?_
  show (Finset.univ : Finset (Fin 40)).fold max (Ideal.ofBits .f32 0xFF800000#32)
      (fun k => L (reduces_S5000x40_S5000.lift (ix1 p) k)) = _
  exact congrArg (fun f : Fin 40 → EReal =>
      (Finset.univ : Finset (Fin 40)).fold max (Ideal.ofBits .f32 0xFF800000#32) f)
    (funext fun k => congrArg L (lift_row p k))

/-- The lane sum of a block at row `p`. -/
theorem rowsum_apply (E : FVec Ideal S5000x40 .f32) (p : Fin 5000) :
    multiReduction (F := Ideal) .add [1] S5000 E 0x00000000#32 reduces_S5000x40_S5000 (.inl rfl) rfl (ix1 p)
      = ∑ k : Fin 40, E (ix2 p k) := by
  refine (Ideal.multiReduction_add_single E 0x00000000#32 reduces_S5000x40_S5000 (.inl rfl) rfl (ix1 p)).trans ?_
  exact Finset.sum_congr rfl fun k _ => congrArg E (lift_row p k)

/-- The block's log-softmax at row `p` and class `q`, over the block's logits. -/
theorem pay1_logp_apply (x0 : FVec Ideal S5000x8 .f32) (x1 : FVec Ideal S8x40 .f32) (x2 : FVec Ideal S1x40 .f32)
    (p : Fin 5000) (q : Fin 40) :
    k1_pay2 (F := Ideal) x0 x1 x2 (ix2 p q)
      = (k1_pay1 (F := Ideal) x0 x1 x2 (ix2 p q) - blockRowMax (k1_pay1 (F := Ideal) x0 x1 x2) p)
        - Ideal.log (∑ k : Fin 40,
            Ideal.exp (k1_pay1 (F := Ideal) x0 x1 x2 (ix2 p k) - blockRowMax (k1_pay1 (F := Ideal) x0 x1 x2) p)) := by
  unfold k1_pay2
  generalize k1_pay1 (F := Ideal) x0 x1 x2 = L
  generalize hB : broadcastTo S5000x40 (shapeCast S5000x1
      (multiReduction (F := Ideal) .maximumf [1] S5000 L 0xFF800000#32 reduces_S5000x40_S5000 (.inl rfl) rfl)
      shapeCasts_S5000_S5000x1) broadcasts_S5000x1_S5000x40 = B
  have hB' : ∀ k : Fin 40, B (ix2 p k) = blockRowMax L p := fun k => by
    rw [← hB]
    exact (Cert.LibColumnBroadcast.broadcastTo_a1_ab_apply _ broadcasts_S5000x1_S5000x40 p k).trans
      ((Cert.LibUnitAxisCasts.shapeCast_a_a1_apply _ shapeCasts_S5000_S5000x1 p).trans (rowmax_apply L p))
  refine congrArg₂ (fun (a b : EReal) => a - b) (congrArg (fun b : EReal => L (ix2 p q) - b) (hB' q)) ?_
  refine (Cert.LibColumnBroadcast.broadcastTo_a1_ab_apply _ broadcasts_S5000x1_S5000x40 p q).trans ?_
  refine congrArg Ideal.log ?_
  refine (Cert.LibUnitAxisCasts.shapeCast_a_a1_apply _ shapeCasts_S5000_S5000x1 p).trans ?_
  refine (rowsum_apply _ p).trans ?_
  refine Finset.sum_congr rfl fun k _ => ?_
  exact congrArg (fun b : EReal => Ideal.exp (L (ix2 p k) - b)) (hB' k)

/-! ## A block's rows are rows of the arrays -/

/-- The block index maps over the 20 grid points: the hidden-feature block and both result blocks move together
    along the rows, and every other block index is zero. -/
theorem idx_facts1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_4.index t (0 : Fin 2) = win1_3.index t (0 : Fin 2)
    ∧ win1_4.index t (1 : Fin 2) = 0
    ∧ win1_3.index t (0 : Fin 2) ≤ 19 :=
  (by decide +kernel : ∀ t : Fin grid1.N, _)

/-- Every one of the 20 row blocks of the log-softmax result is some grid point's. -/
theorem idx_onto1_3 : ∀ q0 : Fin 20, ∃ t : Fin cfg1.N, win1_3.index t = ![q0.val, 0] :=
  (by decide +kernel : ∀ q0 : Fin 20, ∃ t : Fin grid1.N, win1_3.index t = ![q0.val, 0])

/-- Every one of the 20 row blocks of the logits result is some grid point's. -/
theorem idx_onto1_4 : ∀ q0 : Fin 20, ∃ t : Fin cfg1.N, win1_4.index t = ![q0.val, 0] :=
  (by decide +kernel : ∀ q0 : Fin 20, ∃ t : Fin grid1.N, win1_4.index t = ![q0.val, 0])

/-- The logits at row `r` and class `q`. -/
theorem logitsOf_apply (a : FVec Ideal ⟨2, ![100000, 8]⟩ .f32) (w : FVec Ideal ⟨2, ![8, 40]⟩ .f32)
    (b : FVec Ideal ⟨2, ![1, 40]⟩ .f32) (r : Fin 100000) (q : Fin 40) :
    Cert.RowOps.logitsOf a w b (ix2 r q) = (∑ k : Fin 8, a (ix2 r k) * w (ix2 k q)) + b (ix2 (0 : Fin 1) q) := rfl

/-- The log-softmax at row `r` and class `q`. -/
theorem logSoftmaxOf_apply (L : FVec Ideal ⟨2, ![100000, 40]⟩ .f32) (r : Fin 100000) (q : Fin 40) :
    Cert.RowOps.logSoftmaxOf L (ix2 r q)
      = (L (ix2 r q) - Cert.RowOps.rowMax L r)
        - Ideal.log (∑ k : Fin 40, Ideal.exp (L (ix2 r k) - Cert.RowOps.rowMax L r)) := rfl

/-- Row `p` of the block at point `t` is row `r` of the arrays, `r` the block's first row plus `p`: there the block's
    logits are the arrays' logits. -/
theorem blk_logits (c : Dev nD) (t : Fin cfg1.N) (p : Fin 5000) (q : Fin 40) (r : Fin 100000)
    (hr : r.val = win1_3.index t (0 : Fin 2) * 5000 + p.val) :
    k1_pay1 (F := Ideal) (iblk1 V c 0 t) (iblk1 V c 1 t) (iblk1 V c 2 t) (ix2 p q)
      = Cert.RowOps.logitsOf (V c main_v65) (V c main_arg4) (V c main_v66) (ix2 r q) := by
  obtain ⟨e0, e1, e2, e3, e4, e5, e6, e7, e8, e9⟩ := idx_facts1 t
  rw [logitsOf_apply]
  refine (pay1_logits_apply (iblk1 V c 0 t) (iblk1 V c 1 t) (iblk1 V c 2 t) p q).trans ?_
  refine congrArg₂ (fun (a b : EReal) => a + b)
    (Finset.sum_congr rfl fun k _ => congrArg₂ (fun (a b : EReal) => a * b) ?_ ?_) ?_
  · show V c main_v65 (((cfg1.win 0).blk t).view.emb (ix2 p k)) = V c main_v65 (ix2 r k)
    congr 1
    funext a; apply Fin.ext
    match a with
    | ⟨0, _⟩ => show win1_0.index t (0 : Fin 2) * 5000 + 1 * p.val = r.val; omega
    | ⟨1, _⟩ => show win1_0.index t (1 : Fin 2) * 8 + 1 * k.val = k.val; omega
  · show V c main_arg4 (((cfg1.win 1).blk t).view.emb (ix2 k q)) = V c main_arg4 (ix2 k q)
    congr 1
    funext a; apply Fin.ext
    match a with
    | ⟨0, _⟩ => show win1_1.index t (0 : Fin 2) * 8 + 1 * k.val = k.val; omega
    | ⟨1, _⟩ => show win1_1.index t (1 : Fin 2) * 40 + 1 * q.val = q.val; omega
  · show V c main_v66 (((cfg1.win 2).blk t).view.emb (ix2 (0 : Fin 1) q)) = V c main_v66 (ix2 (0 : Fin 1) q)
    congr 1
    funext a; apply Fin.ext
    match a with
    | ⟨0, _⟩ => show win1_2.index t (0 : Fin 2) * 1 + 1 * 0 = 0; omega
    | ⟨1, _⟩ => show win1_2.index t (1 : Fin 2) * 40 + 1 * q.val = q.val; omega

/-- So the block's row maximum is the arrays' row maximum. -/
theorem blk_rowmax (c : Dev nD) (t : Fin cfg1.N) (p : Fin 5000) (r : Fin 100000)
    (hr : r.val = win1_3.index t (0 : Fin 2) * 5000 + p.val) :
    blockRowMax (k1_pay1 (F := Ideal) (iblk1 V c 0 t) (iblk1 V c 1 t) (iblk1 V c 2 t)) p
      = Cert.RowOps.rowMax (Cert.RowOps.logitsOf (V c main_v65) (V c main_arg4) (V c main_v66)) r :=
  congrArg (fun f : Fin 40 → EReal =>
      (Finset.univ : Finset (Fin 40)).fold max (Ideal.ofBits .f32 0xFF800000#32) f)
    (funext fun q => blk_logits V c t p q r hr)

/-- And the block's log-softmax is the log-softmax of the arrays' logits. -/
theorem blk_logp (c : Dev nD) (t : Fin cfg1.N) (p : Fin 5000) (q : Fin 40) (r : Fin 100000)
    (hr : r.val = win1_3.index t (0 : Fin 2) * 5000 + p.val) :
    k1_pay2 (F := Ideal) (iblk1 V c 0 t) (iblk1 V c 1 t) (iblk1 V c 2 t) (ix2 p q)
      = Cert.RowOps.logSoftmaxOf (Cert.RowOps.logitsOf (V c main_v65) (V c main_arg4) (V c main_v66)) (ix2 r q) := by
  refine (pay1_logp_apply (iblk1 V c 0 t) (iblk1 V c 1 t) (iblk1 V c 2 t) p q).trans ?_
  rw [logSoftmaxOf_apply, blk_rowmax V c t p r hr, blk_logits V c t p q r hr]
  refine congrArg (fun s : EReal => (Cert.RowOps.logitsOf (V c main_v65) (V c main_arg4) (V c main_v66) (ix2 r q)
      - Cert.RowOps.rowMax (Cert.RowOps.logitsOf (V c main_v65) (V c main_arg4) (V c main_v66)) r) - Ideal.log s) ?_
  exact Finset.sum_congr rfl fun k _ =>
    congrArg (fun x : EReal => Ideal.exp (x - Cert.RowOps.rowMax (Cert.RowOps.logitsOf (V c main_v65) (V c main_arg4) (V c main_v66)) r)) (blk_logits V c t p k r hr)

/-! ## From blocks to the arrays -/

/-- What grid point `t` writes back to the logits result is block `t` of the arrays' logits. -/
theorem flushed1_4_eq (c : Dev nD) (t : Fin cfg1.N) :
    (dat1 (F := Ideal) V c).flushed 4 t
      = ((cfg1.win 4).blk t).view.read (Elt Ideal) (Cert.RowOps.logitsOf (V c main_v65) (V c main_arg4) (V c main_v66)) := by
  show (cfg1.win 4).cut (grid1.coords t) ((dat1 V c).after 4 t) = _
  rw [after1_4]
  unfold out1_4
  rw [View.canon_unit_zero zero_offsets1]
  simp only [View.ld_unit_zero (S := S5000x8) zero_offsets1, View.ld_unit_zero (S := S8x40) zero_offsets1,
    View.ld_unit_zero (S := S1x40) zero_offsets1]
  obtain ⟨e0, e1, e2, e3, e4, e5, e6, e7, e8, e9⟩ := idx_facts1 t
  funext j
  obtain ⟨p, q, rfl⟩ : ∃ (p : Fin 5000) (q : Fin 40), j = ix2 p q := ⟨j 0, j 1, eq_ix2 j⟩
  show k1_pay1 (F := Ideal) (iblk1 V c 0 t) (iblk1 V c 1 t) (iblk1 V c 2 t) (ix2 p q)
    = Cert.RowOps.logitsOf (V c main_v65) (V c main_arg4) (V c main_v66) (((cfg1.win 4).blk t).view.emb (ix2 p q))
  have hp : p.val < 5000 := p.isLt
  have he : ((cfg1.win 4).blk t).view.emb (ix2 p q)
      = ix2 (⟨win1_3.index t (0 : Fin 2) * 5000 + p.val, by omega⟩ : Fin 100000) q := by
    funext a; apply Fin.ext
    match a with
    | ⟨0, _⟩ => show win1_4.index t (0 : Fin 2) * 5000 + 1 * p.val = win1_3.index t (0 : Fin 2) * 5000 + p.val; omega
    | ⟨1, _⟩ => show win1_4.index t (1 : Fin 2) * 40 + 1 * q.val = q.val; omega
  rw [he]
  exact blk_logits V c t p q _ rfl

/-- What grid point `t` writes back to the log-softmax result is block `t` of the log-softmax of the arrays' logits. -/
theorem flushed1_3_eq (c : Dev nD) (t : Fin cfg1.N) :
    (dat1 (F := Ideal) V c).flushed 3 t
      = ((cfg1.win 3).blk t).view.read (Elt Ideal) (Cert.RowOps.logSoftmaxOf (Cert.RowOps.logitsOf (V c main_v65) (V c main_arg4) (V c main_v66))) := by
  show (cfg1.win 3).cut (grid1.coords t) ((dat1 V c).after 3 t) = _
  rw [after1_3]
  unfold out1_3
  rw [View.canon_unit_zero zero_offsets1]
  simp only [View.ld_unit_zero (S := S5000x8) zero_offsets1, View.ld_unit_zero (S := S8x40) zero_offsets1,
    View.ld_unit_zero (S := S1x40) zero_offsets1]
  obtain ⟨e0, e1, e2, e3, e4, e5, e6, e7, e8, e9⟩ := idx_facts1 t
  funext j
  obtain ⟨p, q, rfl⟩ : ∃ (p : Fin 5000) (q : Fin 40), j = ix2 p q := ⟨j 0, j 1, eq_ix2 j⟩
  show k1_pay2 (F := Ideal) (iblk1 V c 0 t) (iblk1 V c 1 t) (iblk1 V c 2 t) (ix2 p q)
    = Cert.RowOps.logSoftmaxOf (Cert.RowOps.logitsOf (V c main_v65) (V c main_arg4) (V c main_v66)) (((cfg1.win 3).blk t).view.emb (ix2 p q))
  have hp : p.val < 5000 := p.isLt
  have he : ((cfg1.win 3).blk t).view.emb (ix2 p q)
      = ix2 (⟨win1_3.index t (0 : Fin 2) * 5000 + p.val, by omega⟩ : Fin 100000) q := by
    funext a; apply Fin.ext
    match a with
    | ⟨0, _⟩ => show win1_3.index t (0 : Fin 2) * 5000 + 1 * p.val = win1_3.index t (0 : Fin 2) * 5000 + p.val; omega
    | ⟨1, _⟩ => show win1_3.index t (1 : Fin 2) * 40 + 1 * q.val = q.val; omega
  rw [he]
  exact blk_logp V c t p q _ rfl

/-- An index of the log-softmax result is in point `t`'s block iff each coordinate is in the block's range. -/
theorem mem_blk1_3 (t : Fin cfg1.N) (i : S100000x40.Idx) :
    i ∈ ((cfg1.win 3).blk t).view.set ↔ ∀ a : Fin 2, win1_3.index t a * S5000x40.size a ≤ (i a).val
      ∧ (i a).val < win1_3.index t a * S5000x40.size a + S5000x40.size a := by
  show i ∈ ((View.whole main_v67_0).slice (win1_3.rect t)).set ↔ _
  rw [View.set_slice_whole, Rect.mem_set_unit]
  exact Iff.rfl

/-- An index of the logits result is in point `t`'s block iff each coordinate is in the block's range. -/
theorem mem_blk1_4 (t : Fin cfg1.N) (i : S100000x40.Idx) :
    i ∈ ((cfg1.win 4).blk t).view.set ↔ ∀ a : Fin 2, win1_4.index t a * S5000x40.size a ≤ (i a).val
      ∧ (i a).val < win1_4.index t a * S5000x40.size a + S5000x40.size a := by
  show i ∈ ((View.whole main_v67_1).slice (win1_4.rect t)).set ↔ _
  rw [View.set_slice_whole, Rect.mem_set_unit]
  exact Iff.rfl

/-- The row blocks tile the log-softmax result: row `r` is in the block whose block index is `r / 5000`. -/
theorem tiles1_3 (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  obtain ⟨t, ht⟩ := idx_onto1_3 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1_3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 40 ≤ (i 1).val ∧ (i 1).val < win1_3.index t (1 : Fin 2) * 40 + 40; omega

/-- The row blocks tile the logits result likewise. -/
theorem tiles1_4 (i : S100000x40.Idx) :
    ∃ t : Fin cfg1.N, (cfg1.win 4).flush t = true ∧ i ∈ ((cfg1.win 4).blk t).view.set := by
  have hi0 : (i 0).val < 100000 := (i 0).isLt
  have hi1 : (i 1).val < 40 := (i 1).isLt
  obtain ⟨t, ht⟩ := idx_onto1_4 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1_4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 40 ≤ (i 1).val ∧ (i 1).val < win1_4.index t (1 : Fin 2) * 40 + 40; omega

/-- The logits result after the region: the logits of the arrays the region finds. -/
theorem arr_logits (c : Dev nD) :
    (Gen.dat1 (F := Ideal) V c).arrAt 4 cfg1.N = Cert.RowOps.logitsOf (V c main_v65) (V c main_arg4) (V c main_v66) :=
  (dat1 (F := Ideal) V c).arrAt_eq_of_cover 4 (Cert.RowOps.logitsOf (V c main_v65) (V c main_arg4) (V c main_v66))
    (fun t _ => flushed1_4_eq V c t) tiles1_4

/-- The log-softmax result after the region: the log-softmax of those logits. -/
theorem arr_logp (c : Dev nD) :
    (Gen.dat1 (F := Ideal) V c).arrAt 3 cfg1.N = Cert.RowOps.logSoftmaxOf (Cert.RowOps.logitsOf (V c main_v65) (V c main_arg4) (V c main_v66)) :=
  (dat1 (F := Ideal) V c).arrAt_eq_of_cover 3 (Cert.RowOps.logSoftmaxOf (Cert.RowOps.logitsOf (V c main_v65) (V c main_arg4) (V c main_v66)))
    (fun t _ => flushed1_3_eq V c t) tiles1_3

end Cert.KernelIdeal.KRegion

end
-- ==== Proof.KValue.lean ====
/-
  The kernel program's run with its two results as functions of the argument arrays: the second result is the
  logits — the aggregated hidden rows times the second weight matrix plus the bias row — and the first their
  row-wise log-softmax, where the aggregated hidden rows are the host stages between the launches applied to the
  first launch's product of the node features with the first weight matrix.
-/
import proofs.«170954_j36249523978477_2_alg».proof.Proof.KRun
import proofs.«170954_j36249523978477_2_alg».proof.Proof.KRegion0
import proofs.«170954_j36249523978477_2_alg».proof.Proof.KRegion1
import proofs.«170954_j36249523978477_2_alg».proof.Proof.RowOps
import proofs.«170954_j36249523978477_2_alg».proof.Proof.KStages

noncomputable section

namespace Cert.KernelIdeal.KValue

open Cert.KernelIdeal Cert.KernelIdeal.Gen Idealize.ShloMosaic Idealize.ShloMosaic.TcCoe Idealize.SL.Sem

/-- The kernel program's logits as a function of its six argument arrays: the host stages between the launches, at
    the product of the features with the first weight matrix, then the second layer's product and bias. -/
abbrev KL (x0 : FVec Ideal ⟨2, ![100000, 512]⟩ .f32) (x1 : (⟨S2x3200000, .i32⟩ : BufTy).Contents (Elt Ideal))
    (x2 : FVec Ideal ⟨2, ![512, 8]⟩ .f32) (x3 : (⟨S8, .f32⟩ : BufTy).Contents (Elt Ideal))
    (x4 : FVec Ideal ⟨2, ![8, 40]⟩ .f32) (x5 : (⟨S40, .f32⟩ : BufTy).Contents (Elt Ideal)) :
    FVec Ideal ⟨2, ![100000, 40]⟩ .f32 :=
  Cert.RowOps.logitsOf (KStage.kv_main_v65 (F := Ideal) x1 x3 (Cert.RowOps.matW1 x0 x2)) x4 (KStage.kv_main_v66 (F := Ideal) x5)

variable (m : (ℓ : Loc nD τ sig) → Buf (Elt Ideal) ℓ) (ρ : Dev nD → PrngReg)

/-- The logits the second launch is entered with, as a function of the arguments: the three arrays the launch reads
    are the host stages' and the untouched second weight matrix, and the first launch's result is the product of the
    untouched features and first weight matrix. -/
theorem logits_entry (c : Dev nD) :
    Cert.RowOps.logitsOf (Gen.V3 m ρ c main_v65) (Gen.V3 m ρ c main_arg4) (Gen.V3 m ρ c main_v66)
      = KL (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [KRun.V3_v65 m ρ c, KRun.V3_arg4 m ρ c, KRun.V3_v66 m ρ c, KRun.W2_v28 m ρ c, KRegion.arr0 (Gen.V1 m ρ) c,
    KRun.V1_arg0 m ρ c, KRun.V1_arg2 m ρ c]

/-- The second result array at the end of the run: the logits. -/
theorem W4_logits (c : Dev nD) :
    Gen.W4 m ρ c (Proc.devRef .tc main_v67_1)
      = KL (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  ((KRun.W4_v67_1 m ρ c).trans (KRegion.arr_logits (Gen.V3 m ρ) c)).trans (logits_entry m ρ c)

/-- The first result array at the end of the run: the log-softmax of the logits' rows. -/
theorem W4_logp (c : Dev nD) :
    Gen.W4 m ρ c (Proc.devRef .tc main_v67_0)
      = Cert.RowOps.logSoftmaxOf (KL (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))) :=
  ((KRun.W4_v67_0 m ρ c).trans (KRegion.arr_logp (Gen.V3 m ρ) c)).trans (congrArg Cert.RowOps.logSoftmaxOf (logits_entry m ρ c))

/-- Every weakly fair execution of the kernel program from a memory with zero counters terminates without a fault,
    with the first result the row-wise log-softmax of the logits, the second the logits, and the arguments as at the
    start. -/
theorem run : θ_run defs (onTc (τ := τ) (main (F := Ideal))) ⟨m, fun _ => 0, ρ⟩ (fun r => ∀ c : Dev nD,
      r.2.mem ((c.tc : Thread nD τ).loc main_v67_0)
        = Cert.RowOps.logSoftmaxOf (KL (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)))
      ∧ r.2.mem ((c.tc : Thread nD τ).loc main_v67_1)
        = KL (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨(h c).1.trans (W4_logp m ρ c), (h c).2.1.trans (W4_logits m ρ c), (h c).2.2⟩)
    (KRun.run_W4 (F := Ideal) m ρ)

end Cert.KernelIdeal.KValue

end
-- ==== Proof.RefRunTail.lean ====
/-
  The reference program's last 15 host operations are its outlined log-softmax, applied to the logits. Running a line
  of host operations is running its first part and then its second from what the first leaves; so what the whole
  line leaves in the log-softmax's result buffer is the log-softmax's stage functions applied to what it leaves in the
  logits' buffer. The call's operations read and write their buffers through a typed reference's casts, which are
  the identity at these buffers' own types and are rewritten away.
-/
import proofs.«170954_j36249523978477_2_alg».proof.Proof.RefOps
import proofs.«170954_j36249523978477_2_alg».proof.Proof.RefRead

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- Running two lines one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- Contents moved to a typed reference's buffer type and back are the contents. -/
theorem ofBuf_toBuf {sig : RefSig} {Val : EltTy → Type} {T : BufTy} (x : TRef sig T) (v : T.Contents Val) :
    x.ofBuf (x.toBuf v) = v := by
  obtain ⟨r, h, hd, hs⟩ := x
  subst h
  rfl

/-- The last 15 operations of @main: the outlined log-softmax of the logits. -/
abbrev tailOps : List (HloOp τ sig (Elt F)) :=
  [
    TRef.nullary (TRef.of (T := ⟨S_, .f32⟩) main_call3_cst) (constant S_ .f32 0xFF800000#32),
    TRef.binary (TRef.of (T := ⟨S100000x40, .f32⟩) main_v94) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v94) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v95) subf ]

/-- @main's operations are the first 125 followed by the log-softmax's. -/
theorem ops_split : (ops : List (HloOp τ sig (Elt F))) = (ops : List (HloOp τ sig (Elt F))).take 125 ++ tailOps :=
  (List.take_append_drop 125 ops).symm

/-- The log-softmax result after the whole line, from the logits result after it. -/
theorem v95_of_v94 (V : Valuation τ sig (Elt F)) (x0 : (⟨S100000x512, .f32⟩ : BufTy).Contents (Elt F)) (x1 : (⟨S2x3200000, .i32⟩ : BufTy).Contents (Elt F)) (x2 : (⟨S512x8, .f32⟩ : BufTy).Contents (Elt F)) (x3 : (⟨S8, .f32⟩ : BufTy).Contents (Elt F)) (x4 : (⟨S8x40, .f32⟩ : BufTy).Contents (Elt F)) (x5 : (⟨S40, .f32⟩ : BufTy).Contents (Elt F))
    (h94 : after (ops : List (HloOp τ sig (Elt F))) V (Proc.devRef .tc main_v94) = Cert.ReferenceIdeal.Read.val_main_v94 (F := F) x0 x1 x2 x3 x4 x5) :
    after (ops : List (HloOp τ sig (Elt F))) V (Proc.devRef .tc main_v95) = Cert.ReferenceIdeal.Read.val_main_v95 (F := F) x0 x1 x2 x3 x4 x5 := by
  rw [ops_split, after_append] at h94 ⊢
  generalize after (List.take 125 (ops : List (HloOp τ sig (Elt F)))) V = W at h94 ⊢
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne'] at h94 ⊢
  rw [h94]
  unfold Cert.ReferenceIdeal.Read.val_main_v95 Cert.ReferenceIdeal.Read.val_main_call3_v10 Cert.ReferenceIdeal.Read.val_main_call3_v9 Cert.ReferenceIdeal.Read.val_main_call3_v8 Cert.ReferenceIdeal.Read.val_main_call3_v7 Cert.ReferenceIdeal.Read.val_main_call3_cst_1 Cert.ReferenceIdeal.Read.val_main_call3_v6 Cert.ReferenceIdeal.Read.val_main_call3_v5 Cert.ReferenceIdeal.Read.val_main_call3_v4 Cert.ReferenceIdeal.Read.val_main_call3_v3 Cert.ReferenceIdeal.Read.val_main_call3_v2 Cert.ReferenceIdeal.Read.val_main_call3_v1 Cert.ReferenceIdeal.Read.val_main_call3_cst_0 Cert.ReferenceIdeal.Read.val_main_call3_v0 Cert.ReferenceIdeal.Read.val_main_call3_cst
  generalize Cert.ReferenceIdeal.Read.val_main_v94 (F := F) x0 x1 x2 x3 x4 x5 = L
  have hof : ∀ Y : (⟨S100000x40, .f32⟩ : BufTy).Contents (Elt F),
      (TRef.of (sig := sig) (T := ⟨S100000x40, .f32⟩) main_v94).ofBuf (Val := Elt F) Y = Y := fun _ => rfl
  have hto : ∀ Y : (⟨S100000x40, .f32⟩ : BufTy).Contents (Elt F),
      (TRef.of (sig := sig) (T := ⟨S100000x40, .f32⟩) main_v95).toBuf (Val := Elt F) Y = Y := fun _ => rfl
  simp only [ofBuf_toBuf, hof, hto]

end Cert.ReferenceIdeal.Value

end
-- ==== Proof.LibScatterAddRows.lean ====
/-
  The host's accumulating row scatter read at an index, generic in the sizes.

  `x.at[idx].add(upd)` for an integer array `idx : [K]` lowers to `stablehlo.scatter` with an `add` body over the
  scatter indices reshaped to `[K, 1]` (index_vector_dim 1, inserted_window_dims [0], scatter_dims_to_operand_dims [0]),
  with no window axis for a flat operand `[N]` (updates `[K]`) and the window axis 1 for a matrix operand `[N, C]`
  (updates `[K, C]`, update_window_dims [1]). At the ideal instance the result element is the operand's plus the exact
  sum of the updates that land on it. Update `e` lands on row `i` exactly when its index word, read SIGNED and NOT
  clamped, is `i`; an update whose index is outside `[0, N)` lands nowhere and adds nothing.

  The dimension records are abbreviations over their well-formedness fact, so that a program's record with the same
  field literals is the abbreviation at the program's fact, by unfolding.
-/
import Idealize.ShloMosaic.Lib.ValueIdx

noncomputable section

open scoped BigOperators

namespace Cert.LibScatterAddRows

open Idealize.ShloMosaic Idealize.ShloMosaic.ValueIdx

/-! ## A rank-1 index set is its one coordinate range -/

/-- A rank-1 index set is its coordinate range … -/
def idxEquiv1 {n : Nat} : (⟨1, ![n]⟩ : Shape).Idx ≃ Fin n where
  toFun j := j 0
  invFun e := ix1 e
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ e : Fin n, f (ix1 e) := by
  rw [← Equiv.sum_comp (idxEquiv1 (n := n)).symm f]
  rfl

/-! ## Where an update lands, for any dimension numbers -/

/-- An update index `j` lands on the operand index `i` exactly when, on every operand axis, the window's start (read
    signed, not clamped) plus the window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hall
      have h' := Option.some.inj h
      have ha := congrArg Fin.val (congrFun h' a)
      simp only at ha
      have := hall a
      omega
    · exact absurd h (by simp)
  · intro h
    have hall : ∀ a, 0 ≤ d.start j idx a + d.window j a ∧ d.start j idx a + d.window j a < s.size a := by
      intro a
      have := h a
      have := (i a).isLt
      omega
    rw [dif_pos hall]
    congr 1
    funext a
    apply Fin.ext
    have := h a
    simp only
    omega

/-- An operand axis receives a window coordinate exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-! ## A flat operand: `[N]` at indices `[K, 1]` with updates `[K]` -/

/-- The dimension numbers of a scatter into a flat operand `[N]` at `K` scalar indices (as `[K, 1]`) with updates
    `[K]`: no window axis, the operand's one axis inserted and named by the index. -/
abbrev vecDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ :=
  ⟨[], [0], [0], 1, wf⟩

/-- Update `e`'s window starts at its index word `idx[e, 0]`, read signed. -/
theorem vec_start {N K w : Nat} (wf : ScatterDims.WF ⟨1, ![N]⟩ ⟨2, ![K, 1]⟩ ⟨1, ![K]⟩ [] [0] [0] 1)
    (idx : IVec ⟨2, ![K, 1]⟩ w) (e : Fin K) :
    (vecDims N K wf).start (ix1 e) idx 0 = (idx (ix2 e 0)).toInt := by
  unfold ScatterDims.start
  rw [dif_pos (show (0 : Fin 1) ∈ (vecDims N K wf).scatterDimsToOperandDims from List.mem_singleton.mpr rfl)]
  have hsi : (vecDims N K wf).siIdx (ix1 e) ⟨List.idxOf (0 : Fin 1) (vecDims N K wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The flat operand's one axis is inserted: the window coordinate on it is zero. -/
theorem vec_window {N K : Nat} (wf : ScatterDims.WF ⟨1, ![N]⟩ ⟨2, ![K, 1]⟩ ⟨1, ![K]⟩ [] [0] [0] 1) (e : Fin K) :
    (vecDims N K wf).window (ix1 e) 0 = 0 := by
  unfold ScatterDims.window
  rw [dif_neg fun h => (mem_sKept _ _).mp h (List.mem_singleton.mpr rfl)]

/-- Update `e` lands on element `i` exactly when its index word, read signed, is `i`. -/
theorem vec_lands_iff {N K w : Nat} (wf : ScatterDims.WF ⟨1, ![N]⟩ ⟨2, ![K, 1]⟩ ⟨1, ![K]⟩ [] [0] [0] 1)
    (idx : IVec ⟨2, ![K, 1]⟩ w) (e : Fin K) (i : Fin N) :
    (vecDims N K wf).resultIdx? (ix1 e) idx = some (ix1 i) ↔ (idx (ix2 e 0)).toInt = (i.val : Int) := by
  rw [resultIdx?_eq_some_iff, Fin.forall_fin_one, vec_start, vec_window]
  simp

/-- THE FLAT SCATTER-ADD READ AT `i`: the operand's element plus the sum, over all `K` updates, of the updates whose
    index word (read signed, not clamped) is `i`; an update indexed outside `[0, N)` contributes to no element. -/
theorem scatterAdd_vec_apply {N K w : Nat} (wf : ScatterDims.WF ⟨1, ![N]⟩ ⟨2, ![K, 1]⟩ ⟨1, ![K]⟩ [] [0] [0] 1)
    (x : FVec Ideal ⟨1, ![N]⟩ .f32) (idx : IVec ⟨2, ![K, 1]⟩ w) (upd : FVec Ideal ⟨1, ![K]⟩ .f32) (i : Fin N) :
    Host.scatterAdd (vecDims N K wf) x idx upd (ix1 i)
      = x (ix1 i) + ∑ e : Fin K, if (idx (ix2 e 0)).toInt = (i.val : Int) then upd (ix1 e) else 0 := by
  show Ideal.hostScatterAdd (vecDims N K wf) x idx upd (ix1 i) = _
  unfold Ideal.hostScatterAdd
  congr 1
  rw [Finset.sum_filter, sum_idx1]
  exact Finset.sum_congr rfl fun e _ => if_congr (vec_lands_iff wf idx e i) rfl rfl

/-! ## A matrix operand: rows of `[N, C]` at indices `[K, 1]` with updates `[K, C]` -/

/-- The dimension numbers of a row scatter into `[N, C]` at `K` scalar row indices (as `[K, 1]`) with updates
    `[K, C]`: the updates' axis 1 is the window, going to the operand's axis 1; the operand's axis 0 is inserted and
    named by the index. -/
abbrev rowDims (N C K : Nat) (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ :=
  ⟨[1], [0], [0], 1, wf⟩

/-- On the row axis, update `(e, k')`'s window starts at its index word `idx[e, 0]`, read signed. -/
theorem row_start0 {N C K w : Nat} (wf : ScatterDims.WF ⟨2, ![N, C]⟩ ⟨2, ![K, 1]⟩ ⟨2, ![K, C]⟩ [1] [0] [0] 1)
    (idx : IVec ⟨2, ![K, 1]⟩ w) (e : Fin K) (k' : Fin C) :
    (rowDims N C K wf).start (ix2 e k') idx 0 = (idx (ix2 e 0)).toInt := by
  unfold ScatterDims.start
  rw [dif_pos (show (0 : Fin 2) ∈ (rowDims N C K wf).scatterDimsToOperandDims from List.mem_singleton.mpr rfl)]
  have hsi : (rowDims N C K wf).siIdx (ix2 e k') ⟨List.idxOf (0 : Fin 2) (rowDims N C K wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis no index is read: the window starts at zero. -/
theorem row_start1 {N C K w : Nat} (wf : ScatterDims.WF ⟨2, ![N, C]⟩ ⟨2, ![K, 1]⟩ ⟨2, ![K, C]⟩ [1] [0] [0] 1)
    (idx : IVec ⟨2, ![K, 1]⟩ w) (e : Fin K) (k' : Fin C) :
    (rowDims N C K wf).start (ix2 e k') idx 1 = 0 := by
  unfold ScatterDims.start
  rw [dif_neg (show (1 : Fin 2) ∉ ([0] : List (Fin 2)) by decide)]

/-- The row axis is inserted: the window coordinate on it is zero. -/
theorem row_window0 {N C K : Nat} (wf : ScatterDims.WF ⟨2, ![N, C]⟩ ⟨2, ![K, 1]⟩ ⟨2, ![K, C]⟩ [1] [0] [0] 1)
    (e : Fin K) (k' : Fin C) :
    (rowDims N C K wf).window (ix2 e k') 0 = 0 := by
  unfold ScatterDims.window
  rw [dif_neg fun h => (mem_sKept _ _).mp h (List.mem_singleton.mpr rfl)]

/-- The column axis carries the window: its coordinate is the update's column. -/
theorem row_window1 {N C K : Nat} (wf : ScatterDims.WF ⟨2, ![N, C]⟩ ⟨2, ![K, 1]⟩ ⟨2, ![K, C]⟩ [1] [0] [0] 1)
    (e : Fin K) (k' : Fin C) :
    (rowDims N C K wf).window (ix2 e k') 1 = k'.val := by
  unfold ScatterDims.window
  rw [dif_pos ((mem_sKept _ _).mpr (show (1 : Fin 2) ∉ ([0] : List (Fin 2)) by decide))]
  rfl

/-- Update `(e, k')` lands on element `(i, k)` exactly when its row's index word, read signed, is `i` and its column is
    `k`. -/
theorem row_lands_iff {N C K w : Nat} (wf : ScatterDims.WF ⟨2, ![N, C]⟩ ⟨2, ![K, 1]⟩ ⟨2, ![K, C]⟩ [1] [0] [0] 1)
    (idx : IVec ⟨2, ![K, 1]⟩ w) (e : Fin K) (k' : Fin C) (i : Fin N) (k : Fin C) :
    (rowDims N C K wf).resultIdx? (ix2 e k') idx = some (ix2 i k)
      ↔ (idx (ix2 e 0)).toInt = (i.val : Int) ∧ k' = k := by
  rw [resultIdx?_eq_some_iff, Fin.forall_fin_two, row_start0, row_start1, row_window0, row_window1]
  simp [Fin.ext_iff]

/-- THE ROW SCATTER-ADD READ AT `(i, k)`: the operand's element plus the sum, over all `K` update rows, of column `k`
    of the rows whose index word (read signed, not clamped) is `i`; a row indexed outside `[0, N)` contributes to no
    element. -/
theorem scatterAdd_rows_apply {N C K w : Nat}
    (wf : ScatterDims.WF ⟨2, ![N, C]⟩ ⟨2, ![K, 1]⟩ ⟨2, ![K, C]⟩ [1] [0] [0] 1)
    (x : FVec Ideal ⟨2, ![N, C]⟩ .f32) (idx : IVec ⟨2, ![K, 1]⟩ w) (upd : FVec Ideal ⟨2, ![K, C]⟩ .f32)
    (i : Fin N) (k : Fin C) :
    Host.scatterAdd (rowDims N C K wf) x idx upd (ix2 i k)
      = x (ix2 i k) + ∑ e : Fin K, if (idx (ix2 e 0)).toInt = (i.val : Int) then upd (ix2 e k) else 0 := by
  show Ideal.hostScatterAdd (rowDims N C K wf) x idx upd (ix2 i k) = _
  unfold Ideal.hostScatterAdd
  congr 1
  rw [Finset.sum_filter, sum_idx2]
  refine Finset.sum_congr rfl fun e _ => ?_
  rw [Finset.sum_congr rfl fun k' _ => if_congr (row_lands_iff wf idx e k' i k) rfl rfl]
  by_cases h : (idx (ix2 e 0)).toInt = (i.val : Int)
  · simp only [h, true_and, if_true]
    rw [Finset.sum_ite_eq' Finset.univ k fun k' => upd (ix2 e k')]
    simp
  · simp [h]

end Cert.LibScatterAddRows

end
-- ==== Proof.LibGatherRows.lean ====
/-
  The host's row gather read at an index, generic in the sizes.

  `x[idx]` for an integer array `idx : [K]` lowers to `stablehlo.gather` over the start indices reshaped to `[K, 1]`
  (index_vector_dim 1, collapsed_slice_dims [0], start_index_map [0]): of a flat operand `[N]` with slice sizes `[1]`
  and no offset axis (result `[K]`), of a matrix operand `[N, C]` with slice sizes `[1, C]` and the offset axis 1
  (result `[K, C]`). Result row `e` is the operand's row at the start index `idx[e, 0]`, read as a signed integer and
  CLAMPED into `[0, N − 1]`, as StableHLO's gather clamps every start index.

  The dimension records are abbreviations over their well-formedness fact, so that a program's record with the same
  field literals is the abbreviation at the program's fact, by unfolding.
-/
import Idealize.ShloMosaic.Lib.ValueIdx

noncomputable section

namespace Cert.LibGatherRows

open Idealize.ShloMosaic Idealize.ShloMosaic.ValueIdx

variable {α : Type}

/-! ## A flat operand: `[N]` at start indices `[K, 1]`, result `[K]` -/

/-- The dimension numbers of a gather from a flat operand `[N]` at `K` scalar start indices (as `[K, 1]`): the
    operand's one axis collapsed and named by the index, slices of one element, no offset axis. -/
abbrev vecDims (N K : Nat) (wf : GatherDims.WF ⟨1, ![N]⟩ ⟨2, ![K, 1]⟩ ⟨1, ![K]⟩ [] [0] [] [0] [] 1 ![1]) :
    GatherDims ⟨1, ![N]⟩ ⟨2, ![K, 1]⟩ ⟨1, ![K]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the start index `idx[e, 0]`, read signed and clamped into
    `[0, N − 1]`. -/
theorem gather_vec_apply {N K w : Nat} (hN : 0 < N)
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (e : Fin K) :
    Host.gather (vecDims N K wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecDims N K wf).start (ix1 e) idx 0 + (vecDims N K wf).batchCoord (ix1 e) 0
    + (vecDims N K wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N K wf).startIndexMap from List.mem_singleton.mpr rfl)]
  have hsi : (vecDims N K wf).siIdx (ix1 e) ⟨List.idxOf (0 : Fin 1) (vecDims N K wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## A matrix operand: rows of `[N, C]` at start indices `[K, 1]`, result `[K, C]` -/

/-- The dimension numbers of a row gather from `[N, C]` at `K` scalar start indices (as `[K, 1]`): the operand's
    axis 0 collapsed and named by the index, slices of one whole row, the result's axis 1 the offset into the row. -/
abbrev rowDims (N C K : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- On the row axis, result `(e, k)`'s slice starts at the start index `idx[e, 0]`, read signed and clamped into
    `[0, N − 1]`. -/
theorem row_start0 {N C K w : Nat}
    (wf : GatherDims.WF ⟨2, ![N, C]⟩ ⟨2, ![K, 1]⟩ ⟨2, ![K, C]⟩ [1] [0] [] [0] [] 1 ![1, C])
    (idx : IVec ⟨2, ![K, 1]⟩ w) (e : Fin K) (k : Fin C) :
    (rowDims N C K wf).start (ix2 e k) idx 0 = min (idx (ix2 e 0)).toInt.toNat (N - 1) := by
  unfold GatherDims.start
  rw [dif_pos (show (0 : Fin 2) ∈ (rowDims N C K wf).startIndexMap from List.mem_singleton.mpr rfl)]
  have hsi : (rowDims N C K wf).siIdx (ix2 e k) ⟨List.idxOf (0 : Fin 2) (rowDims N C K wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- On the column axis no start index is read: the slice starts at zero. -/
theorem row_start1 {N C K w : Nat}
    (wf : GatherDims.WF ⟨2, ![N, C]⟩ ⟨2, ![K, 1]⟩ ⟨2, ![K, C]⟩ [1] [0] [] [0] [] 1 ![1, C])
    (idx : IVec ⟨2, ![K, 1]⟩ w) (e : Fin K) (k : Fin C) :
    (rowDims N C K wf).start (ix2 e k) idx 1 = 0 := by
  unfold GatherDims.start
  rw [dif_neg (show (1 : Fin 2) ∉ ([0] : List (Fin 2)) by decide)]

/-- The row axis is collapsed: no offset on it. -/
theorem row_off0 {N C K : Nat}
    (wf : GatherDims.WF ⟨2, ![N, C]⟩ ⟨2, ![K, 1]⟩ ⟨2, ![K, C]⟩ [1] [0] [] [0] [] 1 ![1, C])
    (e : Fin K) (k : Fin C) :
    (rowDims N C K wf).offCoord (ix2 e k) 0 = 0 :=
  GatherDims.offCoord_eq_zero _ _ _ (fun h => ((GatherDims.mem_sKept _ _).mp h).1 (List.mem_singleton.mpr rfl))

/-- The column axis is the offset axis: its offset is the result's column. -/
theorem row_off1 {N C K : Nat}
    (wf : GatherDims.WF ⟨2, ![N, C]⟩ ⟨2, ![K, 1]⟩ ⟨2, ![K, C]⟩ [1] [0] [] [0] [] 1 ![1, C])
    (e : Fin K) (k : Fin C) :
    (rowDims N C K wf).offCoord (ix2 e k) 1 = k.val := by
  unfold GatherDims.offCoord
  rw [dif_pos ((GatherDims.mem_sKept _ _).mpr
    ⟨show (1 : Fin 2) ∉ ([0] : List (Fin 2)) by decide, List.not_mem_nil⟩)]
  rfl

/-- THE ROW GATHER READ AT `(e, k)`: column `k` of the operand's row at the start index `idx[e, 0]`, read signed and
    clamped into `[0, N − 1]`. -/
theorem gather_rows_apply {N C K w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (e : Fin K) (k : Fin C) :
    Host.gather (rowDims N C K wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowDims N C K wf).start (ix2 e k) idx 0 + (rowDims N C K wf).batchCoord (ix2 e k) 0
      + (rowDims N C K wf).offCoord (ix2 e k) 0 = _
    rw [GatherDims.batchCoord_eq_zero _ _ _ List.not_mem_nil, row_off0, row_start0]
    rfl
  | ⟨1, _⟩ =>
    show (rowDims N C K wf).start (ix2 e k) idx 1 + (rowDims N C K wf).batchCoord (ix2 e k) 1
      + (rowDims N C K wf).offCoord (ix2 e k) 1 = _
    rw [GatherDims.batchCoord_eq_zero _ _ _ List.not_mem_nil, row_off1, row_start1]
    simp

end Cert.LibGatherRows

end
-- ==== Proof.LibBroadcasts.lean ====
/-
  The small broadcasts and the one reshape the graph convolution's host arithmetic uses, read at an index, for any
  sizes: a vector as a one-column matrix, a one-column matrix spread over C columns, a scalar spread over any shape, a
  vector as a one-row matrix (as a broadcast and as a reshape), a one-row matrix spread over N rows.
-/
import Idealize.ShloMosaic.Lib.Pipeline.Value
import Idealize.ShloMosaic.Lib.ValueIdx

noncomputable section

namespace Cert.LibBroadcasts

open Idealize.ShloMosaic Idealize.ShloMosaic.ValueIdx

variable {α : Type}

/-- A [K] vector broadcast to a [K, 1] column, read at (e, 0), is the vector at e. -/
theorem column_apply {K : Nat} (h : (⟨1, ![K]⟩ : Shape).BroadcastsInDim ⟨2, ![K, 1]⟩ ![0])
    (y : (⟨1, ![K]⟩ : Shape).Idx → α) (e : Fin K) (z : Fin 1) :
    broadcastInDim ⟨2, ![K, 1]⟩ ![0] h y (ix2 e z) = y (ix1 e) :=
  broadcastInDim_apply _ h y _ _ (fun a => match a with
    | ⟨0, _⟩ => by
      have := e.isLt
      show e.val = if K = 1 then 0 else e.val
      split <;> omega)

/-- A [K, 1] column broadcast over C columns, read at (e, k), is the column at (e, 0). -/
theorem spread_apply {K C : Nat} (h : (⟨2, ![K, 1]⟩ : Shape).BroadcastsInDim ⟨2, ![K, C]⟩ ![0, 1])
    (y : (⟨2, ![K, 1]⟩ : Shape).Idx → α) (e : Fin K) (k : Fin C) :
    broadcastInDim ⟨2, ![K, C]⟩ ![0, 1] h y (ix2 e k) = y (ix2 e 0) :=
  broadcastInDim_apply _ h y _ _ (fun a => match a with
    | ⟨0, _⟩ => by
      have := e.isLt
      show e.val = if K = 1 then 0 else e.val
      split <;> omega
    | ⟨1, _⟩ => by show 0 = if (1 : Nat) = 1 then 0 else k.val; rw [if_pos rfl])

/-- A scalar broadcast to any shape is the scalar everywhere. -/
theorem scalar_apply {t : Shape} (h : (⟨0, ![]⟩ : Shape).BroadcastsInDim t ![])
    (y : (⟨0, ![]⟩ : Shape).Idx → α) (j : t.Idx) :
    broadcastInDim t ![] h y j = y (fun a => a.elim0) :=
  broadcastInDim_apply _ h y _ _ (fun a => a.elim0)

/-- A [C] vector broadcast to a [1, C] row, read at (0, k), is the vector at k. -/
theorem row_apply {C : Nat} (h : (⟨1, ![C]⟩ : Shape).BroadcastsInDim ⟨2, ![1, C]⟩ ![1])
    (y : (⟨1, ![C]⟩ : Shape).Idx → α) (z : Fin 1) (k : Fin C) :
    broadcastInDim ⟨2, ![1, C]⟩ ![1] h y (ix2 z k) = y (ix1 k) :=
  broadcastInDim_apply _ h y _ _ (fun a => match a with
    | ⟨0, _⟩ => by
      have := k.isLt
      show k.val = if C = 1 then 0 else k.val
      split <;> omega)

/-- A [1, C] row broadcast over N rows, read at (i, k), is the row at (0, k). -/
theorem rows_apply {N C : Nat} (h : (⟨2, ![1, C]⟩ : Shape).BroadcastsInDim ⟨2, ![N, C]⟩ ![0, 1])
    (y : (⟨2, ![1, C]⟩ : Shape).Idx → α) (i : Fin N) (k : Fin C) :
    broadcastInDim ⟨2, ![N, C]⟩ ![0, 1] h y (ix2 i k) = y (ix2 0 k) :=
  broadcastInDim_apply _ h y _ _ (fun a => match a with
    | ⟨0, _⟩ => by show 0 = if (1 : Nat) = 1 then 0 else i.val; rw [if_pos rfl]
    | ⟨1, _⟩ => by
      have := k.isLt
      show k.val = if C = 1 then 0 else k.val
      split <;> omega)

/-- A [C] vector reshaped to a [1, C] row, read at (0, k), is the vector at k. -/
theorem row_cast_apply {C : Nat} (h : (⟨1, ![C]⟩ : Shape).ShapeCasts ⟨2, ![1, C]⟩)
    (y : (⟨1, ![C]⟩ : Shape).Idx → α) (z : Fin 1) (k : Fin C) :
    shapeCast ⟨2, ![1, C]⟩ y h (ix2 z k) = y (ix1 k) :=
  shapeCast_apply y h (ix2 z k) (ix1 k) (by
    rewrite [Shape.rowMajor_val_two, Shape.rowMajor_val_one]
    have := z.isLt
    show k.val = z.val * C + k.val
    have hz : z.val = 0 := by omega
    rw [hz]; omega)

end Cert.LibBroadcasts

end
-- ==== Proof.Words.lean ====
/-
  Index words. jnp indexing first normalises an index word (a negative index counts from the end: 100000 is added),
  and a gather then reads the word signed and clamps it into the table's rows [0, 99999]. The node numbers 0 … 99999
  written as 32-bit words (the self-loop edges the reference appends) are nonnegative, so normalising and clamping
  leave them alone.
-/
import Idealize.ShloMosaic.PureOps

noncomputable section

namespace Cert.Words

open Idealize.ShloMosaic

/-- The normalised index word: `w + 100000` when `w` is negative as a signed word, else `w`. -/
def nrm (w : BitVec 32) : BitVec 32 := Scalar.select (IntOp.cmpi .slt w 0#32) (IntOp.addi w 100000#32) w

/-- The table row a gather reads for an index word: the normalised word read signed, clamped into the 100000 rows. -/
def pos (w : BitVec 32) : Fin 100000 := ⟨min (nrm w).toInt.toNat (100000 - 1), by omega⟩

/-- A node number as a word, read signed, is the node number. -/
theorem toInt_node (n : Nat) (h : n < 100000) : (BitVec.ofNat 32 n).toInt = (n : Int) := by
  rw [BitVec.toInt_eq_toNat_of_lt (by rw [BitVec.toNat_ofNat]; omega), BitVec.toNat_ofNat]
  have : n % 2 ^ 32 = n := Nat.mod_eq_of_lt (by omega)
  rw [this]

/-- Normalising a node number's word leaves it alone. -/
theorem nrm_node (n : Nat) (h : n < 100000) : nrm (BitVec.ofNat 32 n) = BitVec.ofNat 32 n := by
  unfold nrm Scalar.select IntOp.cmpi
  have hs : (BitVec.ofNat 32 n).slt 0#32 = false := by
    rw [BitVec.slt, toInt_node n h]
    simp
  rw [hs]
  rfl

/-- The row a gather reads for node i's own word is row i. -/
theorem pos_node (i : Fin 100000) : pos (BitVec.ofNat 32 i.val) = i := by
  unfold pos
  apply Fin.ext
  show min (nrm (BitVec.ofNat 32 i.val)).toInt.toNat (100000 - 1) = i.val
  rw [nrm_node i.val i.isLt, toInt_node i.val i.isLt]
  have := i.isLt
  omega

end Cert.Words

end
-- ==== Proof.GraphAlg.lean ====
/-
  Algebra on the extended reals behind the two-layer graph convolution:
  * the float constants the two programs spell (0, 1 and the reference's tiny clamp, a positive number below 1);
  * a degree is a count plus the self loop, so it is a real number at least 1: clamping it from below by the tiny
    constant and guarding the reciprocal square root by "degree > 0" change nothing, and the reciprocal square root
    of a degree is a nonnegative real;
  * finite sums and products of real numbers are real numbers;
  * aggregation is linear: for real data, aggregating the 8 hidden features over the incoming edges (and the self
    loop) and then multiplying by the weight matrix equals multiplying each source row by the weight matrix first and
    aggregating the products. On the extended reals this needs every number involved to be finite, since
    multiplication does not distribute over sums at the infinities.
-/
import Idealize.ShloMosaic.PureOps.Ideal

noncomputable section

namespace Cert.GraphAlg

open Idealize.ShloMosaic

/-- The zero word denotes 0. -/
theorem ofBits_zero : Ideal.ofBits .f32 0x00000000#32 = (0 : EReal) := by
  simp [Ideal.ofBits, Ideal.ieee]

/-- The word of 1.0 denotes 1. -/
theorem ofBits_one : Ideal.ofBits .f32 0x3F800000#32 = (1 : EReal) := by
  simp [Ideal.ofBits, Ideal.ieee, -EReal.coe_mul]; norm_num

/-- The reference's clamp constant (the float nearest 1e-12) denotes a real strictly between 0 and 1. -/
theorem ofBits_tiny : ∃ t : ℝ, 0 < t ∧ t < 1 ∧ Ideal.ofBits .f32 0x2B8CBCCC#32 = (t : EReal) := by
  refine ⟨9223372 * (2 : ℝ) ^ (-63 : ℤ), by positivity, ?_, ?_⟩
  · have h2 : (2 : ℝ) ^ (-63 : ℤ) = 1 / 9223372036854775808 := by
      rw [zpow_neg, one_div]; norm_num
    rw [h2]; norm_num
  · simp [Ideal.ofBits, Ideal.ieee, -EReal.coe_mul]

/-- Minus infinity's word denotes the bottom element. -/
theorem ofBits_neg_inf : Ideal.ofBits .f32 0xFF800000#32 = (⊥ : EReal) := by
  simp [Ideal.ofBits, Ideal.ieee]

/-- A finite sum of reals, cast, is the sum of the casts. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A count of edges, as a sum of ones and zeros on the extended reals, is a nonnegative real. -/
theorem count_real {ε : Type*} [Fintype ε] (p : ε → Prop) [DecidablePred p] :
    ∃ n : ℝ, 0 ≤ n ∧ (∑ e : ε, if p e then (1 : EReal) else 0) = (n : EReal) := by
  refine ⟨∑ e : ε, if p e then (1 : ℝ) else 0, Finset.sum_nonneg fun e _ => by split <;> norm_num, ?_⟩
  rw [coe_sum]; refine Finset.sum_congr rfl fun e _ => ?_
  split <;> simp

/-- The reciprocal square root of a count plus one is a nonnegative real. -/
theorem rsqrt_deg_real (n : ℝ) (hn : 0 ≤ n) : ∃ d : ℝ, 0 ≤ d ∧ Ideal.rsqrt (((0 : EReal) + (n : EReal)) + 1) = (d : EReal) := by
  refine ⟨(Real.sqrt (n + 1))⁻¹, by positivity, ?_⟩
  have h1 : ((0 : EReal) + (n : EReal)) + 1 = ((n + 1 : ℝ) : EReal) := by rw [zero_add, EReal.coe_add, EReal.coe_one]
  rw [h1, Ideal.rsqrt_coe, if_neg (by linarith), if_neg (by linarith)]

/-- The reference's guarded form of the same number: with the count of the self loop inside the sum, clamped from
    below by a positive constant below 1 and selected by "degree > 0". -/
theorem guarded_rsqrt_deg (n t : ℝ) (hn : 0 ≤ n) (ht0 : 0 < t) (ht1 : t < 1) :
    Scalar.select (Ideal.cmp .ogt ((0 : EReal) + ((n : EReal) + 1)) 0)
        (Ideal.rsqrt (max ((0 : EReal) + ((n : EReal) + 1)) (t : EReal))) (0 : EReal)
      = Ideal.rsqrt (((0 : EReal) + (n : EReal)) + 1) := by
  have h1 : (0 : EReal) + ((n : EReal) + 1) = ((n + 1 : ℝ) : EReal) := by rw [zero_add, EReal.coe_add, EReal.coe_one]
  have h2 : ((0 : EReal) + (n : EReal)) + 1 = ((n + 1 : ℝ) : EReal) := by rw [zero_add, EReal.coe_add, EReal.coe_one]
  have hpos : (0 : EReal) < ((n + 1 : ℝ) : EReal) := by exact_mod_cast (by linarith : (0 : ℝ) < n + 1)
  have hmax : max ((n + 1 : ℝ) : EReal) (t : EReal) = ((n + 1 : ℝ) : EReal) :=
    max_eq_left (by exact_mod_cast (by linarith : t ≤ n + 1))
  have hc : Ideal.cmp .ogt (((n + 1 : ℝ)) : EReal) 0 = 1#1 := by
    show BitVec.ofBool (decide ((0 : EReal) < ((n + 1 : ℝ) : EReal))) = 1#1
    rw [decide_eq_true hpos]; rfl
  rw [h1, h2, hmax]
  unfold Scalar.select
  exact if_pos hc

/-- Casting an if-then-else of reals. -/
theorem coe_ite (c : Prop) [Decidable c] (x y : ℝ) : ((if c then x else y : ℝ) : EReal) = if c then (x : EReal) else (y : EReal) := by
  split <;> rfl

/-- Linearity of aggregation, for real data: the aggregated hidden features (over the incoming edges selected by `p`,
    each source row `a e` scaled by the edge coefficient `n e`, plus the node's own row `d` scaled by `dd`) times the
    weight column `w` is the aggregate of the rows' products with that column. -/
theorem aggregate_then_project {ε κ : Type*} [Fintype ε] [Fintype κ] (p : ε → Prop) [DecidablePred p]
    (a : ε → κ → ℝ) (n : ε → ℝ) (d : κ → ℝ) (dd : ℝ) (w : κ → ℝ) :
    (∑ k : κ, (((0 : EReal) + ∑ e : ε, if p e then (a e k : EReal) * (n e : EReal) else 0) + (d k : EReal) * (dd : EReal)) * (w k : EReal))
      = (0 : EReal) + ((∑ e : ε, if p e then (∑ k : κ, (a e k : EReal) * (w k : EReal)) * (n e : EReal) else 0)
          + (∑ k : κ, (d k : EReal) * (w k : EReal)) * (dd : EReal)) := by
  have hL : (∑ k : κ, (((0 : EReal) + ∑ e : ε, if p e then (a e k : EReal) * (n e : EReal) else 0) + (d k : EReal) * (dd : EReal)) * (w k : EReal))
      = ((∑ k : κ, ((0 + ∑ e : ε, if p e then a e k * n e else 0) + d k * dd) * w k : ℝ) : EReal) := by
    simp only [coe_sum, EReal.coe_add, EReal.coe_mul, EReal.coe_zero, coe_ite]
  have hR : (0 : EReal) + ((∑ e : ε, if p e then (∑ k : κ, (a e k : EReal) * (w k : EReal)) * (n e : EReal) else 0)
          + (∑ k : κ, (d k : EReal) * (w k : EReal)) * (dd : EReal))
      = ((0 + ((∑ e : ε, if p e then (∑ k : κ, a e k * w k) * n e else 0) + (∑ k : κ, d k * w k) * dd) : ℝ) : EReal) := by
    simp only [coe_sum, EReal.coe_add, EReal.coe_mul, EReal.coe_zero, coe_ite]
  rw [hL, hR]
  congr 1
  simp only [zero_add, add_mul, Finset.sum_add_distrib, Finset.sum_mul, ite_mul, zero_mul]
  congr 1
  · rw [Finset.sum_comm]
    refine Finset.sum_congr rfl fun e _ => ?_
    by_cases h : p e
    · simp only [h, if_true]; exact Finset.sum_congr rfl fun k _ => by ring
    · simp only [h, if_false, Finset.sum_const_zero]
  · exact Finset.sum_congr rfl fun k _ => by ring

end Cert.GraphAlg

end
-- ==== Proof.KGraph.lean ====
/-
  The kernel program's host arithmetic read at an index, over the extended reals. With the edge list's two rows as
  words `srcW`, `dstW`: `cnt i` counts the edges whose destination word, read signed, is node i; `dis i` is the
  reciprocal square root of the degree `cnt i + 1` (the self loop); an edge's coefficient `coef e` is the product of
  `dis` at its two gathered ends; and one aggregation of a [100000, 8] table H is, at (i, k), the sum over the edges
  into i of the source row's entry times the coefficient, plus the node's own entry times `dis i * dis i`.
-/
import proofs.«170954_j36249523978477_2_alg».proof.Proof.KStages
import proofs.«170954_j36249523978477_2_alg».proof.Proof.LibScatterAddRows
import proofs.«170954_j36249523978477_2_alg».proof.Proof.LibGatherRows
import proofs.«170954_j36249523978477_2_alg».proof.Proof.LibBroadcasts
import proofs.«170954_j36249523978477_2_alg».proof.Proof.Words
import proofs.«170954_j36249523978477_2_alg».proof.Proof.GraphAlg

noncomputable section

namespace Cert.KGraph

open Cert.KernelIdeal Cert.KernelIdeal.Gen Cert.KernelIdeal.KStage Idealize.ShloMosaic Idealize.ShloMosaic.ValueIdx Cert.Words

variable (x1 : (⟨S2x3200000, .i32⟩ : BufTy).Contents (Elt Ideal))

/-- Edge e's source word and destination word. -/
def srcW (e : Fin 3200000) : BitVec 32 := kv_main_v1 (F := Ideal) x1 (ix1 e)
def dstW (e : Fin 3200000) : BitVec 32 := kv_main_v3 (F := Ideal) x1 (ix1 e)

/-- The number of edges into node i. -/
def cnt (i : Fin 100000) : EReal := ∑ e : Fin 3200000, if (dstW x1 e).toInt = (i.val : Int) then (1 : EReal) else 0
/-- The reciprocal square root of node i's degree. -/
def dis (i : Fin 100000) : EReal := Ideal.rsqrt (((0 : EReal) + cnt x1 i) + 1)
/-- Edge e's coefficient. -/
def coef (e : Fin 3200000) : EReal := dis x1 (pos (srcW x1 e)) * dis x1 (pos (dstW x1 e))
/-- One aggregation of a table H at (i, k). -/
def agg (H : FVec Ideal S100000x8 .f32) (i : Fin 100000) (k : Fin 8) : EReal :=
  ((0 : EReal) + ∑ e : Fin 3200000, if (dstW x1 e).toInt = (i.val : Int) then H (ix2 (pos (srcW x1 e)) k) * coef x1 e else 0)
    + H (ix2 i k) * (dis x1 i * dis x1 i)

/-- The pointwise operations at an entry (stated over variables, where the two sides meet at once). -/
theorem mulf_at {s : Shape} (a b : FVec Ideal s .f32) (j : s.Idx) : mulf a b j = ((a j : EReal) * (b j : EReal)) := rfl
theorem addf_at {s : Shape} (a b : FVec Ideal s .f32) (j : s.Idx) : addf a b j = ((a j : EReal) + (b j : EReal)) := rfl
theorem maximumf_at {s : Shape} (a b : FVec Ideal s .f32) (j : s.Idx) : maximumf a b j = max (a j : EReal) (b j : EReal) := rfl
theorem hostRsqrt_at {s : Shape} (a : FVec Ideal s .f32) (j : s.Idx) : Host.rsqrt a j = Ideal.rsqrt (a j) := rfl

theorem const_apply (s : Shape) (b : BitVec 32) (j : s.Idx) : constant (F := Ideal) s .f32 b j = Ideal.ofBits .f32 b := rfl
theorem constI_apply (s : Shape) (b : BitVec 32) (j : s.Idx) : constantI s 32 b j = b := rfl

/-- The in-degree count, from the zero table. -/
theorem v7_apply (i : Fin 100000) : kv_main_v7 (F := Ideal) x1 (ix1 i) = (0 : EReal) + cnt x1 i := by
  have h5 : kv_main_v5 (F := Ideal) (ix1 i) = (0 : EReal) := by
    unfold kv_main_v5 kv_main_cst_0
    rw [Cert.LibBroadcasts.scalar_apply, const_apply]; exact Cert.GraphAlg.ofBits_zero
  have h6 : ∀ e : Fin 3200000, kv_main_v6 (F := Ideal) x1 (ix2 e 0) = dstW x1 e := fun e => by
    unfold kv_main_v6 dstW; exact Cert.LibBroadcasts.column_apply _ _ e 0
  have h4 : ∀ e : Fin 3200000, kv_main_v4 (F := Ideal) (ix1 e) = (1 : EReal) := fun e => by
    unfold kv_main_v4 kv_main_cst
    rw [Cert.LibBroadcasts.scalar_apply, const_apply]; exact Cert.GraphAlg.ofBits_one
  unfold kv_main_v7 cnt
  refine (Cert.LibScatterAddRows.scatterAdd_vec_apply Facts₀.scatter_S100000_S3200000x1_S3200000_n_0_0_1_wf
    (kv_main_v5 (F := Ideal)) (kv_main_v6 (F := Ideal) x1) (kv_main_v4 (F := Ideal)) i).trans ?_
  rw [h5]
  exact congrArg _ (Finset.sum_congr rfl fun e _ => by rw [h6, h4])

/-- The reciprocal square root of the degree. -/
theorem v9_apply (i : Fin 100000) : kv_main_v9 (F := Ideal) x1 (ix1 i) = ((0 : EReal) + cnt x1 i) + 1 := by
  have h8 : kv_main_v8 (F := Ideal) (ix1 i) = (1 : EReal) := by
    unfold kv_main_v8 kv_main_cst_1
    rw [Cert.LibBroadcasts.scalar_apply, const_apply]; exact Cert.GraphAlg.ofBits_one
  unfold kv_main_v9
  rw [addf_at, v7_apply, h8]
theorem v10_apply (i : Fin 100000) : kv_main_v10 (F := Ideal) x1 (ix1 i) = dis x1 i := by
  unfold kv_main_v10 dis
  rw [hostRsqrt_at, v9_apply]

theorem v11_apply (i : Fin 100000) : kv_main_v11 (F := Ideal) x1 (ix1 i) = dis x1 i * dis x1 i := by
  unfold kv_main_v11
  rw [mulf_at, v10_apply]

/-- jnp's index normalisation `select (a < 0) (a + 100000) a`, at an element. -/
theorem nrm_chain (a : (⟨S3200000, .i32⟩ : BufTy).Contents (Elt Ideal)) (e : Fin 3200000) :
    select (cmpi .slt a (broadcastInDim S3200000 ![] bcast_S_S3200000 (constantI S_ 32 0#32)))
      (addi a (broadcastInDim S3200000 ![] bcast_S_S3200000 (constantI S_ 32 100000#32))) a (ix1 e) = nrm (a (ix1 e)) := by
  simp only [select, cmpi, addi]
  rw [Cert.LibBroadcasts.scalar_apply, Cert.LibBroadcasts.scalar_apply]
  rfl

/-- A gather's clamped row for a normalised word is `pos` of the word. -/
theorem pos_of_word {w v : BitVec 32} (h : w = nrm v) (hp : min w.toInt.toNat (100000 - 1) < 100000) :
    (⟨min w.toInt.toNat (100000 - 1), hp⟩ : Fin 100000) = pos v := by
  subst h; rfl

theorem v17_apply (e : Fin 3200000) (z : Fin 1) : kv_main_v17 (F := Ideal) x1 (ix2 e z) = nrm (srcW x1 e) := by
  unfold kv_main_v17
  refine (Cert.LibBroadcasts.column_apply bcast_S3200000_S3200000x1_0 (kv_main_v16 (F := Ideal) x1) e z).trans ?_
  exact nrm_chain (kv_main_v1 (F := Ideal) x1) e
theorem v24_apply (e : Fin 3200000) (z : Fin 1) : kv_main_v24 (F := Ideal) x1 (ix2 e z) = nrm (dstW x1 e) := by
  unfold kv_main_v24
  refine (Cert.LibBroadcasts.column_apply bcast_S3200000_S3200000x1_0 (kv_main_v23 (F := Ideal) x1) e z).trans ?_
  exact nrm_chain (kv_main_v3 (F := Ideal) x1) e
theorem v34_apply (e : Fin 3200000) (z : Fin 1) : kv_main_v34 (F := Ideal) x1 (ix2 e z) = nrm (srcW x1 e) := by
  unfold kv_main_v34
  refine (Cert.LibBroadcasts.column_apply bcast_S3200000_S3200000x1_0 (kv_main_v33 (F := Ideal) x1) e z).trans ?_
  exact nrm_chain (kv_main_v1 (F := Ideal) x1) e
theorem v55_apply (e : Fin 3200000) (z : Fin 1) : kv_main_v55 (F := Ideal) x1 (ix2 e z) = nrm (srcW x1 e) := by
  unfold kv_main_v55
  refine (Cert.LibBroadcasts.column_apply bcast_S3200000_S3200000x1_0 (kv_main_v54 (F := Ideal) x1) e z).trans ?_
  exact nrm_chain (kv_main_v1 (F := Ideal) x1) e

theorem v18_apply (e : Fin 3200000) : kv_main_v18 (F := Ideal) x1 (ix1 e) = dis x1 (pos (srcW x1 e)) := by
  unfold kv_main_v18
  refine (Cert.LibGatherRows.gather_vec_apply (by norm_num) gather_S100000_S3200000x1_S3200000_n_0_n_n_0_1_1_wf
    (kv_main_v10 (F := Ideal) x1) (kv_main_v17 (F := Ideal) x1) e).trans ?_
  rw [pos_of_word (v17_apply x1 e 0)]
  exact v10_apply x1 _
theorem v25_apply (e : Fin 3200000) : kv_main_v25 (F := Ideal) x1 (ix1 e) = dis x1 (pos (dstW x1 e)) := by
  unfold kv_main_v25
  refine (Cert.LibGatherRows.gather_vec_apply (by norm_num) gather_S100000_S3200000x1_S3200000_n_0_n_n_0_1_1_wf
    (kv_main_v10 (F := Ideal) x1) (kv_main_v24 (F := Ideal) x1) e).trans ?_
  rw [pos_of_word (v24_apply x1 e 0)]
  exact v10_apply x1 _

/-- The edge coefficient, as the one-column matrix the program makes of it. -/
theorem v27_apply (e : Fin 3200000) (z : Fin 1) : kv_main_v27 (F := Ideal) x1 (ix2 e z) = coef x1 e := by
  unfold kv_main_v27
  refine (Cert.LibBroadcasts.column_apply bcast_S3200000_S3200000x1_0 (kv_main_v26 (F := Ideal) x1) e z).trans ?_
  unfold kv_main_v26 coef
  rw [mulf_at, v18_apply, v25_apply]

end Cert.KGraph

end
-- ==== Proof.KGraph2.lean ====
/-
  The kernel program's two aggregation layers read at an index: the hidden features after the first layer
  (aggregate the projected features, add the bias, clamp at zero) and the table the second launch receives
  (aggregate the hidden features), both in the words of the per-edge quantities.
-/
import proofs.«170954_j36249523978477_2_alg».proof.Proof.KGraph

noncomputable section

namespace Cert.KGraph

open Cert.KernelIdeal Cert.KernelIdeal.Gen Cert.KernelIdeal.KStage Idealize.ShloMosaic Idealize.ShloMosaic.ValueIdx Cert.Words

variable (x1 : (⟨S2x3200000, .i32⟩ : BufTy).Contents (Elt Ideal))

/-- The scatter-add of gathered rows times coefficients, from a zero table: at (i, k) the sum over the edges into i. -/
theorem agg_term (H : FVec Ideal S100000x8 .f32)
    (zero : FVec Ideal S100000x8 .f32) (hz : ∀ j, zero j = 0)
    (didx : IVec S3200000x1 32) (hd : ∀ e, didx (ix2 e 0) = dstW x1 e)
    (sidx : IVec S3200000x1 32) (hs : ∀ e, sidx (ix2 e 0) = nrm (srcW x1 e))
    (cf : FVec Ideal S3200000x8 .f32) (hc : ∀ e k, cf (ix2 e k) = coef x1 e) (i : Fin 100000) (k : Fin 8) :
    Host.scatterAdd scatter_S100000x8_S3200000x1_S3200000x8_1_0_0_1 zero didx
        (mulf (Host.gather gather_S100000x8_S3200000x1_S3200000x8_1_0_n_n_0_1_18 H sidx) cf) (ix2 i k)
      = (0 : EReal) + ∑ e : Fin 3200000,
          if (dstW x1 e).toInt = (i.val : Int) then H (ix2 (pos (srcW x1 e)) k) * coef x1 e else 0 := by
  refine (Cert.LibScatterAddRows.scatterAdd_rows_apply scatter_S100000x8_S3200000x1_S3200000x8_1_0_0_1_wf zero didx
    (mulf (Host.gather gather_S100000x8_S3200000x1_S3200000x8_1_0_n_n_0_1_18 H sidx) cf) i k).trans ?_
  rw [hz]
  refine congrArg _ (Finset.sum_congr rfl fun e _ => ?_)
  have hg : Host.gather gather_S100000x8_S3200000x1_S3200000x8_1_0_n_n_0_1_18 H sidx (ix2 e k) = H (ix2 (pos (srcW x1 e)) k) := by
    refine (Cert.LibGatherRows.gather_rows_apply (by norm_num) gather_S100000x8_S3200000x1_S3200000x8_1_0_n_n_0_1_18_wf H sidx e k).trans ?_
    rw [pos_of_word (hs e)]
  rw [hd e, mulf_at, hg, hc]

theorem zero8_apply (j : S100000x8.Idx) : (broadcastInDim S100000x8 ![] bcast_S_S100000x8 (constant (F := Ideal) S_ .f32 0x00000000#32)) j = (0 : EReal) := by
  rw [Cert.LibBroadcasts.scalar_apply, const_apply]; exact Cert.GraphAlg.ofBits_zero

theorem v39_apply (e : Fin 3200000) : kv_main_v39 (F := Ideal) x1 (ix2 e 0) = dstW x1 e := by
  unfold kv_main_v39 dstW; exact Cert.LibBroadcasts.column_apply _ _ e 0
theorem v60_apply (e : Fin 3200000) : kv_main_v60 (F := Ideal) x1 (ix2 e 0) = dstW x1 e := by
  unfold kv_main_v60 dstW; exact Cert.LibBroadcasts.column_apply _ _ e 0
theorem v36_apply (e : Fin 3200000) (k : Fin 8) : kv_main_v36 (F := Ideal) x1 (ix2 e k) = coef x1 e := by
  unfold kv_main_v36
  exact (Cert.LibBroadcasts.spread_apply bcast_S3200000x1_S3200000x8_0_1 (kv_main_v27 (F := Ideal) x1) e k).trans (v27_apply x1 e 0)
theorem v57_apply (e : Fin 3200000) (k : Fin 8) : kv_main_v57 (F := Ideal) x1 (ix2 e k) = coef x1 e := by
  unfold kv_main_v57
  exact (Cert.LibBroadcasts.spread_apply bcast_S3200000x1_S3200000x8_0_1 (kv_main_v27 (F := Ideal) x1) e k).trans (v27_apply x1 e 0)

/-- The node's own factor, spread over the 8 columns. -/
theorem v42_apply (i : Fin 100000) (k : Fin 8) : kv_main_v42 (F := Ideal) x1 (ix2 i k) = dis x1 i * dis x1 i := by
  unfold kv_main_v42 kv_main_v41
  refine (Cert.LibBroadcasts.spread_apply bcast_S100000x1_S100000x8_0_1 _ i k).trans ?_
  exact (Cert.LibBroadcasts.column_apply bcast_S100000_S100000x1_0 (kv_main_v11 (F := Ideal) x1) i 0).trans (v11_apply x1 i)
theorem v63_apply (i : Fin 100000) (k : Fin 8) : kv_main_v63 (F := Ideal) x1 (ix2 i k) = dis x1 i * dis x1 i := by
  unfold kv_main_v63 kv_main_v62
  refine (Cert.LibBroadcasts.spread_apply bcast_S100000x1_S100000x8_0_1 _ i k).trans ?_
  exact (Cert.LibBroadcasts.column_apply bcast_S100000_S100000x1_0 (kv_main_v11 (F := Ideal) x1) i 0).trans (v11_apply x1 i)

/-- The first aggregation: of the projected features `h28`. -/
theorem v44_apply (h28 : FVec Ideal S100000x8 .f32) (i : Fin 100000) (k : Fin 8) :
    kv_main_v44 (F := Ideal) x1 h28 (ix2 i k) = agg x1 h28 i k := by
  have h40 : kv_main_v40 (F := Ideal) x1 h28 (ix2 i k) = (0 : EReal) + ∑ e : Fin 3200000,
      if (dstW x1 e).toInt = (i.val : Int) then h28 (ix2 (pos (srcW x1 e)) k) * coef x1 e else 0 := by
    unfold kv_main_v40 kv_main_v37 kv_main_v35 kv_main_v38 kv_main_cst_7
    exact agg_term x1 h28 _ zero8_apply (kv_main_v39 (F := Ideal) x1) (v39_apply x1) (kv_main_v34 (F := Ideal) x1)
      (fun e => v34_apply x1 e 0) (kv_main_v36 (F := Ideal) x1) (v36_apply x1) i k
  unfold kv_main_v44 kv_main_v43 agg
  rw [addf_at, mulf_at, h40, v42_apply]

/-- The hidden features: the first aggregation plus the bias, clamped at zero. -/
theorem v49_apply (x3 : (⟨S8, .f32⟩ : BufTy).Contents (Elt Ideal)) (h28 : FVec Ideal S100000x8 .f32) (i : Fin 100000) (k : Fin 8) :
    kv_main_v49 (F := Ideal) x1 x3 h28 (ix2 i k) = max (agg x1 h28 i k + x3 (ix1 k)) 0 := by
  have h46 : kv_main_v46 (F := Ideal) x3 (ix2 i k) = x3 (ix1 k) := by
    unfold kv_main_v46 kv_main_v45
    exact (Cert.LibBroadcasts.rows_apply bcast_S1x8_S100000x8_0_1 _ i k).trans (Cert.LibBroadcasts.row_apply bcast_S8_S1x8_1 x3 0 k)
  have h48 : kv_main_v48 (F := Ideal) (ix2 i k) = (0 : EReal) := by
    unfold kv_main_v48 kv_main_cst_8; exact zero8_apply _
  unfold kv_main_v49 kv_main_v47
  rw [maximumf_at, addf_at, v44_apply, h46, h48]

/-- The second aggregation: of the hidden features. -/
theorem v65_apply (x3 : (⟨S8, .f32⟩ : BufTy).Contents (Elt Ideal)) (h28 : FVec Ideal S100000x8 .f32) (i : Fin 100000) (k : Fin 8) :
    kv_main_v65 (F := Ideal) x1 x3 h28 (ix2 i k) = agg x1 (kv_main_v49 (F := Ideal) x1 x3 h28) i k := by
  have h61 : kv_main_v61 (F := Ideal) x1 x3 h28 (ix2 i k) = (0 : EReal) + ∑ e : Fin 3200000,
      if (dstW x1 e).toInt = (i.val : Int) then kv_main_v49 (F := Ideal) x1 x3 h28 (ix2 (pos (srcW x1 e)) k) * coef x1 e else 0 := by
    unfold kv_main_v61 kv_main_v58 kv_main_v56 kv_main_v59 kv_main_cst_11
    exact agg_term x1 (kv_main_v49 (F := Ideal) x1 x3 h28) _ zero8_apply (kv_main_v60 (F := Ideal) x1) (v60_apply x1)
      (kv_main_v55 (F := Ideal) x1) (fun e => v55_apply x1 e 0) (kv_main_v57 (F := Ideal) x1) (v57_apply x1) i k
  unfold kv_main_v65 kv_main_v64 agg
  rw [addf_at, mulf_at, h61, v63_apply]

/-- The bias row the second launch receives. -/
theorem v66_apply (x5 : (⟨S40, .f32⟩ : BufTy).Contents (Elt Ideal)) (c : Fin 40) : kv_main_v66 (F := Ideal) x5 (ix2 0 c) = x5 (ix1 c) := by
  unfold kv_main_v66
  exact Cert.LibBroadcasts.row_cast_apply shapeCasts_S40_S1x40 x5 0 c

end Cert.KGraph

end
-- ==== Proof.LibConcatVec.lean ====
/-
  A two-piece concatenation of flat arrays read at an index, generic in the sizes.

  `jnp.concatenate([a, b])` of `a : [A]` and `b : [B]` along axis 0 is the array `[A + B]` whose element `j` is `a[j]`
  for `j < A` and `b[j − A]` from there on. The result's extent is a third size `C` with `A + B = C`, so that the
  statement applies where a program writes the extent as one literal.
-/
import Idealize.ShloMosaic.Lib.ValueIdx
import Idealize.ShloMosaic.Lib.Pipeline.Value

noncomputable section

namespace Cert.LibConcatVec

open Idealize.ShloMosaic Idealize.ShloMosaic.ValueIdx

variable {α : Type}

/-- THE TWO-PIECE FLAT CONCATENATION READ AT `j`: the first piece at `j` while `j` is below the first extent `A`,
    from there on the second piece at `j − A`. (`hC` says the result's extent `C` is the two extents' sum; `h` is the
    concatenation's shape condition.) -/
theorem concat_vec_apply {A B C : Nat} (hC : A + B = C)
    (h : Shape.Concatenates [⟨1, ![A]⟩, ⟨1, ![B]⟩] ⟨1, ![C]⟩ 0)
    (a : (⟨1, ![A]⟩ : Shape).Idx → α) (b : (⟨1, ![B]⟩ : Shape).Idx → α) (j : Fin C) :
    concatenate ⟨1, ![C]⟩ 0 [⟨⟨1, ![A]⟩, a⟩, ⟨⟨1, ![B]⟩, b⟩] h (ix1 j)
      = if hj : j.val < A then a (ix1 ⟨j.val, hj⟩) else b (ix1 ⟨j.val - A, by omega⟩) := by
  split
  · rename_i hj
    refine concatenate_pair_apply_left 0 a b h (ix1 j) rfl (ix1 ⟨j.val, hj⟩) fun c => ?_
    obtain rfl : c = 0 := Subsingleton.elim _ _
    rfl
  · rename_i hj
    refine concatenate_pair_apply_right 0 a b h (ix1 j) rfl rfl (ix1 ⟨j.val - A, by omega⟩)
      (fun c hc => absurd (Subsingleton.elim _ _) hc) ?_
    show j.val - A + A = j.val
    omega

end Cert.LibConcatVec

end
-- ==== Proof.RGraph.lean ====
/-
  The reference program's host arithmetic read at an index, over the extended reals. The reference appends the 100000
  node numbers to both rows of the edge list (the self loops), so its source and destination words `srcW`, `dstW`
  run over 3300000 entries: the 3200000 edges, then node n as the word n at entry 3200000 + n. `cnt i` counts the
  entries whose destination word, read signed, is node i (the self loop included); `dis i` is the guarded reciprocal
  square root of that degree; an entry's coefficient `coef j` is the product of `dis` at its two gathered ends; and
  one aggregation of a [100000, C] table H is, at (i, k), the sum over the entries into i of the source row's entry
  times the coefficient.
-/
import proofs.«170954_j36249523978477_2_alg».proof.Proof.RefRead
import proofs.«170954_j36249523978477_2_alg».proof.Proof.LibScatterAddRows
import proofs.«170954_j36249523978477_2_alg».proof.Proof.LibGatherRows
import proofs.«170954_j36249523978477_2_alg».proof.Proof.LibConcatVec
import proofs.«170954_j36249523978477_2_alg».proof.Proof.LibBroadcasts
import proofs.«170954_j36249523978477_2_alg».proof.Proof.Words
import proofs.«170954_j36249523978477_2_alg».proof.Proof.GraphAlg

noncomputable section

open scoped BigOperators

namespace Cert.RGraph

open Cert.ReferenceIdeal Cert.ReferenceIdeal.Gen Cert.ReferenceIdeal.Read Idealize.ShloMosaic Idealize.ShloMosaic.ValueIdx Cert.Words

variable (x0 : (⟨S100000x512, .f32⟩ : BufTy).Contents (Elt Ideal)) (x1 : (⟨S2x3200000, .i32⟩ : BufTy).Contents (Elt Ideal))
  (x2 : (⟨S512x8, .f32⟩ : BufTy).Contents (Elt Ideal)) (x3 : (⟨S8, .f32⟩ : BufTy).Contents (Elt Ideal))
  (x4 : (⟨S8x40, .f32⟩ : BufTy).Contents (Elt Ideal)) (x5 : (⟨S40, .f32⟩ : BufTy).Contents (Elt Ideal))

/-- Entry j's source word and destination word: an edge's, or a node's own number for a self loop. -/
def srcW (j : Fin 3300000) : BitVec 32 := val_main_v5 (F := Ideal) x1 (ix1 j)
def dstW (j : Fin 3300000) : BitVec 32 := val_main_v6 (F := Ideal) x1 (ix1 j)

/-- The number of entries into node i (its self loop included). -/
def cnt (i : Fin 100000) : EReal := ∑ j : Fin 3300000, if (dstW x1 j).toInt = (i.val : Int) then (1 : EReal) else 0
/-- The reciprocal square root of node i's degree, clamped from below and guarded by "degree > 0". -/
def dis (i : Fin 100000) : EReal :=
  Scalar.select (Ideal.cmp .ogt ((0 : EReal) + cnt x1 i) 0)
    (Ideal.rsqrt (max ((0 : EReal) + cnt x1 i) (Ideal.ofBits .f32 0x2B8CBCCC#32))) (0 : EReal)
/-- Entry j's coefficient. -/
def coef (j : Fin 3300000) : EReal := dis x1 (pos (srcW x1 j)) * dis x1 (pos (dstW x1 j))
/-- One aggregation of a table H at (i, k). -/
def agg {C : Nat} (H : FVec Ideal ⟨2, ![100000, C]⟩ .f32) (i : Fin 100000) (k : Fin C) : EReal :=
  (0 : EReal) + ∑ j : Fin 3300000,
    if (dstW x1 j).toInt = (i.val : Int) then H (ix2 (pos (srcW x1 j)) k) * coef x1 j else 0

/-! ## The two rows of the extended edge list -/

/-- Below 3200000 the source word is the edge's. -/
theorem srcW_edge (j : Fin 3300000) (h : j.val < 3200000) :
    srcW x1 j = val_main_v1 (F := Ideal) x1 (ix1 ⟨j.val, h⟩) := by
  unfold srcW val_main_v5
  rw [Cert.LibConcatVec.concat_vec_apply (by norm_num), dif_pos h]

/-- From 3200000 on the source word is the node number j − 3200000. -/
theorem srcW_node (j : Fin 3300000) (h : ¬ j.val < 3200000) :
    srcW x1 j = BitVec.ofNat 32 (j.val - 3200000) := by
  unfold srcW val_main_v5
  rw [Cert.LibConcatVec.concat_vec_apply (by norm_num), dif_neg h]
  exact val_main_v4_apply (F := Ideal) _

/-- Below 3200000 the destination word is the edge's. -/
theorem dstW_edge (j : Fin 3300000) (h : j.val < 3200000) :
    dstW x1 j = val_main_v3 (F := Ideal) x1 (ix1 ⟨j.val, h⟩) := by
  unfold dstW val_main_v6
  rw [Cert.LibConcatVec.concat_vec_apply (by norm_num), dif_pos h]

/-- From 3200000 on the destination word is the node number j − 3200000. -/
theorem dstW_node (j : Fin 3300000) (h : ¬ j.val < 3200000) :
    dstW x1 j = BitVec.ofNat 32 (j.val - 3200000) := by
  unfold dstW val_main_v6
  rw [Cert.LibConcatVec.concat_vec_apply (by norm_num), dif_neg h]
  exact val_main_v4_apply (F := Ideal) _

/-! ## The degree and its reciprocal square root -/

/-- A word that is a normalised index word, read signed and clamped into the rows, is that word's row. -/
theorem clamp_eq_pos {w w' : BitVec 32} (h : w = nrm w') (p : min w.toInt.toNat (100000 - 1) < 100000) :
    (⟨min w.toInt.toNat (100000 - 1), p⟩ : Fin 100000) = pos w' := by
  subst h; rfl

/-- The in-degree count (self loop included), from the zero table. -/
theorem v10_apply (i : Fin 100000) : val_main_v10 (F := Ideal) x1 (ix1 i) = (0 : EReal) + cnt x1 i := by
  unfold val_main_v10
  show Host.scatterAdd (Cert.LibScatterAddRows.vecDims 100000 3300000 _) _ _ _ (ix1 i) = _
  rw [Cert.LibScatterAddRows.scatterAdd_vec_apply]
  unfold cnt
  refine congrArg₂ (· + ·) ?_ ?_
  · rw [val_main_v8_apply, val_main_cst_0_apply]; exact Cert.GraphAlg.ofBits_zero
  · refine Finset.sum_congr rfl fun e _ => ?_
    have h9 : val_main_v9 (F := Ideal) x1 (ix2 e 0) = dstW x1 e := by
      unfold val_main_v9 dstW; exact Cert.LibBroadcasts.column_apply _ _ e 0
    have h7 : val_main_v7 (F := Ideal) (ix1 e) = (1 : EReal) := by
      rw [val_main_v7_apply, val_main_cst_apply]; exact Cert.GraphAlg.ofBits_one
    rw [h9, h7]

/-- The guarded reciprocal square root of the degree. -/
theorem v16_apply (i : Fin 100000) : val_main_v16 (F := Ideal) x1 (ix1 i) = dis x1 i := by
  rw [val_main_v16_apply, val_main_v12_apply, val_main_v15_apply, val_main_v14_apply, v10_apply,
    val_main_v11_apply, val_main_cst_1_apply, val_main_v13_apply, val_main_cst_2_apply,
    val_main_call0_v1_apply, val_main_call0_v0_apply, val_main_cst_3_apply]
  unfold dis
  simp only [Ideal.cmpf_def, Ideal.hostUnary_rsqrt_def, Ideal.maximumf_def, Ideal.ofBits_def,
    Cert.GraphAlg.ofBits_zero]

/-! ## The normalised index words and the coefficients -/

/-- The first layer's normalised source word. -/
theorem v21_apply (j : Fin 3300000) : val_main_v21 (F := Ideal) x1 (ix1 j) = nrm (srcW x1 j) := by
  rw [val_main_v21_apply, val_main_v18_apply, val_main_v20_apply, val_main_v17_apply, val_main_c_apply,
    val_main_v19_apply, val_main_c_4_apply]
  rfl

/-- The first layer's normalised destination word. -/
theorem v28_apply (j : Fin 3300000) : val_main_v28 (F := Ideal) x1 (ix1 j) = nrm (dstW x1 j) := by
  rw [val_main_v28_apply, val_main_v25_apply, val_main_v27_apply, val_main_v24_apply, val_main_c_5_apply,
    val_main_v26_apply, val_main_c_6_apply]
  rfl

/-- `dis` gathered at the source end. -/
theorem v23_apply (j : Fin 3300000) : val_main_v23 (F := Ideal) x1 (ix1 j) = dis x1 (pos (srcW x1 j)) := by
  unfold val_main_v23
  show Host.gather (Cert.LibGatherRows.vecDims 100000 3300000 _) _ _ (ix1 j) = _
  rw [Cert.LibGatherRows.gather_vec_apply (by norm_num), v16_apply]
  have h22 : val_main_v22 (F := Ideal) x1 (ix2 j 0) = nrm (srcW x1 j) := by
    unfold val_main_v22; rw [Cert.LibBroadcasts.column_apply]; exact v21_apply x1 j
  rw [clamp_eq_pos h22]

/-- `dis` gathered at the destination end. -/
theorem v30_apply (j : Fin 3300000) : val_main_v30 (F := Ideal) x1 (ix1 j) = dis x1 (pos (dstW x1 j)) := by
  unfold val_main_v30
  show Host.gather (Cert.LibGatherRows.vecDims 100000 3300000 _) _ _ (ix1 j) = _
  rw [Cert.LibGatherRows.gather_vec_apply (by norm_num), v16_apply]
  have h29 : val_main_v29 (F := Ideal) x1 (ix2 j 0) = nrm (dstW x1 j) := by
    unfold val_main_v29; rw [Cert.LibBroadcasts.column_apply]; exact v28_apply x1 j
  rw [clamp_eq_pos h29]

/-- The coefficient of entry j. -/
theorem v31_apply (j : Fin 3300000) : val_main_v31 (F := Ideal) x1 (ix1 j) = coef x1 j := by
  rw [val_main_v31_apply, v23_apply, v30_apply]
  rfl

/-! ## The first layer: the product with the first weight matrix, aggregated, plus the bias, clamped at zero -/

/-- The features times the first weight matrix: entry (i, k) is the sum over the 512 input features. -/
theorem v32_apply (i : Fin 100000) (k : Fin 8) :
    val_main_v32 (F := Ideal) x0 x2 (ix2 i k) = ∑ j : Fin 512, x0 (ix2 i j) * x2 (ix2 j k) := by
  rw [val_main_v32_apply]
  refine Finset.sum_congr rfl fun j _ => ?_
  have hl : lidx_main_v32 (ix2 i k) j = ix2 i j := by
    funext a; refine Fin.ext ?_
    match a with
    | ⟨0, _⟩ => rfl
    | ⟨1, _⟩ => rfl
  have hr : ridx_main_v32 (ix2 i k) j = ix2 j k := by
    funext a; refine Fin.ext ?_
    match a with
    | ⟨0, _⟩ => rfl
    | ⟨1, _⟩ => rfl
  rw [hl, hr]

/-- The normalised source word, as the first layer's row gather recomputes it. -/
theorem v37_apply (j : Fin 3300000) : val_main_v37 (F := Ideal) x1 (ix1 j) = nrm (srcW x1 j) := by
  rw [val_main_v37_apply, val_main_v34_apply, val_main_v36_apply, val_main_v33_apply, val_main_c_7_apply,
    val_main_v35_apply, val_main_c_8_apply]
  rfl

/-- The source row of entry j, gathered from the projected features. -/
theorem v39_apply (j : Fin 3300000) (k : Fin 8) :
    val_main_v39 (F := Ideal) x0 x1 x2 (ix2 j k) = val_main_v32 (F := Ideal) x0 x2 (ix2 (pos (srcW x1 j)) k) := by
  unfold val_main_v39
  show Host.gather (Cert.LibGatherRows.rowDims 100000 8 3300000 _) _ _ (ix2 j k) = _
  rw [Cert.LibGatherRows.gather_rows_apply (by norm_num)]
  have h38 : val_main_v38 (F := Ideal) x1 (ix2 j 0) = nrm (srcW x1 j) := by
    unfold val_main_v38; rw [Cert.LibBroadcasts.column_apply]; exact v37_apply x1 j
  rw [clamp_eq_pos h38]

/-- The coefficient of entry j, spread over the 8 columns. -/
theorem v41_apply (j : Fin 3300000) (k : Fin 8) : val_main_v41 (F := Ideal) x1 (ix2 j k) = coef x1 j := by
  unfold val_main_v41
  rw [Cert.LibBroadcasts.spread_apply]
  unfold val_main_v40
  rw [Cert.LibBroadcasts.column_apply]
  exact v31_apply x1 j

/-- Entry j's contribution: its source row times its coefficient. -/
theorem v42_apply (j : Fin 3300000) (k : Fin 8) :
    val_main_v42 (F := Ideal) x0 x1 x2 (ix2 j k)
      = val_main_v32 (F := Ideal) x0 x2 (ix2 (pos (srcW x1 j)) k) * coef x1 j := by
  rw [val_main_v42_apply, v39_apply, v41_apply]
  rfl

/-- The first aggregation: the contributions summed into their destination rows, from the zero table. -/
theorem v45_apply (i : Fin 100000) (k : Fin 8) :
    val_main_v45 (F := Ideal) x0 x1 x2 (ix2 i k) = agg x1 (val_main_v32 (F := Ideal) x0 x2) i k := by
  unfold val_main_v45
  show Host.scatterAdd (Cert.LibScatterAddRows.rowDims 100000 8 3300000 _) _ _ _ (ix2 i k) = _
  rw [Cert.LibScatterAddRows.scatterAdd_rows_apply]
  unfold agg
  refine congrArg₂ (· + ·) ?_ ?_
  · rw [val_main_v43_apply, val_main_cst_9_apply]; exact Cert.GraphAlg.ofBits_zero
  · refine Finset.sum_congr rfl fun e _ => ?_
    have h44 : val_main_v44 (F := Ideal) x1 (ix2 e 0) = dstW x1 e := by
      unfold val_main_v44 dstW; exact Cert.LibBroadcasts.column_apply _ _ e 0
    rw [h44, v42_apply]

/-- The hidden features: the aggregate plus the bias, clamped at zero from below. -/
theorem v49_apply (i : Fin 100000) (k : Fin 8) :
    val_main_v49 (F := Ideal) x0 x1 x2 x3 (ix2 i k)
      = max (agg x1 (val_main_v32 (F := Ideal) x0 x2) i k + x3 (ix1 k)) 0 := by
  have h47 : val_main_v47 (F := Ideal) x3 (ix2 i k) = x3 (ix1 k) := by
    unfold val_main_v47 val_main_v46
    rw [Cert.LibBroadcasts.rows_apply, Cert.LibBroadcasts.row_apply]
  rw [val_main_v49_apply, val_main_v48_apply, v45_apply, h47, val_main_call1_v0_apply, val_main_call1_cst_apply,
    show FloatOps.ofBits (F := Ideal) .f32 0x00000000#32 = (0 : EReal) from Cert.GraphAlg.ofBits_zero]
  rfl

/-! ## The second layer

The second layer recomputes the index words, the degrees and the coefficients under new names, operation for
operation: they are the first layer's, by unfolding. -/

/-- The second layer's source words are the first layer's. -/
theorem v51_eq : val_main_v51 (F := Ideal) x1 = val_main_v5 (F := Ideal) x1 := rfl
/-- The second layer's destination words are the first layer's. -/
theorem v52_eq : val_main_v52 (F := Ideal) x1 = val_main_v6 (F := Ideal) x1 := rfl
/-- The second layer's guarded reciprocal square roots are the first layer's. -/
theorem v62_eq : val_main_v62 (F := Ideal) x1 = val_main_v16 (F := Ideal) x1 := rfl
/-- The second layer's coefficients are the first layer's. -/
theorem v77_eq : val_main_v77 (F := Ideal) x1 = val_main_v31 (F := Ideal) x1 := rfl
/-- The second layer's normalised source words, for its row gather, are the first layer's. -/
theorem v83_eq : val_main_v83 (F := Ideal) x1 = val_main_v37 (F := Ideal) x1 := rfl

/-- The hidden features times the second weight matrix: entry (i, c) is the sum over the 8 hidden features. -/
theorem v78_apply (i : Fin 100000) (c : Fin 40) :
    val_main_v78 (F := Ideal) x0 x1 x2 x3 x4 (ix2 i c)
      = ∑ k : Fin 8, val_main_v49 (F := Ideal) x0 x1 x2 x3 (ix2 i k) * x4 (ix2 k c) := by
  rw [val_main_v78_apply]
  refine Finset.sum_congr rfl fun k _ => ?_
  have hl : lidx_main_v78 (ix2 i c) k = ix2 i k := by
    funext a; refine Fin.ext ?_
    match a with
    | ⟨0, _⟩ => rfl
    | ⟨1, _⟩ => rfl
  have hr : ridx_main_v78 (ix2 i c) k = ix2 k c := by
    funext a; refine Fin.ext ?_
    match a with
    | ⟨0, _⟩ => rfl
    | ⟨1, _⟩ => rfl
  rw [hl, hr]

/-- The source row of entry j, gathered from the projected hidden features. -/
theorem v85_apply (j : Fin 3300000) (c : Fin 40) :
    val_main_v85 (F := Ideal) x0 x1 x2 x3 x4 (ix2 j c)
      = val_main_v78 (F := Ideal) x0 x1 x2 x3 x4 (ix2 (pos (srcW x1 j)) c) := by
  unfold val_main_v85
  show Host.gather (Cert.LibGatherRows.rowDims 100000 40 3300000 _) _ _ (ix2 j c) = _
  rw [Cert.LibGatherRows.gather_rows_apply (by norm_num)]
  have h84 : val_main_v84 (F := Ideal) x1 (ix2 j 0) = nrm (srcW x1 j) := by
    unfold val_main_v84; rw [Cert.LibBroadcasts.column_apply, v83_eq]; exact v37_apply x1 j
  rw [clamp_eq_pos h84]

/-- The coefficient of entry j, spread over the 40 columns. -/
theorem v87_apply (j : Fin 3300000) (c : Fin 40) : val_main_v87 (F := Ideal) x1 (ix2 j c) = coef x1 j := by
  unfold val_main_v87
  rw [Cert.LibBroadcasts.spread_apply]
  unfold val_main_v86
  rw [Cert.LibBroadcasts.column_apply, v77_eq]
  exact v31_apply x1 j

/-- Entry j's contribution: its source row times its coefficient. -/
theorem v88_apply (j : Fin 3300000) (c : Fin 40) :
    val_main_v88 (F := Ideal) x0 x1 x2 x3 x4 (ix2 j c)
      = val_main_v78 (F := Ideal) x0 x1 x2 x3 x4 (ix2 (pos (srcW x1 j)) c) * coef x1 j := by
  rw [val_main_v88_apply, v85_apply, v87_apply]
  rfl

/-- The second aggregation: the contributions summed into their destination rows, from the zero table. -/
theorem v91_apply (i : Fin 100000) (c : Fin 40) :
    val_main_v91 (F := Ideal) x0 x1 x2 x3 x4 (ix2 i c)
      = agg x1 (val_main_v78 (F := Ideal) x0 x1 x2 x3 x4) i c := by
  unfold val_main_v91
  show Host.scatterAdd (Cert.LibScatterAddRows.rowDims 100000 40 3300000 _) _ _ _ (ix2 i c) = _
  rw [Cert.LibScatterAddRows.scatterAdd_rows_apply]
  unfold agg
  refine congrArg₂ (· + ·) ?_ ?_
  · rw [val_main_v89_apply, val_main_cst_21_apply]; exact Cert.GraphAlg.ofBits_zero
  · refine Finset.sum_congr rfl fun e _ => ?_
    have h90 : val_main_v90 (F := Ideal) x1 (ix2 e 0) = dstW x1 e := by
      unfold val_main_v90 dstW; rw [v52_eq]; exact Cert.LibBroadcasts.column_apply _ _ e 0
    rw [h90, v88_apply]

/-- The logits: the second aggregate plus the bias. -/
theorem v94_apply (i : Fin 100000) (c : Fin 40) :
    val_main_v94 (F := Ideal) x0 x1 x2 x3 x4 x5 (ix2 i c)
      = agg x1 (val_main_v78 (F := Ideal) x0 x1 x2 x3 x4) i c + x5 (ix1 c) := by
  have h93 : val_main_v93 (F := Ideal) x5 (ix2 i c) = x5 (ix1 c) := by
    unfold val_main_v93 val_main_v92
    rw [Cert.LibBroadcasts.rows_apply, Cert.LibBroadcasts.row_apply]
  rw [val_main_v94_apply, v91_apply, h93]
  rfl

end Cert.RGraph

end
-- ==== Proof.Split.lean ====
/-
  The reference's edge list is the kernel program's 3200000 edges followed by the 100000 self loops, node n as the
  word n at entry 3200000 + n. A sum over the 3300000 entries therefore splits into the sum over the edges and the sum
  over the nodes; on the edges the reference's words are the kernel program's, and among the node words only node i's
  own reads i. So the reference's degree count is the kernel program's plus one, the two reciprocal square roots
  agree (a degree is a real number at least 1, where the reference's clamp and guard change nothing), the edge
  coefficients agree, a self loop's coefficient is the square of its node's reciprocal square root, and the
  reference's aggregation is the aggregation over the edges plus the node's own row times that square.
-/
import proofs.«170954_j36249523978477_2_alg».proof.Proof.KGraph
import proofs.«170954_j36249523978477_2_alg».proof.Proof.RGraph
import proofs.«170954_j36249523978477_2_alg».proof.Proof.Words
import proofs.«170954_j36249523978477_2_alg».proof.Proof.GraphAlg

noncomputable section

namespace Cert.Split

open Idealize.ShloMosaic Idealize.ShloMosaic.ValueIdx Cert.Words

variable (x1 : (⟨Cert.KernelIdeal.S2x3200000, .i32⟩ : BufTy).Contents (Elt Ideal))

/-- A sum over the 3300000 entries is the sum over the 3200000 edges plus the sum over the 100000 self loops. -/
theorem sum_split (f : Fin 3300000 → EReal) :
    ∑ j : Fin 3300000, f j
      = (∑ e : Fin 3200000, f ⟨e.val, by omega⟩) + ∑ i : Fin 100000, f ⟨3200000 + i.val, by omega⟩ :=
  Fin.sum_univ_add (a := 3200000) (b := 100000) f

/-- Both programs take the first row of the edge list by the same slice and reshape. -/
theorem v1_eq : Cert.ReferenceIdeal.Read.val_main_v1 (F := Ideal) x1 = Cert.KernelIdeal.KStage.kv_main_v1 (F := Ideal) x1 := rfl

/-- Both programs take the second row of the edge list by the same slice and reshape. -/
theorem v3_eq : Cert.ReferenceIdeal.Read.val_main_v3 (F := Ideal) x1 = Cert.KernelIdeal.KStage.kv_main_v3 (F := Ideal) x1 := rfl

/-! ## The words -/

/-- On an edge the reference's source word is the kernel program's. -/
theorem srcW_inl (e : Fin 3200000) : Cert.RGraph.srcW x1 ⟨e.val, by omega⟩ = Cert.KGraph.srcW x1 e :=
  (Cert.RGraph.srcW_edge x1 ⟨e.val, by omega⟩ e.isLt).trans (congrFun (v1_eq x1) (ix1 e))

/-- On an edge the reference's destination word is the kernel program's. -/
theorem dstW_inl (e : Fin 3200000) : Cert.RGraph.dstW x1 ⟨e.val, by omega⟩ = Cert.KGraph.dstW x1 e :=
  (Cert.RGraph.dstW_edge x1 ⟨e.val, by omega⟩ e.isLt).trans (congrFun (v3_eq x1) (ix1 e))

/-- On node i's self loop the source word is the number i. -/
theorem srcW_inr (i : Fin 100000) : Cert.RGraph.srcW x1 ⟨3200000 + i.val, by omega⟩ = BitVec.ofNat 32 i.val :=
  (Cert.RGraph.srcW_node x1 ⟨3200000 + i.val, by omega⟩ (by show ¬ 3200000 + i.val < 3200000; omega)).trans
    (congrArg (BitVec.ofNat 32) (by show 3200000 + i.val - 3200000 = i.val; omega))

/-- On node i's self loop the destination word is the number i. -/
theorem dstW_inr (i : Fin 100000) : Cert.RGraph.dstW x1 ⟨3200000 + i.val, by omega⟩ = BitVec.ofNat 32 i.val :=
  (Cert.RGraph.dstW_node x1 ⟨3200000 + i.val, by omega⟩ (by show ¬ 3200000 + i.val < 3200000; omega)).trans
    (congrArg (BitVec.ofNat 32) (by show 3200000 + i.val - 3200000 = i.val; omega))

/-- Node n's word, read signed, is node i exactly when n is i. -/
theorem node_word_reads (n i : Fin 100000) : (BitVec.ofNat 32 n.val).toInt = (i.val : Int) ↔ n = i := by
  rw [toInt_node n.val n.isLt]
  constructor
  · intro h; exact Fin.ext (Int.ofNat_inj.mp h)
  · intro h; rw [h]

/-! ## The degree and its reciprocal square root -/

/-- The reference counts the self loop: its degree count is the kernel program's plus one. -/
theorem cnt_eq (i : Fin 100000) : Cert.RGraph.cnt x1 i = Cert.KGraph.cnt x1 i + 1 := by
  unfold Cert.RGraph.cnt Cert.KGraph.cnt
  refine (sum_split (fun j => if (Cert.RGraph.dstW x1 j).toInt = (i.val : Int) then (1 : EReal) else 0)).trans ?_
  refine congrArg₂ (fun (a b : EReal) => a + b) (Finset.sum_congr rfl fun e _ => ?_) ?_
  · show (if (Cert.RGraph.dstW x1 ⟨e.val, by omega⟩).toInt = (i.val : Int) then (1 : EReal) else 0) = _
    rw [dstW_inl]
  · have h : ∀ n : Fin 100000,
        (if (Cert.RGraph.dstW x1 ⟨3200000 + n.val, by omega⟩).toInt = (i.val : Int) then (1 : EReal) else 0)
          = if n = i then (1 : EReal) else 0 := fun n => by
      rw [dstW_inr]; exact if_congr (node_word_reads n i) rfl rfl
    refine (Finset.sum_congr rfl fun n _ => h n).trans ?_
    rw [Finset.sum_ite_eq' Finset.univ i (fun _ => (1 : EReal)), if_pos (Finset.mem_univ i)]

/-- So the two reciprocal square roots of the degree agree: the degree is a real number at least 1, where the
    reference's clamp from below and its guard change nothing. -/
theorem dis_eq (i : Fin 100000) : Cert.RGraph.dis x1 i = Cert.KGraph.dis x1 i := by
  obtain ⟨n, hn, hcnt⟩ := Cert.GraphAlg.count_real
    (fun e : Fin 3200000 => (Cert.KGraph.dstW x1 e).toInt = (i.val : Int))
  obtain ⟨t, ht0, ht1, htiny⟩ := Cert.GraphAlg.ofBits_tiny
  have hk : Cert.KGraph.cnt x1 i = (n : EReal) := hcnt
  unfold Cert.RGraph.dis Cert.KGraph.dis
  rw [cnt_eq, hk, htiny]
  exact Cert.GraphAlg.guarded_rsqrt_deg n t hn ht0 ht1

/-! ## The coefficients and the aggregation -/

/-- An edge's coefficient is the same in both programs. -/
theorem coef_inl (e : Fin 3200000) : Cert.RGraph.coef x1 ⟨e.val, by omega⟩ = Cert.KGraph.coef x1 e := by
  unfold Cert.RGraph.coef Cert.KGraph.coef
  rw [srcW_inl, dstW_inl, dis_eq, dis_eq]

/-- A self loop's coefficient is the square of its node's reciprocal square root. -/
theorem coef_inr (i : Fin 100000) :
    Cert.RGraph.coef x1 ⟨3200000 + i.val, by omega⟩ = Cert.KGraph.dis x1 i * Cert.KGraph.dis x1 i := by
  unfold Cert.RGraph.coef
  rw [srcW_inr, dstW_inr, pos_node, dis_eq]

/-- The reference's aggregation at (i, k): the sum over the edges into i, plus node i's own row times the square of
    its reciprocal square root. -/
theorem agg_split {C : Nat} (H : FVec Ideal ⟨2, ![100000, C]⟩ .f32) (i : Fin 100000) (k : Fin C) :
    Cert.RGraph.agg x1 H i k
      = (0 : EReal) + ((∑ e : Fin 3200000, if (Cert.KGraph.dstW x1 e).toInt = (i.val : Int)
            then H (ix2 (pos (Cert.KGraph.srcW x1 e)) k) * Cert.KGraph.coef x1 e else 0)
          + H (ix2 i k) * (Cert.KGraph.dis x1 i * Cert.KGraph.dis x1 i)) := by
  unfold Cert.RGraph.agg
  refine congrArg (fun s : EReal => (0 : EReal) + s) ?_
  refine (sum_split (fun j => if (Cert.RGraph.dstW x1 j).toInt = (i.val : Int)
    then H (ix2 (pos (Cert.RGraph.srcW x1 j)) k) * Cert.RGraph.coef x1 j else 0)).trans ?_
  refine congrArg₂ (fun (a b : EReal) => a + b) (Finset.sum_congr rfl fun e _ => ?_) ?_
  · show (if (Cert.RGraph.dstW x1 ⟨e.val, by omega⟩).toInt = (i.val : Int)
        then H (ix2 (pos (Cert.RGraph.srcW x1 ⟨e.val, by omega⟩)) k) * Cert.RGraph.coef x1 ⟨e.val, by omega⟩ else 0) = _
    rw [dstW_inl, srcW_inl, coef_inl]
  · have h : ∀ n : Fin 100000,
        (if (Cert.RGraph.dstW x1 ⟨3200000 + n.val, by omega⟩).toInt = (i.val : Int)
          then H (ix2 (pos (Cert.RGraph.srcW x1 ⟨3200000 + n.val, by omega⟩)) k)
            * Cert.RGraph.coef x1 ⟨3200000 + n.val, by omega⟩ else 0)
          = if n = i then H (ix2 n k) * (Cert.KGraph.dis x1 n * Cert.KGraph.dis x1 n) else 0 := fun n => by
      rw [dstW_inr, srcW_inr, coef_inr, pos_node]
      exact if_congr (node_word_reads n i) rfl rfl
    refine (Finset.sum_congr rfl fun n _ => h n).trans ?_
    rw [Finset.sum_ite_eq' Finset.univ i
      (fun n => H (ix2 n k) * (Cert.KGraph.dis x1 n * Cert.KGraph.dis x1 n)), if_pos (Finset.mem_univ i)]

end Cert.Split

end
-- ==== Proof.Finite.lean ====
/-
  Every intermediate number on the kernel side is a real number when the float inputs are.  Real numbers are closed
  under the operations the host arithmetic uses: 0, sums, products, maxima, a choice between two reals, finite sums.
  A node's in-degree count is a finite sum of ones and zeros, so it is a nonnegative real, and the reciprocal
  square root of that count plus one (the self loop) is a real; an edge's coefficient is a product of two of
  those; and an aggregation of a table of reals is a finite sum of products of reals plus one more product.
-/
import proofs.«170954_j36249523978477_2_alg».proof.Proof.KGraph
import proofs.«170954_j36249523978477_2_alg».proof.Proof.GraphAlg
import proofs.«170954_j36249523978477_2_alg».proof.Proof.RowOps

noncomputable section

namespace Cert.Finite

open Idealize.ShloMosaic Idealize.ShloMosaic.ValueIdx Idealize.SL.Sem

/-- An extended real that is neither infinity. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two reals is one of them. -/
theorem IsReal.max {x y : EReal} (hx : IsReal x) (hy : IsReal y) : IsReal (Max.max x y) := by
  rcases le_total x y with h | h
  · rw [max_eq_right h]; exact hy
  · rw [max_eq_left h]; exact hx

theorem IsReal.ite (c : Prop) [Decidable c] {x y : EReal} (hx : IsReal x) (hy : IsReal y) :
    IsReal (if c then x else y) := by
  split
  · exact hx
  · exact hy

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The features times the first weight matrix: each entry is a sum of 512 products of reals. -/
theorem matW1_real (x0 : FVec Ideal ⟨2, ![100000, 512]⟩ .f32) (x2 : FVec Ideal ⟨2, ![512, 8]⟩ .f32)
    (h0 : ∀ i, IsReal (x0 i)) (h2 : ∀ i, IsReal (x2 i)) (j : (⟨2, ![100000, 8]⟩ : Shape).Idx) :
    IsReal (Cert.RowOps.matW1 x0 x2 j) := by
  unfold Cert.RowOps.matW1
  exact IsReal.sum _ _ fun k _ => (h0 _).mul (h2 _)

section
variable (x1 : (⟨Cert.KernelIdeal.S2x3200000, .i32⟩ : BufTy).Contents (Elt Ideal))

/-- The reciprocal square root of a node's degree: its in-degree count is a nonnegative real, and the reciprocal
    square root of a nonnegative real plus one is a real. -/
theorem dis_real (i : Fin 100000) : IsReal (Cert.KGraph.dis x1 i) := by
  obtain ⟨n, hn, e⟩ := Cert.GraphAlg.count_real (fun e : Fin 3200000 => (Cert.KGraph.dstW x1 e).toInt = (i.val : Int))
  obtain ⟨d, -, hd⟩ := Cert.GraphAlg.rsqrt_deg_real n hn
  refine ⟨d, ?_⟩
  unfold Cert.KGraph.dis Cert.KGraph.cnt
  rw [e]
  exact hd

/-- An edge's coefficient is the product of two such numbers. -/
theorem coef_real (e : Fin 3200000) : IsReal (Cert.KGraph.coef x1 e) := by
  unfold Cert.KGraph.coef
  exact (dis_real x1 _).mul (dis_real x1 _)

/-- One aggregation of a table of reals: a sum over the edges of an entry times a coefficient (or 0), plus the
    node's own entry times the square of its reciprocal square root of the degree. -/
theorem agg_real (H : FVec Ideal Cert.KernelIdeal.S100000x8 .f32) (hH : ∀ j, IsReal (H j)) (i : Fin 100000) (k : Fin 8) :
    IsReal (Cert.KGraph.agg x1 H i k) := by
  unfold Cert.KGraph.agg
  exact (IsReal.zero.add (IsReal.sum _ _ fun e _ => IsReal.ite _ ((hH _).mul (coef_real x1 e)) IsReal.zero)).add
    ((hH _).mul ((dis_real x1 i).mul (dis_real x1 i)))

end

end Cert.Finite

end
-- ==== Proof.Bridge.lean ====
/-
  The two programs' logits are one function of the inputs, on the extended reals, when the float inputs are finite.
  The reference's edge list is the kernel's followed by one self loop per node, so each of its aggregations splits
  into the kernel's sum over the real edges plus the node's own term; the degrees, their reciprocal square roots and
  the edge coefficients agree; so do the hidden features after the first layer (the same numbers added in another
  grouping). In the second layer the kernel aggregates the 8 hidden features first and multiplies by the weight
  matrix afterwards, the reference multiplies first: equal because aggregation is linear over the reals, and every
  number involved is a real since the inputs are.
-/
import proofs.«170954_j36249523978477_2_alg».proof.Proof.KGraph2
import proofs.«170954_j36249523978477_2_alg».proof.Proof.RGraph
import proofs.«170954_j36249523978477_2_alg».proof.Proof.Split
import proofs.«170954_j36249523978477_2_alg».proof.Proof.Finite
import proofs.«170954_j36249523978477_2_alg».proof.Proof.RowOps

noncomputable section

namespace Cert.Bridge

open Idealize.ShloMosaic Idealize.ShloMosaic.ValueIdx Cert.Words
open Cert.KernelIdeal.KStage Cert.ReferenceIdeal.Read

variable (x0 : (⟨Cert.KernelIdeal.S100000x512, .f32⟩ : BufTy).Contents (Elt Ideal))
  (x1 : (⟨Cert.KernelIdeal.S2x3200000, .i32⟩ : BufTy).Contents (Elt Ideal))
  (x2 : (⟨Cert.KernelIdeal.S512x8, .f32⟩ : BufTy).Contents (Elt Ideal))
  (x3 : (⟨Cert.KernelIdeal.S8, .f32⟩ : BufTy).Contents (Elt Ideal))
  (x4 : (⟨Cert.KernelIdeal.S8x40, .f32⟩ : BufTy).Contents (Elt Ideal))
  (x5 : (⟨Cert.KernelIdeal.S40, .f32⟩ : BufTy).Contents (Elt Ideal))

theorem matW1_apply (p : Fin 100000) (k : Fin 8) :
    Cert.RowOps.matW1 x0 x2 (ix2 p k) = ∑ j : Fin 512, x0 (ix2 p j) * x2 (ix2 j k) := rfl

theorem logitsOf_apply (a : FVec Ideal ⟨2, ![100000, 8]⟩ .f32) (w : FVec Ideal ⟨2, ![8, 40]⟩ .f32)
    (b : FVec Ideal ⟨2, ![1, 40]⟩ .f32) (p : Fin 100000) (c : Fin 40) :
    Cert.RowOps.logitsOf a w b (ix2 p c) = (∑ k : Fin 8, a (ix2 p k) * w (ix2 k c)) + b (ix2 0 c) := rfl

/-- The hidden features after the first layer agree: the reference's aggregation over its longer edge list is the
    kernel's sum over the edges plus the node's own term, the same numbers in another grouping. -/
theorem hidden_eq : val_main_v49 (F := Ideal) x0 x1 x2 x3 = kv_main_v49 (F := Ideal) x1 x3 (Cert.RowOps.matW1 x0 x2) := by
  funext j
  obtain ⟨i, k, rfl⟩ : ∃ (i : Fin 100000) (k : Fin 8), j = ix2 i k := ⟨j 0, j 1, eq_ix2 j⟩
  have h32 : ∀ p, val_main_v32 (F := Ideal) x0 x2 (ix2 p k) = Cert.RowOps.matW1 x0 x2 (ix2 p k) := fun p => by
    rw [Cert.RGraph.v32_apply, matW1_apply]
  rw [Cert.RGraph.v49_apply, Cert.KGraph.v49_apply, Cert.Split.agg_split]
  unfold Cert.KGraph.agg
  simp only [h32, zero_add]

/-- The logits agree. -/
theorem logits_eq (h0 : ∀ i, ∃ r : ℝ, x0 i = (r : EReal)) (h2 : ∀ i, ∃ r : ℝ, x2 i = (r : EReal))
    (h3 : ∀ i, ∃ r : ℝ, x3 i = (r : EReal)) (h4 : ∀ i, ∃ r : ℝ, x4 i = (r : EReal)) (h5 : ∀ i, ∃ r : ℝ, x5 i = (r : EReal)) :
    val_main_v94 (F := Ideal) x0 x1 x2 x3 x4 x5
      = Cert.RowOps.logitsOf (kv_main_v65 (F := Ideal) x1 x3 (Cert.RowOps.matW1 x0 x2)) x4 (kv_main_v66 (F := Ideal) x5) := by
  funext j
  obtain ⟨i, c, rfl⟩ : ∃ (i : Fin 100000) (c : Fin 40), j = ix2 i c := ⟨j 0, j 1, eq_ix2 j⟩
  -- the hidden table is real-valued
  have hH : ∀ p k, Cert.Finite.IsReal (kv_main_v49 (F := Ideal) x1 x3 (Cert.RowOps.matW1 x0 x2) (ix2 p k)) := fun p k => by
    rw [Cert.KGraph.v49_apply]
    exact Cert.Finite.IsReal.max
      (Cert.Finite.IsReal.add (Cert.Finite.agg_real x1 _ (fun j => Cert.Finite.matW1_real x0 x2 h0 h2 j) p k) (h3 _))
      Cert.Finite.IsReal.zero
  -- the reference's side: aggregate the projected rows
  rw [Cert.RGraph.v94_apply, Cert.Split.agg_split]
  simp only [Cert.RGraph.v78_apply, hidden_eq]
  -- the kernel's side: project the aggregated rows
  rw [logitsOf_apply, Cert.KGraph.v66_apply]
  simp only [Cert.KGraph.v65_apply]
  unfold Cert.KGraph.agg
  -- every number is a real
  choose hr hhr using hH
  choose cr hcr using (fun e => Cert.Finite.coef_real x1 e)
  obtain ⟨d1, hd1⟩ := Cert.Finite.dis_real x1 i
  choose wr hwr using (fun k => h4 (ix2 k c))
  simp only [hhr, hcr, hd1, hwr]
  rw [← EReal.coe_mul d1 d1]
  rw [Cert.GraphAlg.aggregate_then_project (fun e => (Cert.KGraph.dstW x1 e).toInt = (i.val : Int))
    (fun e k => hr (pos (Cert.KGraph.srcW x1 e)) k) cr (fun k => hr i k) (d1 * d1) wr]

end Cert.Bridge

end
-- ==== Proof.RefTail.lean ====
/-
  The reference's closing log-softmax, read row by row.  It subtracts from each logit the maximum of its row
  (a fold of max from −∞ along the 40 classes, then one more max against −∞, which changes nothing), takes
  exponentials, sums them along the row from 0, takes the logarithm, and subtracts it: entry (p, c) is
  (L p c − M p) − log (Σ_k exp (L p k − M p)), with M p the maximum of row p of the logits L.
-/
import proofs.«170954_j36249523978477_2_alg».proof.Proof.RefRead
import proofs.«170954_j36249523978477_2_alg».proof.Proof.RowOps
import Idealize.ShloMosaic.PureOps.Ideal.Laws

noncomputable section

namespace Cert.ReferenceIdeal.RefTail

open Cert.ReferenceIdeal Cert.ReferenceIdeal.Gen Cert.ReferenceIdeal.Read
open Idealize.ShloMosaic Idealize.ShloMosaic.ValueIdx Idealize.SL.Sem

/-- Along axis 1 a [100000, 40] array reduces to a [100000] one. -/
theorem red : S100000x40.Reduces [1] S100000 := by decide

/-- Row p's index with class k put back on axis 1 is the pair (p, k). -/
theorem lift_eq (p : Fin 100000) (k : Fin 40) : red.lift (ix1 p) k = ix2 p k := by
  funext a
  apply Fin.ext
  match a with
  | ⟨0, _⟩ => rfl
  | ⟨1, _⟩ => rfl

/-- The bit pattern of −∞ is the least extended real. -/
theorem neg_inf : Ideal.ofBits .f32 0xFF800000#32 = (⊥ : EReal) := by simp [Ideal.ofBits, Ideal.ieee]

/-- The fold of max from −∞ along row p of an array is that row's maximum. -/
theorem rowmax_eq (L : FVec Ideal S100000x40 .f32) (p : Fin 100000) :
    Host.reduce (FloatOps.maximumf (F := Ideal) (φ := .f32)) L (val_main_call3_cst (F := Ideal)) reducesTo_S100000x40_S100000_d1 h_S_ (ix1 p)
      = Cert.RowOps.rowMax L p := by
  rw [Host.reduce_eq_fold_single (FloatOps.maximumf (F := Ideal) (φ := .f32)) L _ reducesTo_S100000x40_S100000_d1 red h_S_ (ix1 p)]
  have e : (L ∘ red.lift (ix1 p)) = fun k : Fin 40 => L (ix2 p k) := funext fun k => congrArg L (lift_eq p k)
  rw [e]
  rfl

section
variable (x0 : (⟨S100000x512, .f32⟩ : BufTy).Contents (Elt Ideal)) (x1 : (⟨S2x3200000, .i32⟩ : BufTy).Contents (Elt Ideal)) (x2 : (⟨S512x8, .f32⟩ : BufTy).Contents (Elt Ideal)) (x3 : (⟨S8, .f32⟩ : BufTy).Contents (Elt Ideal)) (x4 : (⟨S8x40, .f32⟩ : BufTy).Contents (Elt Ideal)) (x5 : (⟨S40, .f32⟩ : BufTy).Contents (Elt Ideal))

/-- The maximum the reference subtracts in row p: the fold, then max with −∞, is the row's maximum. -/
theorem max_at (p : Fin 100000) :
    val_main_call3_v2 (F := Ideal) x0 x1 x2 x3 x4 x5 (ix1 p)
      = Cert.RowOps.rowMax (val_main_v94 (F := Ideal) x0 x1 x2 x3 x4 x5) p := by
  rw [val_main_call3_v2_apply, val_main_call3_v1_apply, val_main_call3_cst_0_apply]
  unfold val_main_call3_v0
  rw [rowmax_eq]
  show max (Ideal.ofBits .f32 0xFF800000#32) _ = _
  rw [neg_inf]
  exact max_bot_left _

/-- The shifted logit at (p, c): the logit less its row's maximum. -/
theorem shifted_at (p : Fin 100000) (c : Fin 40) :
    val_main_call3_v5 (F := Ideal) x0 x1 x2 x3 x4 x5 (ix2 p c)
      = val_main_v94 (F := Ideal) x0 x1 x2 x3 x4 x5 (ix2 p c)
        - Cert.RowOps.rowMax (val_main_v94 (F := Ideal) x0 x1 x2 x3 x4 x5) p := by
  have e : idx_main_call3_v3 (idx_main_call3_v4 (ix2 p c)) = ix1 p :=
    funext fun a => Fin.ext (by match a with | ⟨0, _⟩ => rfl)
  rw [val_main_call3_v5_apply, val_main_call3_v4_apply, val_main_call3_v3_apply, e, max_at]
  rfl

/-- The normaliser of row p: the sum over the classes of the exponentials of the shifted logits. -/
theorem sumexp_at (p : Fin 100000) :
    val_main_call3_v7 (F := Ideal) x0 x1 x2 x3 x4 x5 (ix1 p)
      = ∑ k : Fin 40, Ideal.exp (val_main_v94 (F := Ideal) x0 x1 x2 x3 x4 x5 (ix2 p k)
          - Cert.RowOps.rowMax (val_main_v94 (F := Ideal) x0 x1 x2 x3 x4 x5) p) := by
  rw [val_main_call3_v7_apply, val_main_call3_cst_1_apply]
  show Ideal.ofBits .f32 0x00000000#32 + _ = _
  rw [Ideal.ofBits_zero_f32, zero_add]
  refine Finset.sum_congr rfl fun k _ => ?_
  have e : idx_main_call3_v7 (ix1 p) k = ix2 p k :=
    funext fun a => Fin.ext (by match a with | ⟨0, _⟩ => rfl | ⟨1, _⟩ => rfl)
  rw [e, val_main_call3_v6_apply, shifted_at, Ideal.hostUnary_exp_def]

/-- The reference's log-probabilities are the row-wise log-softmax of its logits. -/
theorem logp_eq :
    val_main_v95 (F := Ideal) x0 x1 x2 x3 x4 x5
      = Cert.RowOps.logSoftmaxOf (val_main_v94 (F := Ideal) x0 x1 x2 x3 x4 x5) := by
  funext i
  obtain ⟨p, c, rfl⟩ : ∃ (p : Fin 100000) (c : Fin 40), i = ix2 p c := ⟨i 0, i 1, eq_ix2 i⟩
  have e : idx_main_call3_v8 (idx_main_call3_v10 (ix2 p c)) = ix1 p :=
    funext fun a => Fin.ext (by match a with | ⟨0, _⟩ => rfl)
  rw [val_main_v95_apply, shifted_at, val_main_call3_v10_apply, val_main_call3_v9_apply,
    val_main_call3_v8_apply, e, sumexp_at, Ideal.hostUnary_log_def, Ideal.subf_def]
  unfold Cert.RowOps.logSoftmaxOf
  have h0 : (ix2 p c : S100000x40.Idx) 0 = p := rfl
  rw [h0]

end

end Cert.ReferenceIdeal.RefTail

end
-- ==== Proof.PreFinite.lean ====
/-
  Finiteness of the float arguments, read out of the precondition.  The precondition is the conjunction of
  five tests "every entry x of the array has |x| < +∞", one per float argument; a test holds of the whole
  array exactly when it holds of each entry, and an extended real x with max x (−x) < +∞ is neither −∞
  nor +∞, hence a real number.
-/
import proofs.«170954_j36249523978477_2_alg».proof.Defs
import proofs.«170954_j36249523978477_2_alg».proof.Proof.Gen.Pre_finite_inputs
import proofs.«170954_j36249523978477_2_alg».proof.Proof.Gen.KernelIdeal
import Idealize.ShloMosaic.Lib.ReduceAll
import Idealize.ShloMosaic.Lib.ValueIdx

noncomputable section

namespace Cert.PreFinite

open Idealize.ShloMosaic Idealize.SL.Sem
open Cert.Pre_finite_inputs.Gen Cert.KernelIdeal.Gen

/-- The shape of a scalar has exactly one index (the empty tuple). -/
instance : Subsingleton Cert.Pre_finite_inputs.S_.Idx := ⟨fun a b => funext fun d => d.elim0⟩

/-- An extended real whose absolute value max x (−x) lies strictly below +∞ is a real number:
    at −∞ and at +∞ the absolute value is +∞ itself. -/
theorem real_of_abs_lt (x : EReal)
    (h : Ideal.cmp .olt (max x (-x)) (Ideal.ofBits .f32 0x7F800000#32) = 1#1) :
    ∃ r : ℝ, x = (r : EReal) := by
  have top : Ideal.ofBits .f32 0x7F800000#32 = (⊤ : EReal) := by simp [Ideal.ofBits, Ideal.ieee]
  rw [top] at h
  induction x using EReal.rec with
  | bot => simp [Ideal.cmp] at h
  | coe r => exact ⟨r, rfl⟩
  | top => simp [Ideal.cmp] at h

theorem finite_args (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal)) := by
  have e := congrFun (h c) ValueIdx.ix0
  dsimp only [Cert.Pre_finite_inputs.fn, Cert.Pre_finite_inputs.fn_part1] at e
  have split : ∀ (x y : IVec Cert.Pre_finite_inputs.S_ 1) (i : Cert.Pre_finite_inputs.S_.Idx),
      andi x y i = IntOp.andi (x i) (y i) := fun _ _ _ => rfl
  simp only [split, IntOp.andi_eq_one] at e
  obtain ⟨⟨⟨⟨h0, h2⟩, h3⟩, h4⟩, h5⟩ := e
  exact ⟨fun i => real_of_abs_lt _ (Host.reduce_andi_all _ _ _ _ _ h0 i),
    fun i => real_of_abs_lt _ (Host.reduce_andi_all _ _ _ _ _ h2 i),
    fun i => real_of_abs_lt _ (Host.reduce_andi_all _ _ _ _ _ h3 i),
    fun i => real_of_abs_lt _ (Host.reduce_andi_all _ _ _ _ _ h4 i),
    fun i => real_of_abs_lt _ (Host.reduce_andi_all _ _ _ _ _ h5 i)⟩

end Cert.PreFinite

end
-- ==== Proof.lean ====
/-
  Both programs compute a two-layer graph convolution followed by a row-wise log-softmax. With A the edge list's
  adjacency (entry (t, s) counting the edges from s to t), deg = 1 + the number of edges into a node, and
  d = 1 / sqrt deg, a layer sends node features H to  b + Σ_edges d(t) d(s) (H W)(s) into row t  +  d² · (H W)
  (symmetric degree normalisation with a self loop at every node); the first layer is followed by max(·, 0), the second
  by the logits' log-softmax over the 40 classes. The kernel program multiplies by each weight matrix in a launch of
  its own, over 20 blocks of 5000 rows; in the second layer it aggregates the 8 hidden features first and multiplies by
  the weight matrix after, adding the bias and taking the log-softmax inside the second launch. The reference program
  multiplies by the weight matrix first and aggregates the products, layer by layer, its edge list the kernel's followed
  by one self loop per node. The two agree at the extended reals
  because aggregation is linear — gathering rows, scaling them, and summing them into rows commutes with multiplying
  every row by one matrix — and that exchange of finite sums and products is valid since every float input is finite,
  which the precondition states. The assembly below: the two kernel frames are the generated ones; the reference's frame
  is its run with the results dropped; the kernel program's run ends at the logits and their log-softmax as functions of
  the arguments; the reference's run ends at its own composed terms, which are rewritten to the kernel's at arguments
  that agree.
-/
import proofs.«170954_j36249523978477_2_alg».proof.Defs
import proofs.«170954_j36249523978477_2_alg».proof.Proof.Gen.Kernel
import proofs.«170954_j36249523978477_2_alg».proof.Proof.Gen.Kernel.Skeleton
import proofs.«170954_j36249523978477_2_alg».proof.Proof.Gen.Kernel.Launch
import proofs.«170954_j36249523978477_2_alg».proof.Proof.Gen.Kernel.Points
import proofs.«170954_j36249523978477_2_alg».proof.Proof.Gen.Kernel.Frame
import proofs.«170954_j36249523978477_2_alg».proof.Proof.Gen.KernelIdeal
import proofs.«170954_j36249523978477_2_alg».proof.Proof.Gen.KernelIdeal.Skeleton
import proofs.«170954_j36249523978477_2_alg».proof.Proof.Gen.KernelIdeal.Launch
import proofs.«170954_j36249523978477_2_alg».proof.Proof.Gen.KernelIdeal.Points
import proofs.«170954_j36249523978477_2_alg».proof.Proof.Gen.KernelIdeal.Frame
import proofs.«170954_j36249523978477_2_alg».proof.Proof.Gen.ReferenceIdeal
import proofs.«170954_j36249523978477_2_alg».proof.Proof.Gen.Pre_finite_inputs
import Idealize.ShloMosaic.Adequacy
import Idealize.ShloMosaic.Init
import proofs.«170954_j36249523978477_2_alg».proof.Proof.KValue
import proofs.«170954_j36249523978477_2_alg».proof.Proof.RefRun
import proofs.«170954_j36249523978477_2_alg».proof.Proof.Bridge
import proofs.«170954_j36249523978477_2_alg».proof.Proof.RefTail
import proofs.«170954_j36249523978477_2_alg».proof.Proof.PreFinite
import proofs.«170954_j36249523978477_2_alg».proof.Proof.RowOps

noncomputable section

namespace Cert.Proof

open Idealize.ShloMosaic Idealize.SL.Sem
open Cert.KernelIdeal.KValue (KL)

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hpre : Cert.Pre_KernelIdeal m)
  (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (c : Dev Cert.KernelIdeal.nD)

include hpre hagree in
/-- The reference's logits at arguments that agree with the kernel program's finite ones are the kernel program's. -/
theorem ref_logits :
    Cert.ReferenceIdeal.Read.val_main_v94 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
      = KL (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  obtain ⟨e0, e1, e2, e3, e4, e5⟩ := hagree c
  obtain ⟨h0, h2, h3, h4, h5⟩ := Cert.PreFinite.finite_args m hpre c
  rw [e0, e1, e2, e3, e4, e5]
  exact Cert.Bridge.logits_eq _ _ _ _ _ _ h0 h2 h3 h4 h5

include hpre hagree in
/-- The reference's log-probabilities there are the log-softmax of the kernel program's logits. -/
theorem ref_logp :
    Cert.ReferenceIdeal.Read.val_main_v95 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
      = Cert.RowOps.logSoftmaxOf (KL (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))) :=
  (Cert.ReferenceIdeal.RefTail.logp_eq _ _ _ _ _ _).trans (congrArg Cert.RowOps.logSoftmaxOf (ref_logits m m' hpre hagree c))

end Agree

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  fun m ρ m' ρ' hpre hagree =>
    ⟨fun c => Cert.RowOps.logSoftmaxOf (KL (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))),
     fun c => KL (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)),
     Cert.KernelIdeal.KValue.run m ρ,
     (θ_run Cert.ReferenceIdeal.defs _ _).mono (fun _ h c =>
        ⟨(h c).1.trans (ref_logp m m' hpre hagree c), (h c).2.1.trans (ref_logits m m' hpre hagree c), (h c).2.2⟩)
       (Cert.ReferenceIdeal.Value.run (F := Ideal) m' ρ')⟩⟩

end Cert.Proof

end
